-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![1024, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S1024x4096 : Shape := ⟨2, ![1024, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel

variable [Facts]

def fn {F : FTy → Type} [FloatOps F] (main_arg0 : FVec F S1024x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  main_v3
-- ==== Kernel.lean ====
abbrev S1024x1024 : Shape := ⟨2, ![1024, 1024]⟩
abbrev S4x1x1024 : Shape := ⟨3, ![4, 1, 1024]⟩
abbrev S4 : Shape := ⟨1, ![4]⟩
abbrev S_ : Shape := ⟨0, ![]⟩
abbrev S1x1024 : Shape := ⟨2, ![1, 1024]⟩
abbrev S1x1x1024 : Shape := ⟨3, ![1, 1, 1024]⟩
abbrev S1 : Shape := ⟨1, ![1]⟩
abbrev S1024x1 : Shape := ⟨2, ![1024, 1]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S4x1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  { ofTc nBuf bufTy 1 10 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v52 : BitVec 32 := Scalar.addi v2 c1_i32_35
  let c4_i32_36 : BitVec 32 := 4#32
  let c0_i32_37 : BitVec 32 := 0#32
  let v53 : BitVec 1 := Scalar.cmpi .eq c4_i32_36 c0_i32_37
  let c1_i32_38 : BitVec 32 := 1#32
  let v54 : BitVec 32 := Scalar.select v53 c1_i32_38 c4_i32_36
  let v55 : BitVec 32 := Scalar.remsi v52 v54
  let c0_i32_40 : BitVec 32 := 0#32
  let v57 : BitVec 1 := Scalar.cmpi .slt v55 c0_i32_40
  let c0_i32_41 : BitVec 32 := 0#32
  let v58 : BitVec 1 := Scalar.cmpi .slt v54 c0_i32_41
  let v59 : BitVec 1 := Scalar.xori v57 v58
  let c0_i32_39 : BitVec 32 := 0#32
  let v56 : BitVec 1 := Scalar.cmpi .ne v55 c0_i32_39
  let v60 : BitVec 1 := Scalar.andi v59 v56
  let v61 : BitVec 32 := Scalar.addi v55 v54
  let v62 : BitVec 32 := Scalar.select v60 v61 v55
  let c1_i32_46 : BitVec 32 := 1#32
  let v63 : BitVec 32 := Scalar.muli v62 c1_i32_46
  let v64 : BitVec 32 := Scalar.addi c0_i32_47 v63
  v64.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v73 : BitVec 32 := Scalar.addi v2 c2_i32_52
  let c4_i32_53 : BitVec 32 := 4#32
  let c0_i32_54 : BitVec 32 := 0#32
  let v74 : BitVec 1 := Scalar.cmpi .eq c4_i32_53 c0_i32_54
  let c1_i32_55 : BitVec 32 := 1#32
  let v75 : BitVec 32 := Scalar.select v74 c1_i32_55 c4_i32_53
  let v76 : BitVec 32 := Scalar.remsi v73 v75
  let c0_i32_57 : BitVec 32 := 0#32
  let v78 : BitVec 1 := Scalar.cmpi .slt v76 c0_i32_57
  let c0_i32_58 : BitVec 32 := 0#32
  let v79 : BitVec 1 := Scalar.cmpi .slt v75 c0_i32_58
  let v80 : BitVec 1 := Scalar.xori v78 v79
  let c0_i32_56 : BitVec 32 := 0#32
  let v77 : BitVec 1 := Scalar.cmpi .ne v76 c0_i32_56
  let v81 : BitVec 1 := Scalar.andi v80 v77
  let v82 : BitVec 32 := Scalar.addi v76 v75
  let v83 : BitVec 32 := Scalar.select v81 v82 v76
  let c1_i32_63 : BitVec 32 := 1#32
  let v84 : BitVec 32 := Scalar.muli v83 c1_i32_63
  let v85 : BitVec 32 := Scalar.addi c0_i32_64 v84
  v85.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v94 : BitVec 32 := Scalar.addi v2 c3_i32_69
  let c4_i32_70 : BitVec 32 := 4#32
  let c0_i32_71 : BitVec 32 := 0#32
  let v95 : BitVec 1 := Scalar.cmpi .eq c4_i32_70 c0_i32_71
  let c1_i32_72 : BitVec 32 := 1#32
  let v96 : BitVec 32 := Scalar.select v95 c1_i32_72 c4_i32_70
  let v97 : BitVec 32 := Scalar.remsi v94 v96
  let c0_i32_74 : BitVec 32 := 0#32
  let v99 : BitVec 1 := Scalar.cmpi .slt v97 c0_i32_74
  let c0_i32_75 : BitVec 32 := 0#32
  let v100 : BitVec 1 := Scalar.cmpi .slt v96 c0_i32_75
  let v101 : BitVec 1 := Scalar.xori v99 v100
  let c0_i32_73 : BitVec 32 := 0#32
  let v98 : BitVec 1 := Scalar.cmpi .ne v97 c0_i32_73
  let v102 : BitVec 1 := Scalar.andi v101 v98
  let v103 : BitVec 32 := Scalar.addi v97 v96
  let v104 : BitVec 32 := Scalar.select v102 v103 v97
  let c1_i32_80 : BitVec 32 := 1#32
  let v105 : BitVec 32 := Scalar.muli v104 c1_i32_80
  let v106 : BitVec 32 := Scalar.addi c0_i32_81 v105
  v106.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S4x1x1024_S1x1x1024_0_0_0 : ∀ a, (![0, 0, 0] : Fin 3 → Nat) a + S1x1x1024.size a ≤ S4x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  hamt_3 : (3#32 : BitVec 32).msb = false
  inb_S4_S1_1 : ∀ a, (![1] : Fin 1 → Nat) a + S1.size a ≤ S4.size a
  squeezes_S1_S_ : S1.Squeezes S_
  inb_S4_S1_3 : ∀ a, (![3] : Fin 1 → Nat) a + S1.size a ≤ S4.size a
  inb_S4x1x1024_S1x1x1024_3_0_0 : ∀ a, (![3, 0, 0] : Fin 3 → Nat) a + S1x1x1024.size a ≤ S4x1x1024.size a
  squeezes_S1x1x1024_S1x1024 : S1x1x1024.Squeezes S1x1024
  inb_S4_S1_2 : ∀ a, (![2] : Fin 1 → Nat) a + S1.size a ≤ S4.size a
  inb_S4x1x1024_S1x1x1024_2_0_0 : ∀ a, (![2, 0, 0] : Fin 3 → Nat) a + S1x1x1024.size a ≤ S4x1x1024.size a
  inb_S4x1x1024_S1x1x1024_1_0_0 : ∀ a, (![1, 0, 0] : Fin 3 → Nat) a + S1x1x1024.size a ≤ S4x1x1024.size a
  inb_S4x1x1024_S4x1x1024_0_0_0 : ∀ a, (![0, 0, 0] : Fin 3 → Nat) a + S4x1x1024.size a ≤ S4x1x1024.size a
  h_S4x1x1024 : 0 < S4x1x1024.numel
  reduces_S4x1x1024_S1x1024 : S4x1x1024.Reduces [0] S1x1024
  transposes_S1x1024_p1_0_S1024x1 : S1x1024.Transposes [1, 0] S1024x1
  broadcasts_S1024x1_S1024x1024 : S1024x1.Broadcasts S1024x1024
  dot_S1x1024_S1024x1024_S1x1024_1_1_0_0_n_n_wf : DotDims.WF S1x1024 S1024x1024 S1x1024 [1] [1] [0] [0] [] []
  hcc0_scratch1 : 2 + S4.numel ≤ 10
  hcc0_scratch2 : 6 + S4.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S4 := SemArray.consecutive 2 S4 hcc0_scratch1
abbrev cc0_scratch2 : DmaSems sig S4 := SemArray.consecutive 6 S4 hcc0_scratch2
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x4096, .f32⟩
  | .hbm, ⟨11, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)

variable [Facts₀]

class Facts : Prop extends Facts₀ where

variable [Facts]
-- ==== Proof.KernelSpec.lean ====
/-
  What one device's result holds, as a pure function of the four devices' input blocks.

  Each device exponentiates its 1024×1024 block and sums every row of the exponentials (a product with a row of ones):
  a 1×1×1024 row of partial sums. Row `k` of a device's 4×1×1024 statistics buffer ends holding the partial sums of the
  device `k` places further round the mesh (row 0 its own). The result is the block of exponentials, each row scaled by
  the reciprocal of the sum of the four partial sums of that row.
-/
import proofs.«900394_g7700000000000395_dist_softmax_colshard_i_m1024_n1024_v7x_i4_f32_1_alg».proof.Proof.Gen.Kernel.Skeleton

noncomputable section

namespace Cert.Kernel.Spec

open Cert.Kernel Cert.Kernel.Gen Idealize.ShloMosaic

variable {F : FTy → Type} [FloatOps F]

/-- Device `c` moved `r` places round the mesh of four. -/
def sh (c : Dev nD) (r : Fin 4) : Dev nD := ⟨(c.val + r.val) % 4, Nat.mod_lt _ (by decide)⟩

/-- The statistics buffer once every row has arrived: row `k` is the row sums of the exponentials of the block of the
    device `k` places after `c`. -/
def gathered (X : Dev nD → Vec F S1024x1024 .f32) (c : Dev nD) : Vec F S4x1x1024 .f32 :=
  fun i => k0_pay2 (X (sh c ⟨(i 0).val, (i 0).isLt⟩)) (fun a => match a with
    | ⟨0, _⟩ => ⟨0, Nat.one_pos⟩
    | ⟨1, _⟩ => ⟨0, Nat.one_pos⟩
    | ⟨2, _⟩ => ⟨(i 2).val, (i 2).isLt⟩)

/-- Device `c`'s result block: its exponentials, each row over the sum of that row's four partial sums. -/
def result (X : Dev nD → Vec F S1024x1024 .f32) (c : Dev nD) : Vec F S1024x1024 .f32 :=
  k0_pay3 (gathered X c) (k0_pay1 (X c))

end Cert.Kernel.Spec

end
-- ==== Proof.KernelProto.lean ====
/-
  The four devices' protocol. Every device signals the barrier semaphore of each of the three others once, and waits for
  three units on its own: after that wait all three peers are inside the kernel. It then copies row 0 of its statistics
  buffer (its own partial row sums) to the device `r` places further round the mesh, `r` = 1, 2, 3, into row `4 - r`
  there, crediting its own send semaphore `r` and the receiver's receive semaphore `4 - r`; waits for its three receive
  semaphores; reads the four rows; and waits for its three send semaphores.

  As a schedule of one round per semaphore: a barrier semaphore has three duties of one unit, one per peer, and the duty
  paid by the device `r` places BEFORE the owner hands over row `r` of that device's buffer — the row the owner will
  write; a receive semaphore `k` has one duty, paid by the device `k` places after the owner, handing over row `k` of
  the owner's buffer holding that device's partial sums; a send semaphore has one duty, paid by its owner's own copy,
  handing back the share of row 0 the copy read. No wait is made while anything is owed except the barrier wait, made
  while the three receive credits are still owed: receive semaphores sit above barrier semaphores.
-/
import proofs.«900394_g7700000000000395_dist_softmax_colshard_i_m1024_n1024_v7x_i4_f32_1_alg».proof.Proof.Gen.Kernel
import proofs.«900394_g7700000000000395_dist_softmax_colshard_i_m1024_n1024_v7x_i4_f32_1_alg».proof.Proof.Gen.Kernel.Skeleton
import proofs.«900394_g7700000000000395_dist_softmax_colshard_i_m1024_n1024_v7x_i4_f32_1_alg».proof.Proof.Gen.Kernel.Launch
import proofs.«900394_g7700000000000395_dist_softmax_colshard_i_m1024_n1024_v7x_i4_f32_1_alg».proof.Proof.Gen.Kernel.Points
import proofs.«900394_g7700000000000395_dist_softmax_colshard_i_m1024_n1024_v7x_i4_f32_1_alg».proof.Proof.Gen.Kernel.Frame
import proofs.«900394_g7700000000000395_dist_softmax_colshard_i_m1024_n1024_v7x_i4_f32_1_alg».proof.Proof.KernelSpec
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (duties numbered 0 … 3) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The mesh -/

theorem sh_zero (c : Dev nD) : sh c 0 = c := by revert c; decide
/-- Going `r` places on and `4 - r` places on again is once round. -/
theorem sh_sh_neg (c : Dev nD) (r : Fin 4) : sh (sh c r) (-r) = c := by revert c r; decide
theorem sh_neg_sh (c : Dev nD) (r : Fin 4) : sh (sh c (-r)) r = c := by revert c r; decide
theorem sh_inj (r : Fin 4) : Function.Injective fun c : Dev nD => sh c r := by revert r; decide
theorem sh_ne (c : Dev nD) (r : Fin 4) (hr : r ≠ 0) : sh c r ≠ c := by revert c r; decide

/-- The printed device chains: the three signals and the three copies name the devices 1, 2, 3 places on. -/
theorem dev1_eq (c : Dev nD) : (⟨k0_dev1 c, k0_dev1_lt c⟩ : Dev nD) = sh c 1 := by revert c; decide +kernel
theorem dev2_eq (c : Dev nD) : (⟨k0_dev2 c, k0_dev2_lt c⟩ : Dev nD) = sh c 2 := by revert c; decide +kernel
theorem dev3_eq (c : Dev nD) : (⟨k0_dev3 c, k0_dev3_lt c⟩ : Dev nD) = sh c 3 := by revert c; decide +kernel
theorem dev4_eq (c : Dev nD) : (⟨k0_dev4 c, k0_dev4_lt c⟩ : Dev nD) = sh c 1 := by revert c; decide +kernel
theorem dev5_eq (c : Dev nD) : (⟨k0_dev5 c, k0_dev5_lt c⟩ : Dev nD) = sh c 2 := by revert c; decide +kernel
theorem dev6_eq (c : Dev nD) : (⟨k0_dev6 c, k0_dev6_lt c⟩ : Dev nD) = sh c 3 := by revert c; decide +kernel

/-! ## The memrefs and the cells -/

abbrev xM : Memref sig .tc .vmem S1024x1024 .f32 := Memref.whole cc0_stg0_0
abbrev oM : Memref sig .tc .vmem S1024x1024 .f32 := Memref.whole cc0_stg1_0
abbrev sM : Memref sig .tc .vmem S4x1x1024 .f32 := Memref.whole cc0_scratch0

theorem rowInb (k : Fin 4) : ∀ a, (![k.val, 0, 0] : Fin 3 → Nat) a + S1x1x1024.size a ≤ S4x1x1024.size a := by
  fin_cases k <;> decide
/-- Row `k`'s rectangle in the statistics buffer: offset (k, 0, 0), extent 1×1×1024. -/
abbrev rowR (k : Fin 4) : Rect S4x1x1024 := Rect.unit (s := S4x1x1024) ![k.val, 0, 0] S1x1x1024.size (rowInb k)
/-- Row `k` of the statistics buffer, as the copies name it: that slice with its leading axis squeezed away. -/
abbrev slotM (k : Fin 4) : Memref sig .tc .vmem S1x1024 .f32 :=
  (sM.slice (rowR k) (fun _ => rfl)).squeeze S1x1024 squeezes_S1x1x1024_S1x1024

/-- The runtime's barrier semaphore (not scoped to the launch); the send and receive DMA semaphores (scoped scratch),
    numbered as the two arrays of four lie in the pool. -/
abbrev barS : Sem sig := (SemArray.scalar (sig.barrier 0 rfl) : Sems sig S_).sem
def sendS : Fin 4 → DmaSem sig := fun | 0 => 2 | 1 => 3 | 2 => 4 | 3 => 5
def recvS : Fin 4 → DmaSem sig := fun | 0 => 6 | 1 => 7 | 2 => 8 | 3 => 9

abbrev barCell (c : Dev nD) : GSem nD τ sig := ((c : Thread nD τ), .reg barS)
abbrev sendCell (c : Dev nD) (r : Fin 4) : GSem nD τ sig := ((c : Thread nD τ), .dma (sendS r))
abbrev recvCell (c : Dev nD) (k : Fin 4) : GSem nD τ sig := ((c : Thread nD τ), .dma (recvS k))

/-- The protocol's seven cells of a device: its barrier, its send semaphores 1 … 3, its receive semaphores 1 … 3. -/
abbrev csem : Fin 7 → SemLoc sig := fun
  | 0 => .reg barS | 1 => .dma (sendS 1) | 2 => .dma (sendS 2) | 3 => .dma (sendS 3)
  | 4 => .dma (recvS 1) | 5 => .dma (recvS 2) | 6 => .dma (recvS 3)
/-- The six of them that are the kernel's own (scoped). -/
abbrev osem : Fin 6 → SemLoc sig := fun j => csem j.succ
abbrev kcell (ck : Dev nD × Fin 7) : GSem nD τ sig := ((ck.1 : Thread nD τ), csem ck.2)

/-- A row's credit in DMA units. -/
abbrev N : ℕ := (slotM 0 : Memref sig .tc .vmem S1x1024 .f32).view.dmaCredit
theorem N_pos : 0 < N := View.dmaCredit_pos _ (by decide)

/-! ## Contents -/

/-- Device `d`'s block of the input, as its kernel finds it staged. -/
def xstg (d : Dev nD) : (cc0_stg0_0 : Ref sig .tc).ty.Contents (Elt F) :=
  (win0_0.blk (0 : Fin 1)).view.read (Elt F) (m ((d : Thread nD τ).loc main_arg0))

/-- The final contents of device `c`'s statistics buffer: row `k` the partial row sums of the device `k` places on. -/
def gath (c : Dev nD) : (cc0_scratch0 : Ref sig .tc).ty.Contents (Elt F) := Spec.gathered (fun d => xstg m d) c

/-- The four shares of row 0: one the device keeps to read the row, one for each of the three copies out of it. -/
def qS : Fin 4 → PosShare TreeShare := fun
  | 0 => fullShare.left | 1 => fullShare.right.left | 2 => fullShare.right.right.left | 3 => fullShare.right.right.right

/-- Share `q` of the elements of row `k` of device `c`'s buffer, at contents `f`. -/
def rowPts (c : Dev nD) (k : Fin 4) (q : PosShare TreeShare) (f : Buf (Elt F) ((slotM k).view.loc (c : Thread nD τ))) : sProp 𝕄 :=
  (slotM k).view.loc (c : Thread nD τ) ↦[(slotM k).view.set]{q} f

/-- What the barrier duty paid by the device `r` places before `c` hands `c`: row `r` of that device's buffer, to write. -/
def barPay (c : Dev nD) (r : Fin 4) : sProp 𝕄 := iprop(∃ f, rowPts (sh c (-r)) r fullShare f)
/-- What receive semaphore `k`'s duty hands `c`: row `k` of its buffer at its final contents. -/
def recvPay (c : Dev nD) (k : Fin 4) : sProp 𝕄 := rowPts c k fullShare (gath m c)
/-- What send semaphore `r`'s duty hands back: the share of row 0 the copy read. -/
def sendPay (c : Dev nD) (r : Fin 4) : sProp 𝕄 := rowPts c 0 (qS r) (gath m c)

/-! ## The schedule -/

abbrev IsBar (g : GSem nD τ sig) : Prop := g.1.2 = .tc ∧ g.2 = .reg barS
abbrev IsXfer (g : GSem nD τ sig) : Prop :=
  g.1.2 = .tc ∧ (g.2 = .dma (sendS 1) ∨ g.2 = .dma (sendS 2) ∨ g.2 = .dma (sendS 3) ∨ g.2 = .dma (recvS 1) ∨ g.2 = .dma (recvS 2) ∨ g.2 = .dma (recvS 3))

/-- One round, round 0: a barrier cell has the duties 1, 2, 3 of one unit each; a send or receive cell the duty 0 of a
    row's credit. -/
def sched : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then barPay g.1.1 d
    else if g.2 = .dma (sendS 1) then sendPay m g.1.1 1
    else if g.2 = .dma (sendS 2) then sendPay m g.1.1 2
    else if g.2 = .dma (sendS 3) then sendPay m g.1.1 3
    else if g.2 = .dma (recvS 1) then recvPay m g.1.1 1
    else if g.2 = .dma (recvS 2) then recvPay m g.1.1 2
    else if g.2 = .dma (recvS 3) then recvPay m g.1.1 3
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 4) :
    BI.Storable (upEmb : UEmb _ 𝕄) ((sched (F := F) m).payload g r d) := by
  show BI.Storable upEmb (if g.2 = .reg barS then barPay g.1.1 d
    else if g.2 = .dma (sendS 1) then sendPay m g.1.1 1
    else if g.2 = .dma (sendS 2) then sendPay m g.1.1 2
    else if g.2 = .dma (sendS 3) then sendPay m g.1.1 3
    else if g.2 = .dma (recvS 1) then recvPay m g.1.1 1
    else if g.2 = .dma (recvS 2) then recvPay m g.1.1 2
    else if g.2 = .dma (recvS 3) then recvPay m g.1.1 3
    else iprop(emp))
  unfold barPay recvPay sendPay rowPts
  (repeat' split) <;> infer_instance

section Sched
variable (c : Dev nD)

theorem bar_ne_send (r : Fin 4) : (SemLoc.reg barS : SemLoc sig) ≠ .dma (sendS r) := fun h => by cases h
theorem bar_ne_recv (k : Fin 4) : (SemLoc.reg barS : SemLoc sig) ≠ .dma (recvS k) := fun h => by cases h
theorem send_ne_bar (r : Fin 4) : (SemLoc.dma (sendS r) : SemLoc sig) ≠ .reg barS := fun h => by cases h
theorem recv_ne_bar (k : Fin 4) : (SemLoc.dma (recvS k) : SemLoc sig) ≠ .reg barS := fun h => by cases h

theorem duties_bar : (sched (F := F) m).duties (barCell c) 0 = {1, 2, 3} := by dsimp only [sched]; exact if_pos ⟨rfl, rfl, rfl⟩
theorem duties_send (r : Fin 4) (hr : r ≠ 0) : (sched (F := F) m).duties (sendCell c r) 0 = {0} := by
  dsimp only [sched]; rw [if_neg (fun h => send_ne_bar r h.2.2)]
  refine if_pos ⟨rfl, rfl, ?_⟩
  fin_cases r
  · exact absurd rfl hr
  · exact .inl rfl
  · exact .inr (.inl rfl)
  · exact .inr (.inr (.inl rfl))
theorem duties_recv (k : Fin 4) (hk : k ≠ 0) : (sched (F := F) m).duties (recvCell c k) 0 = {0} := by
  dsimp only [sched]; rw [if_neg (fun h => recv_ne_bar k h.2.2)]
  refine if_pos ⟨rfl, rfl, ?_⟩
  fin_cases k
  · exact absurd rfl hk
  · exact .inr (.inr (.inr (.inl rfl)))
  · exact .inr (.inr (.inr (.inr (.inl rfl))))
  · exact .inr (.inr (.inr (.inr (.inr rfl))))
theorem duties_later (g : GSem nD τ sig) : ∀ r, 1 ≤ r → (sched (F := F) m).duties g r = ∅ :=
  fun r hr => by dsimp only [sched]; rw [if_neg fun h => by omega, if_neg fun h => by omega]

theorem amount_bar (d : Fin 4) : (sched (F := F) m).amount (barCell c) 0 d = 1 := by dsimp only [sched]; exact if_pos rfl
theorem amount_send (r d : Fin 4) : (sched (F := F) m).amount (sendCell c r) 0 d = N := by dsimp only [sched]; exact if_neg (send_ne_bar r)
theorem amount_recv (k d : Fin 4) : (sched (F := F) m).amount (recvCell c k) 0 d = N := by dsimp only [sched]; exact if_neg (recv_ne_bar k)

theorem expect_bar : (sched (F := F) m).expect (barCell c) 0 = 3 := by
  unfold Schedule.expect Schedule.amountOf
  rw [duties_bar, Finset.sum_congr rfl fun d _ => amount_bar m c d, Finset.sum_const, smul_eq_mul]; decide
theorem expect_send (r : Fin 4) (hr : r ≠ 0) : (sched (F := F) m).expect (sendCell c r) 0 = N := by
  unfold Schedule.expect Schedule.amountOf; rw [duties_send m c r hr, Finset.sum_singleton, amount_send]
theorem expect_recv (k : Fin 4) (hk : k ≠ 0) : (sched (F := F) m).expect (recvCell c k) 0 = N := by
  unfold Schedule.expect Schedule.amountOf; rw [duties_recv m c k hk, Finset.sum_singleton, amount_recv]

theorem payload_bar (d : Fin 4) : (sched (F := F) m).payload (barCell c) 0 d = barPay c d := by dsimp only [sched]; rw [if_pos rfl]
theorem payload_send (r : Fin 4) (hr : r ≠ 0) (d : Fin 4) : (sched (F := F) m).payload (sendCell c r) 0 d = sendPay m c r := by
  dsimp only [sched]; rw [if_neg (send_ne_bar r)]
  fin_cases r
  · exact absurd rfl hr
  · exact if_pos rfl
  · rw [if_neg (by decide)]; exact if_pos rfl
  · rw [if_neg (by decide), if_neg (by decide)]; exact if_pos rfl
theorem payload_recv (k : Fin 4) (hk : k ≠ 0) (d : Fin 4) : (sched (F := F) m).payload (recvCell c k) 0 d = recvPay m c k := by
  dsimp only [sched]; rw [if_neg (recv_ne_bar k)]
  fin_cases k
  · exact absurd rfl hk
  · rw [if_neg (by decide), if_neg (by decide), if_neg (by decide)]; exact if_pos rfl
  · rw [if_neg (by decide), if_neg (by decide), if_neg (by decide), if_neg (by decide)]; exact if_pos rfl
  · rw [if_neg (by decide), if_neg (by decide), if_neg (by decide), if_neg (by decide), if_neg (by decide)]; exact if_pos rfl

/-- The rest of the barrier cell's round, no duty taken: the three rows. -/
theorem rest_bar : bigSep ((sched (F := F) m).duties (barCell c) 0 \ ∅) (fun d => (sched (F := F) m).payload (barCell c) 0 d)
    = iprop(barPay c 1 ∗ barPay c 2 ∗ barPay c 3) := by
  rw [Finset.sdiff_empty, duties_bar, bigSep_eq_bigSepL_of_eq [(1 : Fin 4), 2, 3] (by decide) (by decide), bigSepL_cons_cons, bigSepL_cons_cons, bigSepL_singleton,
    payload_bar, payload_bar, payload_bar]
  rfl
theorem rest_send (r : Fin 4) (hr : r ≠ 0) :
    bigSep ((sched (F := F) m).duties (sendCell c r) 0 \ ∅) (fun d => (sched (F := F) m).payload (sendCell c r) 0 d) = sendPay m c r := by
  rw [Finset.sdiff_empty, duties_send m c r hr, bigSep_singleton, payload_send m c r hr]
theorem rest_recv (k : Fin 4) (hk : k ≠ 0) :
    bigSep ((sched (F := F) m).duties (recvCell c k) 0 \ ∅) (fun d => (sched (F := F) m).payload (recvCell c k) 0 d) = recvPay m c k := by
  rw [Finset.sdiff_empty, duties_recv m c k hk, bigSep_singleton, payload_recv m c k hk]

end Sched

/-! ## What each device owes at launch; the levels -/

/-- The three receive credits, then the three barrier units, summed so that each step of the body peels the last summand:
    the signals to the devices 1, 2, 3 places on in that order, then the copies in that order. -/
def Oa (c : Dev nD) : CellTallies nD τ sig Unit := tallyAt (recvCell (sh c 3) 1) () N
def Ob (c : Dev nD) : CellTallies nD τ sig Unit := Oa c + tallyAt (recvCell (sh c 2) 2) () N
def Oc (c : Dev nD) : CellTallies nD τ sig Unit := Ob c + tallyAt (recvCell (sh c 1) 3) () N
def Od (c : Dev nD) : CellTallies nD τ sig Unit := Oc c + tallyAt (barCell (sh c 3)) () 1
def Oe (c : Dev nD) : CellTallies nD τ sig Unit := Od c + tallyAt (barCell (sh c 2)) () 1
def O₀ (c : Dev nD) : CellTallies nD τ sig Unit := Oe c + tallyAt (barCell (sh c 1)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma (recvS 1) ∨ g.2 = .dma (recvS 2) ∨ g.2 = .dma (recvS 3) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (k : Fin 4) (hk : k ≠ 0) (u : Unit) : lv (recvCell c k) u = 2 := by
  dsimp only [lv]; rw [if_neg (recv_ne_bar k)]
  refine if_pos ?_
  fin_cases k
  · exact absurd rfl hk
  · exact .inl rfl
  · exact .inr (.inl rfl)
  · exact .inr (.inr rfl)

/-- Where the three receive credits are positive. -/
theorem Oc_pos {c : Dev nD} {g : GSem nD τ sig} {u : Unit} (h : 0 < Oc c g u) :
    g = recvCell (sh c 3) 1 ∨ g = recvCell (sh c 2) 2 ∨ g = recvCell (sh c 1) 3 := by
  unfold Oc Ob Oa at h
  rcases Pipeline.add_pos_cases h with h | h
  · rcases Pipeline.add_pos_cases h with h | h
    · exact .inl (Pipeline.tallyAt_pos h).1
    · exact .inr (.inl (Pipeline.tallyAt_pos h).1)
  · exact .inr (.inr (Pipeline.tallyAt_pos h).1)

/-- Where anything owed at launch is positive: a receive cell or a barrier cell. -/
theorem O₀_pos {c : Dev nD} {g : GSem nD τ sig} {u : Unit} (h : 0 < O₀ c g u) :
    (∃ d k, k ≠ 0 ∧ g = recvCell d k) ∨ ∃ d, g = barCell d := by
  unfold O₀ Oe Od at h
  rcases Pipeline.add_pos_cases h with h | h
  · rcases Pipeline.add_pos_cases h with h | h
    · rcases Pipeline.add_pos_cases h with h | h
      · rcases Oc_pos h with rfl | rfl | rfl
        · exact .inl ⟨_, 1, by decide, rfl⟩
        · exact .inl ⟨_, 2, by decide, rfl⟩
        · exact .inl ⟨_, 3, by decide, rfl⟩
      · exact .inr ⟨_, (Pipeline.tallyAt_pos h).1⟩
    · exact .inr ⟨_, (Pipeline.tallyAt_pos h).1⟩
  · exact .inr ⟨_, (Pipeline.tallyAt_pos h).1⟩

/-- A staging semaphore's wait, made owing everything or nothing: staging cells sit at level 0, below every cell owed. -/
theorem mayWait_stage (c : Dev nD) (q : DmaSem sig) (hq : SemLoc.dma q ≠ .dma (recvS 1) ∧ SemLoc.dma q ≠ .dma (recvS 2) ∧ SemLoc.dma q ≠ .dma (recvS 3))
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by
      dsimp only [lv]; rw [if_neg (fun h => by cases h), if_neg (fun h => by rcases h with h | h | h; exacts [hq.1 h, hq.2.1 h, hq.2.2 h])]
    rcases O₀_pos hg with ⟨d, k, hk, rfl⟩ | ⟨d, rfl⟩
    · exact ⟨by rw [L_tc]; exact Finset.mem_singleton_self _, by rw [h0, lv_recv d k hk]; decide⟩
    · exact ⟨by rw [L_tc]; exact Finset.mem_singleton_self _, by rw [h0, lv_bar]; decide⟩
  · rw [MayWait_zero]; iintro -; iempintro

/-- At its barrier wait a device owes the three receive credits only: receive cells, above its barrier cell. -/
theorem mayWait_bar (c : Dev nD) :
    (levAts L lv : sProp 𝕄) ⊢ MayWait (c : Thread nD τ) (.reg barS) () (Oc c) :=
  Pipeline.mayWait_of_levAts (by rw [L_tc]; exact Finset.mem_singleton_self _) fun g u hg => by
    rcases Oc_pos hg with rfl | rfl | rfl
    · exact ⟨by rw [L_tc]; exact Finset.mem_singleton_self _, by rw [lv_bar, lv_recv _ 1 (by decide)]; decide⟩
    · exact ⟨by rw [L_tc]; exact Finset.mem_singleton_self _, by rw [lv_bar, lv_recv _ 2 (by decide)]; decide⟩
    · exact ⟨by rw [L_tc]; exact Finset.mem_singleton_self _, by rw [lv_bar, lv_recv _ 3 (by decide)]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`. -/
def outAt (c : Dev nD) : (cc0_stg1_0 : Ref sig .tc).ty.Contents (Elt F) := Spec.result (fun d => xstg m d) c

/-- The whole statistics buffer of device `c`, at some contents. -/
def scrAny (c : Dev nD) : sProp 𝕄 :=
  iprop(∃ f : Buf (Elt F) ((c : Thread nD τ).loc cc0_scratch0), ((c : Thread nD τ).loc cc0_scratch0) ↦{fullShare} f)

/-- Every cell's invariant under the name the launch allocated it at, and that round 0 of every cell is reached. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at' (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
theorem reached_at' (ck : Dev nD × Fin 7) :
    (bigSep Finset.univ fun ck : Dev nD × Fin 7 => (reached ER (kcell ck) 0 : sProp 𝕄)) ⊢ reached ER (kcell ck) 0 :=
  bigSep_elim (Finset.mem_univ ck)
theorem inv_at (K : Dev nD × Fin 7 → ℕ) (ck : Dev nD × Fin 7) : records m K ⊢ cellInv ER (sched m) (K ck) (kcell ck) := by
  unfold records
  iintro ⟨H, -⟩
  iapply (inv_at' m K ck)
  iexact H
theorem reached_at (K : Dev nD × Fin 7 → ℕ) (ck : Dev nD × Fin 7) : records m K ⊢ (reached ER (kcell ck) 0 : sProp 𝕄) := by
  unfold records
  iintro ⟨-, H⟩
  iapply (reached_at' (F := F) ck)
  iexact H

/-- Device `c`'s positions: round 0 of each of its seven cells, nothing taken. -/
def positions (c : Dev nD) : sProp 𝕄 := bigSep Finset.univ fun j : Fin 7 => atPos ER (kcell (c, j)) 0 ∅ 0

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem positions_eq (c : Dev nD) : (positions c : sProp 𝕄) =
    iprop(atPos ER (barCell c) 0 ∅ 0 ∗ atPos ER (sendCell c 1) 0 ∅ 0 ∗ atPos ER (sendCell c 2) 0 ∅ 0 ∗ atPos ER (sendCell c 3) 0 ∅ 0
      ∗ atPos ER (recvCell c 1) 0 ∅ 0 ∗ atPos ER (recvCell c 2) 0 ∅ 0 ∗ atPos ER (recvCell c 3) 0 ∅ 0) := by
  unfold positions; rw [bigSep_fin7]

/-- The tokens of the duties device `c` pays: the barrier duty `r` of the device `r` places on, the receive duty of that
    device's receive cell `4 - r`, its own send duties. -/
def payToks (c : Dev nD) : sProp 𝕄 :=
  iprop(dutyTok ER (barCell (sh c 1)) 0 1 ∗ dutyTok ER (barCell (sh c 2)) 0 2 ∗ dutyTok ER (barCell (sh c 3)) 0 3
    ∗ dutyTok ER (recvCell (sh c 1) 3) 0 0 ∗ dutyTok ER (recvCell (sh c 2) 2) 0 0 ∗ dutyTok ER (recvCell (sh c 3) 1) 0 0
    ∗ dutyTok ER (sendCell c 1) 0 0 ∗ dutyTok ER (sendCell c 2) 0 0 ∗ dutyTok ER (sendCell c 3) 0 0)

/-- The protocol's ghost state device `c` starts from. -/
def ghost (K : Dev nD × Fin 7 → ℕ) (c : Dev nD) : sProp 𝕄 := iprop(records m K ∗ positions c ∗ payToks c)

/-- What device `c`'s body starts from: that at some names, the credit of its barrier's three units and of its three
    receive cells, and the level facts. -/
def start (c : Dev nD) : sProp 𝕄 :=
  iprop((∃ K, ghost m K c) ∗ cred (tallyAt (barCell c) () 3)
    ∗ cred (tallyAt (recvCell c 1) () N) ∗ cred (tallyAt (recvCell c 2) () N) ∗ cred (tallyAt (recvCell c 3) () N) ∗ levAts L lv)

def Φ₀ (c : Dev nD) : sProp 𝕄 := iprop(start m c ∗ scrAny c)
/-- After the point: the statistics buffer back whole, the six own cells at zero, closed. -/
def Φ₁ (c : Dev nD) : sProp 𝕄 := iprop(scrAny c ∗ Pipeline.ownSems0 osem c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Proto

end
-- ==== Proof.KernelBodyDefs.lean ====
/-
  What one device's body starts from and what it leaves, as the pipeline hands them over: the protocol's ghost state, the
  launch credit and the statistics buffer, with the two staging buffers (the input block; the result block) before; the
  statistics buffer back whole, the six own cells closed at zero, the input block unchanged and the result block at the
  device's result after.
-/
import proofs.«900394_g7700000000000395_dist_softmax_colshard_i_m1024_n1024_v7x_i4_f32_1_alg».proof.Proof.Gen.Kernel
import proofs.«900394_g7700000000000395_dist_softmax_colshard_i_m1024_n1024_v7x_i4_f32_1_alg».proof.Proof.Gen.Kernel.Skeleton
import proofs.«900394_g7700000000000395_dist_softmax_colshard_i_m1024_n1024_v7x_i4_f32_1_alg».proof.Proof.Gen.Kernel.Launch
import proofs.«900394_g7700000000000395_dist_softmax_colshard_i_m1024_n1024_v7x_i4_f32_1_alg».proof.Proof.Gen.Kernel.Points
import proofs.«900394_g7700000000000395_dist_softmax_colshard_i_m1024_n1024_v7x_i4_f32_1_alg».proof.Proof.Gen.Kernel.Frame
import proofs.«900394_g7700000000000395_dist_softmax_colshard_i_m1024_n1024_v7x_i4_f32_1_alg».proof.Proof.KernelSpec
import proofs.«900394_g7700000000000395_dist_softmax_colshard_i_m1024_n1024_v7x_i4_f32_1_alg».proof.Proof.KernelProto
import Idealize.ShloMosaic.Lib.Pipeline.Launch
import Idealize.ShloMosaic.Lib.Pipeline.Kit
import Idealize.ShloMosaic.Lib.Tactic

noncomputable section

namespace Cert.Kernel.BodyDefs

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Proto

local notation "𝕄" => MT nD τ sig Unit (Elt F) ℕ UU ℕ

variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m K c ∗ cred (tallyAt (barCell c) () 3)
      ∗ cred (tallyAt (recvCell c 1) () N) ∗ cred (tallyAt (recvCell c 2) () N) ∗ cred (tallyAt (recvCell c 3) () N) ∗ levAts L lv ∗ scrAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The statement of one device's body: from `bodyPre`, the printed kernel function runs to `bodyPost`. -/
def SoundBody : Prop :=
  ∀ (K : Dev nD × Fin 7 → ℕ) (c : Dev nD) (Kt : PUnit → sProp 𝕄),
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt

end Cert.Kernel.BodyDefs

end
-- ==== Proof.KernelLaunch.lean ====
/-
  The launch of the four devices' protocol.

  The launch element funds, for every device, the round state at counter zero of its seven cells (its barrier cell, its
  three send cells, its three receive cells), its position at the start of round 0 of each with that round reached, and
  the tokens of its OWN cells' duties: the three duties of its barrier cell and the one duty of each send and receive
  cell. Under one update for all devices each cell's counter at zero and its round state become the cell's invariant;
  the tokens are then dealt round the mesh to the devices that pay the duties: barrier duty r of device c's cell goes to
  the device r places before c, the duty of its receive cell k to the device k places after it, and a send cell's duty
  stays. What a device is owed at launch, summed over the devices that owe it, is three units on its barrier cell and a
  row's credit on each of its three receive cells.
-/
import proofs.«900394_g7700000000000395_dist_softmax_colshard_i_m1024_n1024_v7x_i4_f32_1_alg».proof.Proof.Gen.Kernel
import proofs.«900394_g7700000000000395_dist_softmax_colshard_i_m1024_n1024_v7x_i4_f32_1_alg».proof.Proof.Gen.Kernel.Skeleton
import proofs.«900394_g7700000000000395_dist_softmax_colshard_i_m1024_n1024_v7x_i4_f32_1_alg».proof.Proof.Gen.Kernel.Launch
import proofs.«900394_g7700000000000395_dist_softmax_colshard_i_m1024_n1024_v7x_i4_f32_1_alg».proof.Proof.Gen.Kernel.Points
import proofs.«900394_g7700000000000395_dist_softmax_colshard_i_m1024_n1024_v7x_i4_f32_1_alg».proof.Proof.Gen.Kernel.Frame
import proofs.«900394_g7700000000000395_dist_softmax_colshard_i_m1024_n1024_v7x_i4_f32_1_alg».proof.Proof.KernelSpec
import proofs.«900394_g7700000000000395_dist_softmax_colshard_i_m1024_n1024_v7x_i4_f32_1_alg».proof.Proof.KernelProto
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Spec Cert.Kernel.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem ownSemFacts : Pipeline.OwnSemFacts cfg0.spec osem := by decide

theorem share_eq (c : Dev nD) (w : Fin cfg0.W) : (dats m 0 c).share w = fullShare := by unfold Dat.share; split <;> rfl

/-! ## The cells and the tokens minted -/

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def protoCells : Finset (GSem nD τ sig) := Finset.univ.map ⟨kcell, kcell_injective⟩

/-- The nine tokens minted per device, as (which of its seven cells, which duty): its barrier's duties 1, 2, 3, the one
    duty of each send cell, the one duty of each receive cell. -/
abbrev tokAt : Fin 9 → Fin 7 × Fin 4 := fun
  | 0 => (0, 1) | 1 => (0, 2) | 2 => (0, 3) | 3 => (1, 0) | 4 => (2, 0) | 5 => (3, 0) | 6 => (4, 0) | 7 => (5, 0) | 8 => (6, 0)
theorem tokAt_injective : Function.Injective tokAt := by decide
abbrev tokOf (cj : Dev nD × Fin 9) : GSem nD τ sig × ℕ × Fin 4 := (kcell (cj.1, (tokAt cj.2).1), 0, (tokAt cj.2).2)
theorem tokOf_injective : Function.Injective (tokOf : Dev nD × Fin 9 → GSem nD τ sig × ℕ × Fin 4) := by
  rintro ⟨c, j⟩ ⟨c', j'⟩ h
  have hk : (c, (tokAt j).1) = (c', (tokAt j').1) := kcell_injective (congrArg (fun x : GSem nD τ sig × ℕ × Fin 4 => x.1) h)
  have hd : (tokAt j).2 = (tokAt j').2 := congrArg (fun x : GSem nD τ sig × ℕ × Fin 4 => x.2.2) h
  have hc : c = c' := congrArg Prod.fst hk
  have hj : j = j' := tokAt_injective (Prod.ext (congrArg Prod.snd hk) hd)
  rw [hc, hj]
def protoToks : Finset (GSem nD τ sig × ℕ × Fin 4) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 1 ∗ dutyTok ER (barCell c) 0 2 ∗ dutyTok ER (barCell c) 0 3
    ∗ dutyTok ER (sendCell c 1) 0 0 ∗ dutyTok ER (sendCell c 2) 0 0 ∗ dutyTok ER (sendCell c 3) 0 0
    ∗ dutyTok ER (recvCell c 1) 0 0 ∗ dutyTok ER (recvCell c 2) 0 0 ∗ dutyTok ER (recvCell c 3) 0 0)

/-- What the launch element deals device `c`: its seven cells' round states at counter zero, its positions with round 0
    reached, its own cells' nine tokens. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's half of the launch element, dealt device by device. -/
theorem fund : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin9]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline's half and the protocol's, the protocol's dealt. -/
theorem hu₀ : (ownU (u₀) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund m) $$ HX with HG
  imodintro
  isplitl [HP] <;> iassumption

/-! ## The global step: every cell's invariant allocated, the tokens dealt round the mesh -/

/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 1) 0 ∗ semVal (sendCell c 2) 0 ∗ semVal (sendCell c 3) 0
        ∗ semVal (recvCell c 1) 0 ∗ semVal (recvCell c 2) 0 ∗ semVal (recvCell c 3) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 7 → ℕ) (c : Dev nD) : iprop(records m K ∗ positions c ∗ payToks c) ⊢ G' m c := by
  unfold G' ghost
  iintro H
  iexists K
  iexact H

/-- The mesh turned `r` places. -/
def shE (r : Fin 4) : Dev nD ≃ Dev nD := ⟨fun c => sh c r, fun c => sh c (-r), fun c => sh_sh_neg c r, fun c => sh_neg_sh c r⟩

/-- The tokens dealt round the mesh: barrier duty `r` to the device `r` places before the owner, the duty of receive
    cell `k` to the device `4 - k` places before it, a send cell's duty to its owner. -/
theorem toks_around : (bigSep Finset.univ fun c : Dev nD => (toks c : sProp 𝕄)) ⊢ bigSep Finset.univ fun c : Dev nD => payToks c := by
  unfold toks payToks
  simp only [bigSep_sep']
  rw [bigSep_univ_equiv (shE 1) (fun c : Dev nD => (dutyTok ER (barCell c) 0 1 : sProp 𝕄)),
    bigSep_univ_equiv (shE 2) (fun c : Dev nD => (dutyTok ER (barCell c) 0 2 : sProp 𝕄)),
    bigSep_univ_equiv (shE 3) (fun c : Dev nD => (dutyTok ER (barCell c) 0 3 : sProp 𝕄)),
    bigSep_univ_equiv (shE 3) (fun c : Dev nD => (dutyTok ER (recvCell c 1) 0 0 : sProp 𝕄)),
    bigSep_univ_equiv (shE 2) (fun c : Dev nD => (dutyTok ER (recvCell c 2) 0 0 : sProp 𝕄)),
    bigSep_univ_equiv (shE 1) (fun c : Dev nD => (dutyTok ER (recvCell c 3) 0 0 : sProp 𝕄))]
  iintro ⟨B1, B2, B3, S1, S2, S3, R1, R2, R3⟩
  isplitl [B1]; · iexact B1
  isplitl [B2]; · iexact B2
  isplitl [B3]; · iexact B3
  isplitl [R3]; · iexact R3
  isplitl [R2]; · iexact R2
  isplitl [R1]; · iexact R1
  isplitl [S1]; · iexact S1
  isplitl [S2]; · iexact S2
  iexact S3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ iprop(positions c ∗ payToks c) from Entails.of_eq (by unfold positions; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Every device owing `n` units on semaphore `sm` of the device `r` places on, a device is dealt `n` units' credit on its
    own `sm`: what the device `r` places before it owes. -/
theorem cred_at (sm : SemLoc sig) (r : Fin 4) (n : ℕ) (c : Dev nD) :
    (Pipeline.launchCred (fun d => tallyAt (((sh d r : Dev nD) : Thread nD τ), sm) () n) c : sProp 𝕄)
      ⊢ cred (tallyAt ((c : Thread nD τ), sm) () n) :=
  Pipeline.launchCred_tallyAt sm (fun d => sh d r) (fun c => sh c (-r)) (fun c => sh_neg_sh c r) (fun d => sh_sh_neg d r) () n c

/-- Three single units' credit on one cell are three units' credit. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

/-- What a device is dealt at launch: three units on its barrier cell (one from each peer) and a row's credit on each of
    its three receive cells. -/
theorem creds (c : Dev nD) : (Pipeline.launchCred O₀ c : sProp 𝕄)
    ⊢ iprop(cred (tallyAt (barCell c) () 3) ∗ cred (tallyAt (recvCell c 1) () N) ∗ cred (tallyAt (recvCell c 2) () N) ∗ cred (tallyAt (recvCell c 3) () N)) := by
  have s1 : (Pipeline.launchCred O₀ c : sProp 𝕄) = iprop(Pipeline.launchCred Oe c ∗ Pipeline.launchCred (fun d => tallyAt (barCell (sh d 1)) () 1) c) :=
    Pipeline.launchCred_add Oe (fun d => tallyAt (barCell (sh d 1)) () 1) c
  have s2 : (Pipeline.launchCred Oe c : sProp 𝕄) = iprop(Pipeline.launchCred Od c ∗ Pipeline.launchCred (fun d => tallyAt (barCell (sh d 2)) () 1) c) :=
    Pipeline.launchCred_add Od (fun d => tallyAt (barCell (sh d 2)) () 1) c
  have s3 : (Pipeline.launchCred Od c : sProp 𝕄) = iprop(Pipeline.launchCred Oc c ∗ Pipeline.launchCred (fun d => tallyAt (barCell (sh d 3)) () 1) c) :=
    Pipeline.launchCred_add Oc (fun d => tallyAt (barCell (sh d 3)) () 1) c
  have s4 : (Pipeline.launchCred Oc c : sProp 𝕄) = iprop(Pipeline.launchCred Ob c ∗ Pipeline.launchCred (fun d => tallyAt (recvCell (sh d 1) 3) () N) c) :=
    Pipeline.launchCred_add Ob (fun d => tallyAt (recvCell (sh d 1) 3) () N) c
  have s5 : (Pipeline.launchCred Ob c : sProp 𝕄) = iprop(Pipeline.launchCred Oa c ∗ Pipeline.launchCred (fun d => tallyAt (recvCell (sh d 2) 2) () N) c) :=
    Pipeline.launchCred_add Oa (fun d => tallyAt (recvCell (sh d 2) 2) () N) c
  have s6 : (Pipeline.launchCred Oa c : sProp 𝕄) = Pipeline.launchCred (fun d => tallyAt (recvCell (sh d 3) 1) () N) c := rfl
  rw [s1, s2, s3, s4, s5, s6]
  iintro ⟨⟨⟨⟨⟨Ha, Hb⟩, Hc⟩, Hd⟩, He⟩, Hf⟩
  ihave Ha' := (cred_at (F := F) (.dma (recvS 1)) 3 N c) $$ Ha
  ihave Hb' := (cred_at (F := F) (.dma (recvS 2)) 2 N c) $$ Hb
  ihave Hc' := (cred_at (F := F) (.dma (recvS 3)) 1 N c) $$ Hc
  ihave Hd' := (cred_at (F := F) (.reg barS) 3 1 c) $$ Hd
  ihave He' := (cred_at (F := F) (.reg barS) 2 1 c) $$ He
  ihave Hf' := (cred_at (F := F) (.reg barS) 1 1 c) $$ Hf
  isplitl [Hd' He' Hf']
  · iapply (cred_three (F := F) (barCell c))
    isplitl [Hd']; · iexact Hd'
    isplitl [He'] <;> iassumption
  isplitl [Ha']; · iexact Ha'
  isplitl [Hb'] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H1, H2, H3⟩
  imodintro
  unfold start G'
  isplitl
  · isplitl [HG]; · iexact HG
    isplitl [HB]; · iexact HB
    isplitl [H1]; · iexact H1
    isplitl [H2]; · iexact H2
    isplitl [H3]; · iexact H3
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scrAny
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Cert.Kernel.Launch

end
-- ==== Proof.KernelRun.lean ====
/-
  The run of the whole mesh from one device's body.

  Given the body lemma for every device — from what the pipeline hands a device at its one grid point, its kernel runs to
  what it leaves — the launch theorem gives: every fair execution of all four devices terminates, and each device's
  arrays end as the pipeline's bookkeeping computes them. Read off: the input array is never written back, so it ends
  as it was launched; the result array's one block is the whole array, written back once with what the body left, the
  device's result as a function of the four devices' input blocks.
-/
import proofs.«900394_g7700000000000395_dist_softmax_colshard_i_m1024_n1024_v7x_i4_f32_1_alg».proof.Proof.Gen.Kernel
import proofs.«900394_g7700000000000395_dist_softmax_colshard_i_m1024_n1024_v7x_i4_f32_1_alg».proof.Proof.Gen.Kernel.Skeleton
import proofs.«900394_g7700000000000395_dist_softmax_colshard_i_m1024_n1024_v7x_i4_f32_1_alg».proof.Proof.Gen.Kernel.Launch
import proofs.«900394_g7700000000000395_dist_softmax_colshard_i_m1024_n1024_v7x_i4_f32_1_alg».proof.Proof.Gen.Kernel.Points
import proofs.«900394_g7700000000000395_dist_softmax_colshard_i_m1024_n1024_v7x_i4_f32_1_alg».proof.Proof.Gen.Kernel.Frame
import proofs.«900394_g7700000000000395_dist_softmax_colshard_i_m1024_n1024_v7x_i4_f32_1_alg».proof.Proof.KernelSpec
import proofs.«900394_g7700000000000395_dist_softmax_colshard_i_m1024_n1024_v7x_i4_f32_1_alg».proof.Proof.KernelProto
import proofs.«900394_g7700000000000395_dist_softmax_colshard_i_m1024_n1024_v7x_i4_f32_1_alg».proof.Proof.KernelBodyDefs
import proofs.«900394_g7700000000000395_dist_softmax_colshard_i_m1024_n1024_v7x_i4_f32_1_alg».proof.Proof.KernelLaunch
import Idealize.ShloMosaic.Lib.Pipeline.Launch
import Idealize.ShloMosaic.Lib.Pipeline.Kit
import Idealize.ShloMosaic.Lib.Tactic

noncomputable section

namespace Cert.Kernel.Run

open Cert.Kernel Cert.Kernel.Gen Cert.Kernel.Spec Cert.Kernel.Proto Cert.Kernel.BodyDefs Cert.Kernel.Launch
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, in the pipeline's form -/

set_option maxRecDepth 4000 in
/-- What the pipeline hands device `c`'s body at its one point, the two staging buffers named. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`, from the body lemma. -/
theorem body_obligation (hsb : SoundBody m) (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (hsb K c fun _ => bodyPost m c)
  unfold bodyPre
  isplitr []
  · isplitl [Hg Hrest Hscr]
    · isplitl [Hg]; · iexact Hg
      icases Hrest with ⟨HB, H1, H2, H3, Hlev⟩
      isplitl [HB]; · iexact HB
      isplitl [H1]; · iexact H1
      isplitl [H2]; · iexact H2
      isplitl [H3]; · iexact H3
      isplitl [Hlev]; · iexact Hlev
      iexact Hscr
    isplitl [Ho]; · iexact Ho
    isplitl [Hx] <;> iassumption
  · iintro H; iexact H

/-! ## The run -/

set_option maxRecDepth 8000 in
/-- From any memory with every counter at zero: every fair execution of the four devices' kernels terminates, and every
    final state has each device's arrays at what the pipeline's bookkeeping computes. -/
theorem run_main (hsb : SoundBody m) : θ_run defs (onTc (τ := τ) (main (F := F))) ⟨m, fun _ => 0, ρ⟩
    (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hsb) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays, read off -/

/-- The input window's one block is the whole input array: a device's staged block is its input array. -/
theorem xstg_eq (d : Dev nD) : xstg m d = m ((d : Thread nD τ).loc main_arg0) := by
  have hz : (fun a => (win0_0.index (0 : Fin 1)) a * main_arg0.ty.shape.size a) = fun _ => 0 :=
    funext fun a => by fin_cases a <;> decide
  unfold xstg
  exact Memref.read_access_unit_zero (Elt F) main_arg0 hz (fun a => by fin_cases a <;> decide) _

/-- The device's result, over the input arrays as launched. -/
theorem outAt_eq (c : Dev nD) : outAt m c = Spec.result (fun d => m ((d : Thread nD τ).loc main_arg0)) c :=
  congrArg (fun X => Spec.result X c) (funext fun d => xstg_eq m d)

/-- The result array after the run: its one block, the whole array, written back once with what the body left. -/
theorem arr_out (c : Dev nD) : (dats m 0 c).arrAt (1 : Fin 2) cfg0.N = outAt m c := by
  have ho : (win0_1.blk (0 : Fin 1)).view.read (Elt F) ((dats m 0 c).arrAt (1 : Fin 2) cfg0.N) = outAt m c := by
    rw [show cfg0.N = ((0 : Fin 1) : Fin cfg0.N).val + 1 from rfl, (dats m 0 c).arrAt_succ (1 : Fin 2) (0 : Fin 1)]
    rw [show (cfg0.win (1 : Fin 2)).flush (0 : Fin 1) = true from flush0_1 _, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans ho

/-- The input array after the run: as launched. -/
theorem arr_in (c : Dev nD) : (dats m 0 c).arrAt (0 : Fin 2) cfg0.N = m ((c : Thread nD τ).loc main_arg0) :=
  (dats (F := F) m 0 c).arrAt_in (0 : Fin 2) rfl _

/-- The run with its strong post: each device's result array ends at its result as a function of the four devices'
    input arrays as launched, and its input array ends unchanged. -/
theorem run (hsb : SoundBody m) : θ_run defs (onTc (τ := τ) (main (F := F))) ⟨m, fun _ => 0, ρ⟩ (fun r => ∀ c : Dev nD,
    r.2.mem ((c.tc : Thread nD τ).loc main_v1) = Spec.result (fun d => m ((d.tc : Thread nD τ).loc main_arg0)) c
    ∧ r.2.mem ((c.tc : Thread nD τ).loc main_arg0) = m ((c.tc : Thread nD τ).loc main_arg0)) :=
  (θ_run defs _ _).mono (fun _ h c => ⟨(h c (1 : Fin 2)).trans ((arr_out m c).trans (outAt_eq m c)), (h c (0 : Fin 2)).trans (arr_in m c)⟩)
    (run_main m ρ hsb)

end Cert.Kernel.Run

end
-- ==== Proof.KernelIdealSpec.lean ====
/-
  What one device's result holds, as a pure function of the four devices' input blocks.

  Each device exponentiates its 1024×1024 block and sums every row of the exponentials (a product with a row of ones):
  a 1×1×1024 row of partial sums. Row `k` of a device's 4×1×1024 statistics buffer ends holding the partial sums of the
  device `k` places further round the mesh (row 0 its own). The result is the block of exponentials, each row scaled by
  the reciprocal of the sum of the four partial sums of that row.
-/
import proofs.«900394_g7700000000000395_dist_softmax_colshard_i_m1024_n1024_v7x_i4_f32_1_alg».proof.Proof.Gen.KernelIdeal.Skeleton

noncomputable section

namespace Cert.KernelIdeal.Spec

open Cert.KernelIdeal Cert.KernelIdeal.Gen Idealize.ShloMosaic

variable {F : FTy → Type} [FloatOps F]

/-- Device `c` moved `r` places round the mesh of four. -/
def sh (c : Dev nD) (r : Fin 4) : Dev nD := ⟨(c.val + r.val) % 4, Nat.mod_lt _ (by decide)⟩

/-- The statistics buffer once every row has arrived: row `k` is the row sums of the exponentials of the block of the
    device `k` places after `c`. -/
def gathered (X : Dev nD → Vec F S1024x1024 .f32) (c : Dev nD) : Vec F S4x1x1024 .f32 :=
  fun i => k0_pay2 (X (sh c ⟨(i 0).val, (i 0).isLt⟩)) (fun a => match a with
    | ⟨0, _⟩ => ⟨0, Nat.one_pos⟩
    | ⟨1, _⟩ => ⟨0, Nat.one_pos⟩
    | ⟨2, _⟩ => ⟨(i 2).val, (i 2).isLt⟩)

/-- Device `c`'s result block: its exponentials, each row over the sum of that row's four partial sums. -/
def result (X : Dev nD → Vec F S1024x1024 .f32) (c : Dev nD) : Vec F S1024x1024 .f32 :=
  k0_pay3 (gathered X c) (k0_pay1 (X c))

end Cert.KernelIdeal.Spec

end
-- ==== Proof.KernelIdealProto.lean ====
/-
  The four devices' protocol. Every device signals the barrier semaphore of each of the three others once, and waits for
  three units on its own: after that wait all three peers are inside the kernel. It then copies row 0 of its statistics
  buffer (its own partial row sums) to the device `r` places further round the mesh, `r` = 1, 2, 3, into row `4 - r`
  there, crediting its own send semaphore `r` and the receiver's receive semaphore `4 - r`; waits for its three receive
  semaphores; reads the four rows; and waits for its three send semaphores.

  As a schedule of one round per semaphore: a barrier semaphore has three duties of one unit, one per peer, and the duty
  paid by the device `r` places BEFORE the owner hands over row `r` of that device's buffer — the row the owner will
  write; a receive semaphore `k` has one duty, paid by the device `k` places after the owner, handing over row `k` of
  the owner's buffer holding that device's partial sums; a send semaphore has one duty, paid by its owner's own copy,
  handing back the share of row 0 the copy read. No wait is made while anything is owed except the barrier wait, made
  while the three receive credits are still owed: receive semaphores sit above barrier semaphores.
-/
import proofs.«900394_g7700000000000395_dist_softmax_colshard_i_m1024_n1024_v7x_i4_f32_1_alg».proof.Proof.Gen.KernelIdeal
import proofs.«900394_g7700000000000395_dist_softmax_colshard_i_m1024_n1024_v7x_i4_f32_1_alg».proof.Proof.Gen.KernelIdeal.Skeleton
import proofs.«900394_g7700000000000395_dist_softmax_colshard_i_m1024_n1024_v7x_i4_f32_1_alg».proof.Proof.Gen.KernelIdeal.Launch
import proofs.«900394_g7700000000000395_dist_softmax_colshard_i_m1024_n1024_v7x_i4_f32_1_alg».proof.Proof.Gen.KernelIdeal.Points
import proofs.«900394_g7700000000000395_dist_softmax_colshard_i_m1024_n1024_v7x_i4_f32_1_alg».proof.Proof.Gen.KernelIdeal.Frame
import proofs.«900394_g7700000000000395_dist_softmax_colshard_i_m1024_n1024_v7x_i4_f32_1_alg».proof.Proof.KernelIdealSpec
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's (duties numbered 0 … 3) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The mesh -/

theorem sh_zero (c : Dev nD) : sh c 0 = c := by revert c; decide
/-- Going `r` places on and `4 - r` places on again is once round. -/
theorem sh_sh_neg (c : Dev nD) (r : Fin 4) : sh (sh c r) (-r) = c := by revert c r; decide
theorem sh_neg_sh (c : Dev nD) (r : Fin 4) : sh (sh c (-r)) r = c := by revert c r; decide
theorem sh_inj (r : Fin 4) : Function.Injective fun c : Dev nD => sh c r := by revert r; decide
theorem sh_ne (c : Dev nD) (r : Fin 4) (hr : r ≠ 0) : sh c r ≠ c := by revert c r; decide

/-- The printed device chains: the three signals and the three copies name the devices 1, 2, 3 places on. -/
theorem dev1_eq (c : Dev nD) : (⟨k0_dev1 c, k0_dev1_lt c⟩ : Dev nD) = sh c 1 := by revert c; decide +kernel
theorem dev2_eq (c : Dev nD) : (⟨k0_dev2 c, k0_dev2_lt c⟩ : Dev nD) = sh c 2 := by revert c; decide +kernel
theorem dev3_eq (c : Dev nD) : (⟨k0_dev3 c, k0_dev3_lt c⟩ : Dev nD) = sh c 3 := by revert c; decide +kernel
theorem dev4_eq (c : Dev nD) : (⟨k0_dev4 c, k0_dev4_lt c⟩ : Dev nD) = sh c 1 := by revert c; decide +kernel
theorem dev5_eq (c : Dev nD) : (⟨k0_dev5 c, k0_dev5_lt c⟩ : Dev nD) = sh c 2 := by revert c; decide +kernel
theorem dev6_eq (c : Dev nD) : (⟨k0_dev6 c, k0_dev6_lt c⟩ : Dev nD) = sh c 3 := by revert c; decide +kernel

/-! ## The memrefs and the cells -/

abbrev xM : Memref sig .tc .vmem S1024x1024 .f32 := Memref.whole cc0_stg0_0
abbrev oM : Memref sig .tc .vmem S1024x1024 .f32 := Memref.whole cc0_stg1_0
abbrev sM : Memref sig .tc .vmem S4x1x1024 .f32 := Memref.whole cc0_scratch0

theorem rowInb (k : Fin 4) : ∀ a, (![k.val, 0, 0] : Fin 3 → Nat) a + S1x1x1024.size a ≤ S4x1x1024.size a := by
  fin_cases k <;> decide
/-- Row `k`'s rectangle in the statistics buffer: offset (k, 0, 0), extent 1×1×1024. -/
abbrev rowR (k : Fin 4) : Rect S4x1x1024 := Rect.unit (s := S4x1x1024) ![k.val, 0, 0] S1x1x1024.size (rowInb k)
/-- Row `k` of the statistics buffer, as the copies name it: that slice with its leading axis squeezed away. -/
abbrev slotM (k : Fin 4) : Memref sig .tc .vmem S1x1024 .f32 :=
  (sM.slice (rowR k) (fun _ => rfl)).squeeze S1x1024 squeezes_S1x1x1024_S1x1024

/-- The runtime's barrier semaphore (not scoped to the launch); the send and receive DMA semaphores (scoped scratch),
    numbered as the two arrays of four lie in the pool. -/
abbrev barS : Sem sig := (SemArray.scalar (sig.barrier 0 rfl) : Sems sig S_).sem
def sendS : Fin 4 → DmaSem sig := fun | 0 => 2 | 1 => 3 | 2 => 4 | 3 => 5
def recvS : Fin 4 → DmaSem sig := fun | 0 => 6 | 1 => 7 | 2 => 8 | 3 => 9

abbrev barCell (c : Dev nD) : GSem nD τ sig := ((c : Thread nD τ), .reg barS)
abbrev sendCell (c : Dev nD) (r : Fin 4) : GSem nD τ sig := ((c : Thread nD τ), .dma (sendS r))
abbrev recvCell (c : Dev nD) (k : Fin 4) : GSem nD τ sig := ((c : Thread nD τ), .dma (recvS k))

/-- The protocol's seven cells of a device: its barrier, its send semaphores 1 … 3, its receive semaphores 1 … 3. -/
abbrev csem : Fin 7 → SemLoc sig := fun
  | 0 => .reg barS | 1 => .dma (sendS 1) | 2 => .dma (sendS 2) | 3 => .dma (sendS 3)
  | 4 => .dma (recvS 1) | 5 => .dma (recvS 2) | 6 => .dma (recvS 3)
/-- The six of them that are the kernel's own (scoped). -/
abbrev osem : Fin 6 → SemLoc sig := fun j => csem j.succ
abbrev kcell (ck : Dev nD × Fin 7) : GSem nD τ sig := ((ck.1 : Thread nD τ), csem ck.2)

/-- A row's credit in DMA units. -/
abbrev N : ℕ := (slotM 0 : Memref sig .tc .vmem S1x1024 .f32).view.dmaCredit
theorem N_pos : 0 < N := View.dmaCredit_pos _ (by decide)

/-! ## Contents -/

/-- Device `d`'s block of the input, as its kernel finds it staged. -/
def xstg (d : Dev nD) : (cc0_stg0_0 : Ref sig .tc).ty.Contents (Elt F) :=
  (win0_0.blk (0 : Fin 1)).view.read (Elt F) (m ((d : Thread nD τ).loc main_arg0))

/-- The final contents of device `c`'s statistics buffer: row `k` the partial row sums of the device `k` places on. -/
def gath (c : Dev nD) : (cc0_scratch0 : Ref sig .tc).ty.Contents (Elt F) := Spec.gathered (fun d => xstg m d) c

/-- The four shares of row 0: one the device keeps to read the row, one for each of the three copies out of it. -/
def qS : Fin 4 → PosShare TreeShare := fun
  | 0 => fullShare.left | 1 => fullShare.right.left | 2 => fullShare.right.right.left | 3 => fullShare.right.right.right

/-- Share `q` of the elements of row `k` of device `c`'s buffer, at contents `f`. -/
def rowPts (c : Dev nD) (k : Fin 4) (q : PosShare TreeShare) (f : Buf (Elt F) ((slotM k).view.loc (c : Thread nD τ))) : sProp 𝕄 :=
  (slotM k).view.loc (c : Thread nD τ) ↦[(slotM k).view.set]{q} f

/-- What the barrier duty paid by the device `r` places before `c` hands `c`: row `r` of that device's buffer, to write. -/
def barPay (c : Dev nD) (r : Fin 4) : sProp 𝕄 := iprop(∃ f, rowPts (sh c (-r)) r fullShare f)
/-- What receive semaphore `k`'s duty hands `c`: row `k` of its buffer at its final contents. -/
def recvPay (c : Dev nD) (k : Fin 4) : sProp 𝕄 := rowPts c k fullShare (gath m c)
/-- What send semaphore `r`'s duty hands back: the share of row 0 the copy read. -/
def sendPay (c : Dev nD) (r : Fin 4) : sProp 𝕄 := rowPts c 0 (qS r) (gath m c)

/-! ## The schedule -/

abbrev IsBar (g : GSem nD τ sig) : Prop := g.1.2 = .tc ∧ g.2 = .reg barS
abbrev IsXfer (g : GSem nD τ sig) : Prop :=
  g.1.2 = .tc ∧ (g.2 = .dma (sendS 1) ∨ g.2 = .dma (sendS 2) ∨ g.2 = .dma (sendS 3) ∨ g.2 = .dma (recvS 1) ∨ g.2 = .dma (recvS 2) ∨ g.2 = .dma (recvS 3))

/-- One round, round 0: a barrier cell has the duties 1, 2, 3 of one unit each; a send or receive cell the duty 0 of a
    row's credit. -/
def sched : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then barPay g.1.1 d
    else if g.2 = .dma (sendS 1) then sendPay m g.1.1 1
    else if g.2 = .dma (sendS 2) then sendPay m g.1.1 2
    else if g.2 = .dma (sendS 3) then sendPay m g.1.1 3
    else if g.2 = .dma (recvS 1) then recvPay m g.1.1 1
    else if g.2 = .dma (recvS 2) then recvPay m g.1.1 2
    else if g.2 = .dma (recvS 3) then recvPay m g.1.1 3
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 4) :
    BI.Storable (upEmb : UEmb _ 𝕄) ((sched (F := F) m).payload g r d) := by
  show BI.Storable upEmb (if g.2 = .reg barS then barPay g.1.1 d
    else if g.2 = .dma (sendS 1) then sendPay m g.1.1 1
    else if g.2 = .dma (sendS 2) then sendPay m g.1.1 2
    else if g.2 = .dma (sendS 3) then sendPay m g.1.1 3
    else if g.2 = .dma (recvS 1) then recvPay m g.1.1 1
    else if g.2 = .dma (recvS 2) then recvPay m g.1.1 2
    else if g.2 = .dma (recvS 3) then recvPay m g.1.1 3
    else iprop(emp))
  unfold barPay recvPay sendPay rowPts
  (repeat' split) <;> infer_instance

section Sched
variable (c : Dev nD)

theorem bar_ne_send (r : Fin 4) : (SemLoc.reg barS : SemLoc sig) ≠ .dma (sendS r) := fun h => by cases h
theorem bar_ne_recv (k : Fin 4) : (SemLoc.reg barS : SemLoc sig) ≠ .dma (recvS k) := fun h => by cases h
theorem send_ne_bar (r : Fin 4) : (SemLoc.dma (sendS r) : SemLoc sig) ≠ .reg barS := fun h => by cases h
theorem recv_ne_bar (k : Fin 4) : (SemLoc.dma (recvS k) : SemLoc sig) ≠ .reg barS := fun h => by cases h

theorem duties_bar : (sched (F := F) m).duties (barCell c) 0 = {1, 2, 3} := by dsimp only [sched]; exact if_pos ⟨rfl, rfl, rfl⟩
theorem duties_send (r : Fin 4) (hr : r ≠ 0) : (sched (F := F) m).duties (sendCell c r) 0 = {0} := by
  dsimp only [sched]; rw [if_neg (fun h => send_ne_bar r h.2.2)]
  refine if_pos ⟨rfl, rfl, ?_⟩
  fin_cases r
  · exact absurd rfl hr
  · exact .inl rfl
  · exact .inr (.inl rfl)
  · exact .inr (.inr (.inl rfl))
theorem duties_recv (k : Fin 4) (hk : k ≠ 0) : (sched (F := F) m).duties (recvCell c k) 0 = {0} := by
  dsimp only [sched]; rw [if_neg (fun h => recv_ne_bar k h.2.2)]
  refine if_pos ⟨rfl, rfl, ?_⟩
  fin_cases k
  · exact absurd rfl hk
  · exact .inr (.inr (.inr (.inl rfl)))
  · exact .inr (.inr (.inr (.inr (.inl rfl))))
  · exact .inr (.inr (.inr (.inr (.inr rfl))))
theorem duties_later (g : GSem nD τ sig) : ∀ r, 1 ≤ r → (sched (F := F) m).duties g r = ∅ :=
  fun r hr => by dsimp only [sched]; rw [if_neg fun h => by omega, if_neg fun h => by omega]

theorem amount_bar (d : Fin 4) : (sched (F := F) m).amount (barCell c) 0 d = 1 := by dsimp only [sched]; exact if_pos rfl
theorem amount_send (r d : Fin 4) : (sched (F := F) m).amount (sendCell c r) 0 d = N := by dsimp only [sched]; exact if_neg (send_ne_bar r)
theorem amount_recv (k d : Fin 4) : (sched (F := F) m).amount (recvCell c k) 0 d = N := by dsimp only [sched]; exact if_neg (recv_ne_bar k)

theorem expect_bar : (sched (F := F) m).expect (barCell c) 0 = 3 := by
  unfold Schedule.expect Schedule.amountOf
  rw [duties_bar, Finset.sum_congr rfl fun d _ => amount_bar m c d, Finset.sum_const, smul_eq_mul]; decide
theorem expect_send (r : Fin 4) (hr : r ≠ 0) : (sched (F := F) m).expect (sendCell c r) 0 = N := by
  unfold Schedule.expect Schedule.amountOf; rw [duties_send m c r hr, Finset.sum_singleton, amount_send]
theorem expect_recv (k : Fin 4) (hk : k ≠ 0) : (sched (F := F) m).expect (recvCell c k) 0 = N := by
  unfold Schedule.expect Schedule.amountOf; rw [duties_recv m c k hk, Finset.sum_singleton, amount_recv]

theorem payload_bar (d : Fin 4) : (sched (F := F) m).payload (barCell c) 0 d = barPay c d := by dsimp only [sched]; rw [if_pos rfl]
theorem payload_send (r : Fin 4) (hr : r ≠ 0) (d : Fin 4) : (sched (F := F) m).payload (sendCell c r) 0 d = sendPay m c r := by
  dsimp only [sched]; rw [if_neg (send_ne_bar r)]
  fin_cases r
  · exact absurd rfl hr
  · exact if_pos rfl
  · rw [if_neg (by decide)]; exact if_pos rfl
  · rw [if_neg (by decide), if_neg (by decide)]; exact if_pos rfl
theorem payload_recv (k : Fin 4) (hk : k ≠ 0) (d : Fin 4) : (sched (F := F) m).payload (recvCell c k) 0 d = recvPay m c k := by
  dsimp only [sched]; rw [if_neg (recv_ne_bar k)]
  fin_cases k
  · exact absurd rfl hk
  · rw [if_neg (by decide), if_neg (by decide), if_neg (by decide)]; exact if_pos rfl
  · rw [if_neg (by decide), if_neg (by decide), if_neg (by decide), if_neg (by decide)]; exact if_pos rfl
  · rw [if_neg (by decide), if_neg (by decide), if_neg (by decide), if_neg (by decide), if_neg (by decide)]; exact if_pos rfl

/-- The rest of the barrier cell's round, no duty taken: the three rows. -/
theorem rest_bar : bigSep ((sched (F := F) m).duties (barCell c) 0 \ ∅) (fun d => (sched (F := F) m).payload (barCell c) 0 d)
    = iprop(barPay c 1 ∗ barPay c 2 ∗ barPay c 3) := by
  rw [Finset.sdiff_empty, duties_bar, bigSep_eq_bigSepL_of_eq [(1 : Fin 4), 2, 3] (by decide) (by decide), bigSepL_cons_cons, bigSepL_cons_cons, bigSepL_singleton,
    payload_bar, payload_bar, payload_bar]
  rfl
theorem rest_send (r : Fin 4) (hr : r ≠ 0) :
    bigSep ((sched (F := F) m).duties (sendCell c r) 0 \ ∅) (fun d => (sched (F := F) m).payload (sendCell c r) 0 d) = sendPay m c r := by
  rw [Finset.sdiff_empty, duties_send m c r hr, bigSep_singleton, payload_send m c r hr]
theorem rest_recv (k : Fin 4) (hk : k ≠ 0) :
    bigSep ((sched (F := F) m).duties (recvCell c k) 0 \ ∅) (fun d => (sched (F := F) m).payload (recvCell c k) 0 d) = recvPay m c k := by
  rw [Finset.sdiff_empty, duties_recv m c k hk, bigSep_singleton, payload_recv m c k hk]

end Sched

/-! ## What each device owes at launch; the levels -/

/-- The three receive credits, then the three barrier units, summed so that each step of the body peels the last summand:
    the signals to the devices 1, 2, 3 places on in that order, then the copies in that order. -/
def Oa (c : Dev nD) : CellTallies nD τ sig Unit := tallyAt (recvCell (sh c 3) 1) () N
def Ob (c : Dev nD) : CellTallies nD τ sig Unit := Oa c + tallyAt (recvCell (sh c 2) 2) () N
def Oc (c : Dev nD) : CellTallies nD τ sig Unit := Ob c + tallyAt (recvCell (sh c 1) 3) () N
def Od (c : Dev nD) : CellTallies nD τ sig Unit := Oc c + tallyAt (barCell (sh c 3)) () 1
def Oe (c : Dev nD) : CellTallies nD τ sig Unit := Od c + tallyAt (barCell (sh c 2)) () 1
def O₀ (c : Dev nD) : CellTallies nD τ sig Unit := Oe c + tallyAt (barCell (sh c 1)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma (recvS 1) ∨ g.2 = .dma (recvS 2) ∨ g.2 = .dma (recvS 3) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (k : Fin 4) (hk : k ≠ 0) (u : Unit) : lv (recvCell c k) u = 2 := by
  dsimp only [lv]; rw [if_neg (recv_ne_bar k)]
  refine if_pos ?_
  fin_cases k
  · exact absurd rfl hk
  · exact .inl rfl
  · exact .inr (.inl rfl)
  · exact .inr (.inr rfl)

/-- Where the three receive credits are positive. -/
theorem Oc_pos {c : Dev nD} {g : GSem nD τ sig} {u : Unit} (h : 0 < Oc c g u) :
    g = recvCell (sh c 3) 1 ∨ g = recvCell (sh c 2) 2 ∨ g = recvCell (sh c 1) 3 := by
  unfold Oc Ob Oa at h
  rcases Pipeline.add_pos_cases h with h | h
  · rcases Pipeline.add_pos_cases h with h | h
    · exact .inl (Pipeline.tallyAt_pos h).1
    · exact .inr (.inl (Pipeline.tallyAt_pos h).1)
  · exact .inr (.inr (Pipeline.tallyAt_pos h).1)

/-- Where anything owed at launch is positive: a receive cell or a barrier cell. -/
theorem O₀_pos {c : Dev nD} {g : GSem nD τ sig} {u : Unit} (h : 0 < O₀ c g u) :
    (∃ d k, k ≠ 0 ∧ g = recvCell d k) ∨ ∃ d, g = barCell d := by
  unfold O₀ Oe Od at h
  rcases Pipeline.add_pos_cases h with h | h
  · rcases Pipeline.add_pos_cases h with h | h
    · rcases Pipeline.add_pos_cases h with h | h
      · rcases Oc_pos h with rfl | rfl | rfl
        · exact .inl ⟨_, 1, by decide, rfl⟩
        · exact .inl ⟨_, 2, by decide, rfl⟩
        · exact .inl ⟨_, 3, by decide, rfl⟩
      · exact .inr ⟨_, (Pipeline.tallyAt_pos h).1⟩
    · exact .inr ⟨_, (Pipeline.tallyAt_pos h).1⟩
  · exact .inr ⟨_, (Pipeline.tallyAt_pos h).1⟩

/-- A staging semaphore's wait, made owing everything or nothing: staging cells sit at level 0, below every cell owed. -/
theorem mayWait_stage (c : Dev nD) (q : DmaSem sig) (hq : SemLoc.dma q ≠ .dma (recvS 1) ∧ SemLoc.dma q ≠ .dma (recvS 2) ∧ SemLoc.dma q ≠ .dma (recvS 3))
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by
      dsimp only [lv]; rw [if_neg (fun h => by cases h), if_neg (fun h => by rcases h with h | h | h; exacts [hq.1 h, hq.2.1 h, hq.2.2 h])]
    rcases O₀_pos hg with ⟨d, k, hk, rfl⟩ | ⟨d, rfl⟩
    · exact ⟨by rw [L_tc]; exact Finset.mem_singleton_self _, by rw [h0, lv_recv d k hk]; decide⟩
    · exact ⟨by rw [L_tc]; exact Finset.mem_singleton_self _, by rw [h0, lv_bar]; decide⟩
  · rw [MayWait_zero]; iintro -; iempintro

/-- At its barrier wait a device owes the three receive credits only: receive cells, above its barrier cell. -/
theorem mayWait_bar (c : Dev nD) :
    (levAts L lv : sProp 𝕄) ⊢ MayWait (c : Thread nD τ) (.reg barS) () (Oc c) :=
  Pipeline.mayWait_of_levAts (by rw [L_tc]; exact Finset.mem_singleton_self _) fun g u hg => by
    rcases Oc_pos hg with rfl | rfl | rfl
    · exact ⟨by rw [L_tc]; exact Finset.mem_singleton_self _, by rw [lv_bar, lv_recv _ 1 (by decide)]; decide⟩
    · exact ⟨by rw [L_tc]; exact Finset.mem_singleton_self _, by rw [lv_bar, lv_recv _ 2 (by decide)]; decide⟩
    · exact ⟨by rw [L_tc]; exact Finset.mem_singleton_self _, by rw [lv_bar, lv_recv _ 3 (by decide)]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`. -/
def outAt (c : Dev nD) : (cc0_stg1_0 : Ref sig .tc).ty.Contents (Elt F) := Spec.result (fun d => xstg m d) c

/-- The whole statistics buffer of device `c`, at some contents. -/
def scrAny (c : Dev nD) : sProp 𝕄 :=
  iprop(∃ f : Buf (Elt F) ((c : Thread nD τ).loc cc0_scratch0), ((c : Thread nD τ).loc cc0_scratch0) ↦{fullShare} f)

/-- Every cell's invariant under the name the launch allocated it at, and that round 0 of every cell is reached. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at' (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
theorem reached_at' (ck : Dev nD × Fin 7) :
    (bigSep Finset.univ fun ck : Dev nD × Fin 7 => (reached ER (kcell ck) 0 : sProp 𝕄)) ⊢ reached ER (kcell ck) 0 :=
  bigSep_elim (Finset.mem_univ ck)
theorem inv_at (K : Dev nD × Fin 7 → ℕ) (ck : Dev nD × Fin 7) : records m K ⊢ cellInv ER (sched m) (K ck) (kcell ck) := by
  unfold records
  iintro ⟨H, -⟩
  iapply (inv_at' m K ck)
  iexact H
theorem reached_at (K : Dev nD × Fin 7 → ℕ) (ck : Dev nD × Fin 7) : records m K ⊢ (reached ER (kcell ck) 0 : sProp 𝕄) := by
  unfold records
  iintro ⟨-, H⟩
  iapply (reached_at' (F := F) ck)
  iexact H

/-- Device `c`'s positions: round 0 of each of its seven cells, nothing taken. -/
def positions (c : Dev nD) : sProp 𝕄 := bigSep Finset.univ fun j : Fin 7 => atPos ER (kcell (c, j)) 0 ∅ 0

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem positions_eq (c : Dev nD) : (positions c : sProp 𝕄) =
    iprop(atPos ER (barCell c) 0 ∅ 0 ∗ atPos ER (sendCell c 1) 0 ∅ 0 ∗ atPos ER (sendCell c 2) 0 ∅ 0 ∗ atPos ER (sendCell c 3) 0 ∅ 0
      ∗ atPos ER (recvCell c 1) 0 ∅ 0 ∗ atPos ER (recvCell c 2) 0 ∅ 0 ∗ atPos ER (recvCell c 3) 0 ∅ 0) := by
  unfold positions; rw [bigSep_fin7]

/-- The tokens of the duties device `c` pays: the barrier duty `r` of the device `r` places on, the receive duty of that
    device's receive cell `4 - r`, its own send duties. -/
def payToks (c : Dev nD) : sProp 𝕄 :=
  iprop(dutyTok ER (barCell (sh c 1)) 0 1 ∗ dutyTok ER (barCell (sh c 2)) 0 2 ∗ dutyTok ER (barCell (sh c 3)) 0 3
    ∗ dutyTok ER (recvCell (sh c 1) 3) 0 0 ∗ dutyTok ER (recvCell (sh c 2) 2) 0 0 ∗ dutyTok ER (recvCell (sh c 3) 1) 0 0
    ∗ dutyTok ER (sendCell c 1) 0 0 ∗ dutyTok ER (sendCell c 2) 0 0 ∗ dutyTok ER (sendCell c 3) 0 0)

/-- The protocol's ghost state device `c` starts from. -/
def ghost (K : Dev nD × Fin 7 → ℕ) (c : Dev nD) : sProp 𝕄 := iprop(records m K ∗ positions c ∗ payToks c)

/-- What device `c`'s body starts from: that at some names, the credit of its barrier's three units and of its three
    receive cells, and the level facts. -/
def start (c : Dev nD) : sProp 𝕄 :=
  iprop((∃ K, ghost m K c) ∗ cred (tallyAt (barCell c) () 3)
    ∗ cred (tallyAt (recvCell c 1) () N) ∗ cred (tallyAt (recvCell c 2) () N) ∗ cred (tallyAt (recvCell c 3) () N) ∗ levAts L lv)

def Φ₀ (c : Dev nD) : sProp 𝕄 := iprop(start m c ∗ scrAny c)
/-- After the point: the statistics buffer back whole, the six own cells at zero, closed. -/
def Φ₁ (c : Dev nD) : sProp 𝕄 := iprop(scrAny c ∗ Pipeline.ownSems0 osem c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.KernelIdealBodyDefs.lean ====
/-
  What one device's body starts from and what it leaves, as the pipeline hands them over: the protocol's ghost state, the
  launch credit and the statistics buffer, with the two staging buffers (the input block; the result block) before; the
  statistics buffer back whole, the six own cells closed at zero, the input block unchanged and the result block at the
  device's result after.
-/
import proofs.«900394_g7700000000000395_dist_softmax_colshard_i_m1024_n1024_v7x_i4_f32_1_alg».proof.Proof.Gen.KernelIdeal
import proofs.«900394_g7700000000000395_dist_softmax_colshard_i_m1024_n1024_v7x_i4_f32_1_alg».proof.Proof.Gen.KernelIdeal.Skeleton
import proofs.«900394_g7700000000000395_dist_softmax_colshard_i_m1024_n1024_v7x_i4_f32_1_alg».proof.Proof.Gen.KernelIdeal.Launch
import proofs.«900394_g7700000000000395_dist_softmax_colshard_i_m1024_n1024_v7x_i4_f32_1_alg».proof.Proof.Gen.KernelIdeal.Points
import proofs.«900394_g7700000000000395_dist_softmax_colshard_i_m1024_n1024_v7x_i4_f32_1_alg».proof.Proof.Gen.KernelIdeal.Frame
import proofs.«900394_g7700000000000395_dist_softmax_colshard_i_m1024_n1024_v7x_i4_f32_1_alg».proof.Proof.KernelIdealSpec
import proofs.«900394_g7700000000000395_dist_softmax_colshard_i_m1024_n1024_v7x_i4_f32_1_alg».proof.Proof.KernelIdealProto
import Idealize.ShloMosaic.Lib.Pipeline.Launch
import Idealize.ShloMosaic.Lib.Pipeline.Kit
import Idealize.ShloMosaic.Lib.Tactic

noncomputable section

namespace Cert.KernelIdeal.BodyDefs

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Proto

local notation "𝕄" => MT nD τ sig Unit (Elt F) ℕ UU ℕ

variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m K c ∗ cred (tallyAt (barCell c) () 3)
      ∗ cred (tallyAt (recvCell c 1) () N) ∗ cred (tallyAt (recvCell c 2) () N) ∗ cred (tallyAt (recvCell c 3) () N) ∗ levAts L lv ∗ scrAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

/-- The statement of one device's body: from `bodyPre`, the printed kernel function runs to `bodyPost`. -/
def SoundBody : Prop :=
  ∀ (K : Dev nD × Fin 7 → ℕ) (c : Dev nD) (Kt : PUnit → sProp 𝕄),
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt

end Cert.KernelIdeal.BodyDefs

end
-- ==== Proof.KernelIdealLaunch.lean ====
/-
  The launch of the four devices' protocol.

  The launch element funds, for every device, the round state at counter zero of its seven cells (its barrier cell, its
  three send cells, its three receive cells), its position at the start of round 0 of each with that round reached, and
  the tokens of its OWN cells' duties: the three duties of its barrier cell and the one duty of each send and receive
  cell. Under one update for all devices each cell's counter at zero and its round state become the cell's invariant;
  the tokens are then dealt round the mesh to the devices that pay the duties: barrier duty r of device c's cell goes to
  the device r places before c, the duty of its receive cell k to the device k places after it, and a send cell's duty
  stays. What a device is owed at launch, summed over the devices that owe it, is three units on its barrier cell and a
  row's credit on each of its three receive cells.
-/
import proofs.«900394_g7700000000000395_dist_softmax_colshard_i_m1024_n1024_v7x_i4_f32_1_alg».proof.Proof.Gen.KernelIdeal
import proofs.«900394_g7700000000000395_dist_softmax_colshard_i_m1024_n1024_v7x_i4_f32_1_alg».proof.Proof.Gen.KernelIdeal.Skeleton
import proofs.«900394_g7700000000000395_dist_softmax_colshard_i_m1024_n1024_v7x_i4_f32_1_alg».proof.Proof.Gen.KernelIdeal.Launch
import proofs.«900394_g7700000000000395_dist_softmax_colshard_i_m1024_n1024_v7x_i4_f32_1_alg».proof.Proof.Gen.KernelIdeal.Points
import proofs.«900394_g7700000000000395_dist_softmax_colshard_i_m1024_n1024_v7x_i4_f32_1_alg».proof.Proof.Gen.KernelIdeal.Frame
import proofs.«900394_g7700000000000395_dist_softmax_colshard_i_m1024_n1024_v7x_i4_f32_1_alg».proof.Proof.KernelIdealSpec
import proofs.«900394_g7700000000000395_dist_softmax_colshard_i_m1024_n1024_v7x_i4_f32_1_alg».proof.Proof.KernelIdealProto
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Spec Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

theorem ownSemFacts : Pipeline.OwnSemFacts cfg0.spec osem := by decide

theorem share_eq (c : Dev nD) (w : Fin cfg0.W) : (dats m 0 c).share w = fullShare := by unfold Dat.share; split <;> rfl

/-! ## The cells and the tokens minted -/

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def protoCells : Finset (GSem nD τ sig) := Finset.univ.map ⟨kcell, kcell_injective⟩

/-- The nine tokens minted per device, as (which of its seven cells, which duty): its barrier's duties 1, 2, 3, the one
    duty of each send cell, the one duty of each receive cell. -/
abbrev tokAt : Fin 9 → Fin 7 × Fin 4 := fun
  | 0 => (0, 1) | 1 => (0, 2) | 2 => (0, 3) | 3 => (1, 0) | 4 => (2, 0) | 5 => (3, 0) | 6 => (4, 0) | 7 => (5, 0) | 8 => (6, 0)
theorem tokAt_injective : Function.Injective tokAt := by decide
abbrev tokOf (cj : Dev nD × Fin 9) : GSem nD τ sig × ℕ × Fin 4 := (kcell (cj.1, (tokAt cj.2).1), 0, (tokAt cj.2).2)
theorem tokOf_injective : Function.Injective (tokOf : Dev nD × Fin 9 → GSem nD τ sig × ℕ × Fin 4) := by
  rintro ⟨c, j⟩ ⟨c', j'⟩ h
  have hk : (c, (tokAt j).1) = (c', (tokAt j').1) := kcell_injective (congrArg (fun x : GSem nD τ sig × ℕ × Fin 4 => x.1) h)
  have hd : (tokAt j).2 = (tokAt j').2 := congrArg (fun x : GSem nD τ sig × ℕ × Fin 4 => x.2.2) h
  have hc : c = c' := congrArg Prod.fst hk
  have hj : j = j' := tokAt_injective (Prod.ext (congrArg Prod.snd hk) hd)
  rw [hc, hj]
def protoToks : Finset (GSem nD τ sig × ℕ × Fin 4) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 1 ∗ dutyTok ER (barCell c) 0 2 ∗ dutyTok ER (barCell c) 0 3
    ∗ dutyTok ER (sendCell c 1) 0 0 ∗ dutyTok ER (sendCell c 2) 0 0 ∗ dutyTok ER (sendCell c 3) 0 0
    ∗ dutyTok ER (recvCell c 1) 0 0 ∗ dutyTok ER (recvCell c 2) 0 0 ∗ dutyTok ER (recvCell c 3) 0 0)

/-- What the launch element deals device `c`: its seven cells' round states at counter zero, its positions with round 0
    reached, its own cells' nine tokens. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's half of the launch element, dealt device by device. -/
theorem fund : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin9]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element splits into the pipeline's half and the protocol's, the protocol's dealt. -/
theorem hu₀ : (ownU (u₀) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund m) $$ HX with HG
  imodintro
  isplitl [HP] <;> iassumption

/-! ## The global step: every cell's invariant allocated, the tokens dealt round the mesh -/

/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 1) 0 ∗ semVal (sendCell c 2) 0 ∗ semVal (sendCell c 3) 0
        ∗ semVal (recvCell c 1) 0 ∗ semVal (recvCell c 2) 0 ∗ semVal (recvCell c 3) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 7 → ℕ) (c : Dev nD) : iprop(records m K ∗ positions c ∗ payToks c) ⊢ G' m c := by
  unfold G' ghost
  iintro H
  iexists K
  iexact H

/-- The mesh turned `r` places. -/
def shE (r : Fin 4) : Dev nD ≃ Dev nD := ⟨fun c => sh c r, fun c => sh c (-r), fun c => sh_sh_neg c r, fun c => sh_neg_sh c r⟩

/-- The tokens dealt round the mesh: barrier duty `r` to the device `r` places before the owner, the duty of receive
    cell `k` to the device `4 - k` places before it, a send cell's duty to its owner. -/
theorem toks_around : (bigSep Finset.univ fun c : Dev nD => (toks c : sProp 𝕄)) ⊢ bigSep Finset.univ fun c : Dev nD => payToks c := by
  unfold toks payToks
  simp only [bigSep_sep']
  rw [bigSep_univ_equiv (shE 1) (fun c : Dev nD => (dutyTok ER (barCell c) 0 1 : sProp 𝕄)),
    bigSep_univ_equiv (shE 2) (fun c : Dev nD => (dutyTok ER (barCell c) 0 2 : sProp 𝕄)),
    bigSep_univ_equiv (shE 3) (fun c : Dev nD => (dutyTok ER (barCell c) 0 3 : sProp 𝕄)),
    bigSep_univ_equiv (shE 3) (fun c : Dev nD => (dutyTok ER (recvCell c 1) 0 0 : sProp 𝕄)),
    bigSep_univ_equiv (shE 2) (fun c : Dev nD => (dutyTok ER (recvCell c 2) 0 0 : sProp 𝕄)),
    bigSep_univ_equiv (shE 1) (fun c : Dev nD => (dutyTok ER (recvCell c 3) 0 0 : sProp 𝕄))]
  iintro ⟨B1, B2, B3, S1, S2, S3, R1, R2, R3⟩
  isplitl [B1]; · iexact B1
  isplitl [B2]; · iexact B2
  isplitl [B3]; · iexact B3
  isplitl [R3]; · iexact R3
  isplitl [R2]; · iexact R2
  isplitl [R1]; · iexact R1
  isplitl [S1]; · iexact S1
  isplitl [S2]; · iexact S2
  iexact S3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (sched m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ iprop(positions c ∗ payToks c) from Entails.of_eq (by unfold positions; rfl)))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Every device owing `n` units on semaphore `sm` of the device `r` places on, a device is dealt `n` units' credit on its
    own `sm`: what the device `r` places before it owes. -/
theorem cred_at (sm : SemLoc sig) (r : Fin 4) (n : ℕ) (c : Dev nD) :
    (Pipeline.launchCred (fun d => tallyAt (((sh d r : Dev nD) : Thread nD τ), sm) () n) c : sProp 𝕄)
      ⊢ cred (tallyAt ((c : Thread nD τ), sm) () n) :=
  Pipeline.launchCred_tallyAt sm (fun d => sh d r) (fun c => sh c (-r)) (fun c => sh_neg_sh c r) (fun d => sh_sh_neg d r) () n c

/-- Three single units' credit on one cell are three units' credit. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

/-- What a device is dealt at launch: three units on its barrier cell (one from each peer) and a row's credit on each of
    its three receive cells. -/
theorem creds (c : Dev nD) : (Pipeline.launchCred O₀ c : sProp 𝕄)
    ⊢ iprop(cred (tallyAt (barCell c) () 3) ∗ cred (tallyAt (recvCell c 1) () N) ∗ cred (tallyAt (recvCell c 2) () N) ∗ cred (tallyAt (recvCell c 3) () N)) := by
  have s1 : (Pipeline.launchCred O₀ c : sProp 𝕄) = iprop(Pipeline.launchCred Oe c ∗ Pipeline.launchCred (fun d => tallyAt (barCell (sh d 1)) () 1) c) :=
    Pipeline.launchCred_add Oe (fun d => tallyAt (barCell (sh d 1)) () 1) c
  have s2 : (Pipeline.launchCred Oe c : sProp 𝕄) = iprop(Pipeline.launchCred Od c ∗ Pipeline.launchCred (fun d => tallyAt (barCell (sh d 2)) () 1) c) :=
    Pipeline.launchCred_add Od (fun d => tallyAt (barCell (sh d 2)) () 1) c
  have s3 : (Pipeline.launchCred Od c : sProp 𝕄) = iprop(Pipeline.launchCred Oc c ∗ Pipeline.launchCred (fun d => tallyAt (barCell (sh d 3)) () 1) c) :=
    Pipeline.launchCred_add Oc (fun d => tallyAt (barCell (sh d 3)) () 1) c
  have s4 : (Pipeline.launchCred Oc c : sProp 𝕄) = iprop(Pipeline.launchCred Ob c ∗ Pipeline.launchCred (fun d => tallyAt (recvCell (sh d 1) 3) () N) c) :=
    Pipeline.launchCred_add Ob (fun d => tallyAt (recvCell (sh d 1) 3) () N) c
  have s5 : (Pipeline.launchCred Ob c : sProp 𝕄) = iprop(Pipeline.launchCred Oa c ∗ Pipeline.launchCred (fun d => tallyAt (recvCell (sh d 2) 2) () N) c) :=
    Pipeline.launchCred_add Oa (fun d => tallyAt (recvCell (sh d 2) 2) () N) c
  have s6 : (Pipeline.launchCred Oa c : sProp 𝕄) = Pipeline.launchCred (fun d => tallyAt (recvCell (sh d 3) 1) () N) c := rfl
  rw [s1, s2, s3, s4, s5, s6]
  iintro ⟨⟨⟨⟨⟨Ha, Hb⟩, Hc⟩, Hd⟩, He⟩, Hf⟩
  ihave Ha' := (cred_at (F := F) (.dma (recvS 1)) 3 N c) $$ Ha
  ihave Hb' := (cred_at (F := F) (.dma (recvS 2)) 2 N c) $$ Hb
  ihave Hc' := (cred_at (F := F) (.dma (recvS 3)) 1 N c) $$ Hc
  ihave Hd' := (cred_at (F := F) (.reg barS) 3 1 c) $$ Hd
  ihave He' := (cred_at (F := F) (.reg barS) 2 1 c) $$ He
  ihave Hf' := (cred_at (F := F) (.reg barS) 1 1 c) $$ Hf
  isplitl [Hd' He' Hf']
  · iapply (cred_three (F := F) (barCell c))
    isplitl [Hd']; · iexact Hd'
    isplitl [He'] <;> iassumption
  isplitl [Ha']; · iexact Ha'
  isplitl [Hb'] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H1, H2, H3⟩
  imodintro
  unfold start G'
  isplitl
  · isplitl [HG]; · iexact HG
    isplitl [HB]; · iexact HB
    isplitl [H1]; · iexact H1
    isplitl [H2]; · iexact H2
    isplitl [H3]; · iexact H3
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scrAny
  iintro ⟨Hr, Hz⟩
  isplitr; · iempintro
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Cert.KernelIdeal.Launch

end
-- ==== Proof.KernelIdealRun.lean ====
/-
  The run of the whole mesh from one device's body.

  Given the body lemma for every device — from what the pipeline hands a device at its one grid point, its kernel runs to
  what it leaves — the launch theorem gives: every fair execution of all four devices terminates, and each device's
  arrays end as the pipeline's bookkeeping computes them. Read off: the input array is never written back, so it ends
  as it was launched; the result array's one block is the whole array, written back once with what the body left, the
  device's result as a function of the four devices' input blocks.
-/
import proofs.«900394_g7700000000000395_dist_softmax_colshard_i_m1024_n1024_v7x_i4_f32_1_alg».proof.Proof.Gen.KernelIdeal
import proofs.«900394_g7700000000000395_dist_softmax_colshard_i_m1024_n1024_v7x_i4_f32_1_alg».proof.Proof.Gen.KernelIdeal.Skeleton
import proofs.«900394_g7700000000000395_dist_softmax_colshard_i_m1024_n1024_v7x_i4_f32_1_alg».proof.Proof.Gen.KernelIdeal.Launch
import proofs.«900394_g7700000000000395_dist_softmax_colshard_i_m1024_n1024_v7x_i4_f32_1_alg».proof.Proof.Gen.KernelIdeal.Points
import proofs.«900394_g7700000000000395_dist_softmax_colshard_i_m1024_n1024_v7x_i4_f32_1_alg».proof.Proof.Gen.KernelIdeal.Frame
import proofs.«900394_g7700000000000395_dist_softmax_colshard_i_m1024_n1024_v7x_i4_f32_1_alg».proof.Proof.KernelIdealSpec
import proofs.«900394_g7700000000000395_dist_softmax_colshard_i_m1024_n1024_v7x_i4_f32_1_alg».proof.Proof.KernelIdealProto
import proofs.«900394_g7700000000000395_dist_softmax_colshard_i_m1024_n1024_v7x_i4_f32_1_alg».proof.Proof.KernelIdealBodyDefs
import proofs.«900394_g7700000000000395_dist_softmax_colshard_i_m1024_n1024_v7x_i4_f32_1_alg».proof.Proof.KernelIdealLaunch
import Idealize.ShloMosaic.Lib.Pipeline.Launch
import Idealize.ShloMosaic.Lib.Pipeline.Kit
import Idealize.ShloMosaic.Lib.Tactic

noncomputable section

namespace Cert.KernelIdeal.Run

open Cert.KernelIdeal Cert.KernelIdeal.Gen Cert.KernelIdeal.Spec Cert.KernelIdeal.Proto Cert.KernelIdeal.BodyDefs Cert.KernelIdeal.Launch
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation, in the pipeline's form -/

set_option maxRecDepth 4000 in
/-- What the pipeline hands device `c`'s body at its one point, the two staging buffers named. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`, from the body lemma. -/
theorem body_obligation (hsb : SoundBody m) (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (hsb K c fun _ => bodyPost m c)
  unfold bodyPre
  isplitr []
  · isplitl [Hg Hrest Hscr]
    · isplitl [Hg]; · iexact Hg
      icases Hrest with ⟨HB, H1, H2, H3, Hlev⟩
      isplitl [HB]; · iexact HB
      isplitl [H1]; · iexact H1
      isplitl [H2]; · iexact H2
      isplitl [H3]; · iexact H3
      isplitl [Hlev]; · iexact Hlev
      iexact Hscr
    isplitl [Ho]; · iexact Ho
    isplitl [Hx] <;> iassumption
  · iintro H; iexact H

/-! ## The run -/

set_option maxRecDepth 8000 in
/-- From any memory with every counter at zero: every fair execution of the four devices' kernels terminates, and every
    final state has each device's arrays at what the pipeline's bookkeeping computes. -/
theorem run_main (hsb : SoundBody m) : θ_run defs (onTc (τ := τ) (main (F := F))) ⟨m, fun _ => 0, ρ⟩
    (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hsb) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays, read off -/

/-- The input window's one block is the whole input array: a device's staged block is its input array. -/
theorem xstg_eq (d : Dev nD) : xstg m d = m ((d : Thread nD τ).loc main_arg0) := by
  have hz : (fun a => (win0_0.index (0 : Fin 1)) a * main_arg0.ty.shape.size a) = fun _ => 0 :=
    funext fun a => by fin_cases a <;> decide
  unfold xstg
  exact Memref.read_access_unit_zero (Elt F) main_arg0 hz (fun a => by fin_cases a <;> decide) _

/-- The device's result, over the input arrays as launched. -/
theorem outAt_eq (c : Dev nD) : outAt m c = Spec.result (fun d => m ((d : Thread nD τ).loc main_arg0)) c :=
  congrArg (fun X => Spec.result X c) (funext fun d => xstg_eq m d)

/-- The result array after the run: its one block, the whole array, written back once with what the body left. -/
theorem arr_out (c : Dev nD) : (dats m 0 c).arrAt (1 : Fin 2) cfg0.N = outAt m c := by
  have ho : (win0_1.blk (0 : Fin 1)).view.read (Elt F) ((dats m 0 c).arrAt (1 : Fin 2) cfg0.N) = outAt m c := by
    rw [show cfg0.N = ((0 : Fin 1) : Fin cfg0.N).val + 1 from rfl, (dats m 0 c).arrAt_succ (1 : Fin 2) (0 : Fin 1)]
    rw [show (cfg0.win (1 : Fin 2)).flush (0 : Fin 1) = true from flush0_1 _, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans ho

/-- The input array after the run: as launched. -/
theorem arr_in (c : Dev nD) : (dats m 0 c).arrAt (0 : Fin 2) cfg0.N = m ((c : Thread nD τ).loc main_arg0) :=
  (dats (F := F) m 0 c).arrAt_in (0 : Fin 2) rfl _

/-- The run with its strong post: each device's result array ends at its result as a function of the four devices'
    input arrays as launched, and its input array ends unchanged. -/
theorem run (hsb : SoundBody m) : θ_run defs (onTc (τ := τ) (main (F := F))) ⟨m, fun _ => 0, ρ⟩ (fun r => ∀ c : Dev nD,
    r.2.mem ((c.tc : Thread nD τ).loc main_v1) = Spec.result (fun d => m ((d.tc : Thread nD τ).loc main_arg0)) c
    ∧ r.2.mem ((c.tc : Thread nD τ).loc main_arg0) = m ((c.tc : Thread nD τ).loc main_arg0)) :=
  (θ_run defs _ _).mono (fun _ h c => ⟨(h c (1 : Fin 2)).trans ((arr_out m c).trans (outAt_eq m c)), (h c (0 : Fin 2)).trans (arr_in m c)⟩)
    (run_main m ρ hsb)

end Cert.KernelIdeal.Run

end
-- ==== Proof.Spec.lean ====
/- The specification of one device's result, under the name the value modules import. -/
import proofs.«900394_g7700000000000395_dist_softmax_colshard_i_m1024_n1024_v7x_i4_f32_1_alg».proof.Proof.KernelIdealSpec
-- ==== Proof.ValueLaw.lean ====
/-
  The algebra of a row-wise softmax taken two ways, on the extended reals at finite entries.

  One way scales each exponential by the reciprocal of the row's sum of exponentials, the sum taken as four partial
  sums of 1024 columns each, the four blocks in the order c, c+1, c+2, c+3 round a ring of four. The other way
  subtracts a finite real m from every entry first and divides the shifted exponential by the shifted sum over all 4096
  columns at once. With every entry a finite real the two agree: exp (a - m) = exp a / exp m, the factor 1 / exp m is
  neither zero nor infinite and cancels, and a sum over four blocks taken in a rotated order is the sum over all columns.
  Nothing here depends on a program.
-/
import Idealize.ShloMosaic.PureOps.Ideal.Laws
import Idealize.ShloMosaic.Lib.IdealHost

noncomputable section

namespace Cert.KernelIdeal.ValueLaw

open Idealize.ShloMosaic
open scoped BigOperators

/-- The inclusion of the reals in the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: scaling by the reciprocal of the sum of exponentials is unchanged by a shift of every exponent. -/
theorem real_shift {ι : Type} [Fintype ι] (r : ι → ℝ) (m : ℝ) (j : ι) :
    Real.exp (r j) * (1 / ∑ i, Real.exp (r i)) = Real.exp (r j - m) * (1 / ∑ i, Real.exp (r i - m)) := by
  have hpos : (0 : ℝ) < ∑ i, Real.exp (r i) := Finset.sum_pos (fun i _ => Real.exp_pos _) ⟨j, Finset.mem_univ j⟩
  have hm : Real.exp m ≠ 0 := (Real.exp_pos m).ne'
  have hs : ∑ i, Real.exp (r i - m) = (∑ i, Real.exp (r i)) / Real.exp m := by
    rw [Finset.sum_div]; exact Finset.sum_congr rfl fun i _ => Real.exp_sub _ _
  rw [hs, Real.exp_sub]
  field_simp

/-- On the extended reals, at finite entries: the exponential times the reciprocal of the sum of exponentials (each
    taken times one) is the shifted exponential over the shifted sum (taken from zero), for any finite shift. -/
theorem softmax_shift {ι : Type} [Fintype ι] (r : ι → ℝ) (m : ℝ) (j : ι) :
    Ideal.exp (r j : EReal) * Ideal.div 1 (∑ i, (1 : EReal) * Ideal.exp (r i : EReal))
      = Ideal.div (Ideal.exp ((r j : EReal) - (m : EReal))) (0 + ∑ i, Ideal.exp ((r i : EReal) - (m : EReal))) := by
  have hpos : (0 : ℝ) < ∑ i, Real.exp (r i) := Finset.sum_pos (fun i _ => Real.exp_pos _) ⟨j, Finset.mem_univ j⟩
  have hpos' : (0 : ℝ) < ∑ i, Real.exp (r i - m) := Finset.sum_pos (fun i _ => Real.exp_pos _) ⟨j, Finset.mem_univ j⟩
  have e1 : ∑ i, (1 : EReal) * Ideal.exp (r i : EReal) = ((∑ i, Real.exp (r i) : ℝ) : EReal) := by
    rw [coe_sum]; exact Finset.sum_congr rfl fun i _ => by rw [one_mul, Ideal.exp_coe]
  have e2 : (0 : EReal) + ∑ i, Ideal.exp ((r i : EReal) - (m : EReal)) = ((∑ i, Real.exp (r i - m) : ℝ) : EReal) := by
    rw [zero_add, coe_sum]; exact Finset.sum_congr rfl fun i _ => by rw [← EReal.coe_sub, Ideal.exp_coe]
  rw [e1, e2, Ideal.div_coe hpos.ne', Ideal.div_coe hpos'.ne', one_mul, ← EReal.coe_sub, Ideal.exp_coe, Ideal.exp_coe,
    ← EReal.coe_mul, ← EReal.coe_mul, real_shift r m j]

/-- A sum over four blocks of 1024 columns, the blocks taken in the order c, c+1, c+2, c+3 round a ring of four, is the
    sum over all 4096 columns: column J is column J mod 1024 of block J / 1024. -/
theorem sum_ring_blocks {M : Type} [AddCommMonoid M] (f : Fin 4 → Fin 1024 → M) (g : Fin 4096 → M)
    (hfg : ∀ (d : Fin 4) (j : Fin 1024) (J : Fin 4096), J.val = d.val * 1024 + j.val → f d j = g J) (c : Fin 4) :
    ∑ k : Fin 4, ∑ j : Fin 1024, f (c + k) j = ∑ J : Fin 4096, g J := by
  have hrot : ∑ k : Fin 4, ∑ j : Fin 1024, f (c + k) j = ∑ d : Fin 4, ∑ j : Fin 1024, f d j :=
    Equiv.sum_comp (Equiv.addLeft c) (fun d => ∑ j : Fin 1024, f d j)
  rw [hrot, ← Equiv.sum_comp (finProdFinEquiv (m := 4) (n := 1024)) g, Fintype.sum_prod_type]
  refine Finset.sum_congr rfl fun d _ => Finset.sum_congr rfl fun j _ => hfg d j _ ?_
  show j.val + 1024 * d.val = d.val * 1024 + j.val
  omega

/-- A fold of max from the bottom over a non-empty finite set of finite reals is a finite real (the set's maximum). The
    operation is given up to its equation with max, so that the lemma applies to a fold written with a float maximum. -/
theorem fold_max_real {ι : Type} (op : EReal → EReal → EReal) [Std.Commutative op] [Std.Associative op]
    (hop : ∀ x y, op x y = max x y) (s : Finset ι) (hs : s.Nonempty) (f : ι → EReal)
    (hf : ∀ i ∈ s, ∃ r : ℝ, f i = (r : EReal)) : ∃ m : ℝ, s.fold op ⊥ f = (m : EReal) := by
  classical
  have key : ∀ t : Finset ι, (∀ i ∈ t, ∃ r : ℝ, f i = (r : EReal)) →
      t.fold op ⊥ f = ⊥ ∨ ∃ m : ℝ, t.fold op ⊥ f = (m : EReal) := by
    intro t
    induction t using Finset.induction_on with
    | empty => intro _; exact Or.inl Finset.fold_empty
    | insert a t ha ih =>
      intro hft
      obtain ⟨r, hr⟩ := hft a (Finset.mem_insert_self a t)
      refine Or.inr ?_
      rw [Finset.fold_insert ha, hop, hr]
      rcases ih (fun i hi => hft i (Finset.mem_insert_of_mem hi)) with h | ⟨m, h⟩
      · exact ⟨r, by rw [h, max_bot_right]⟩
      · exact ⟨max r m, by rw [h]; exact (EReal.coe_strictMono.monotone.map_max).symm⟩
  obtain ⟨a, ha⟩ := hs
  obtain ⟨r, hr⟩ := hf a ha
  rw [← Finset.insert_erase ha, Finset.fold_insert (Finset.notMem_erase a s), hop, hr]
  rcases key (s.erase a) (fun i hi => hf i (Finset.mem_of_mem_erase hi)) with h | ⟨m, h⟩
  · exact ⟨r, by rw [h, max_bot_right]⟩
  · exact ⟨max r m, by rw [h]; exact (EReal.coe_strictMono.monotone.map_max).symm⟩

end Cert.KernelIdeal.ValueLaw

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.ValueKernel.lean ====
/-
  The kernel's three pure values, read at an index, at the ideal values.

  The block of exponentials at (p, q) is the exponential of the block's entry there. The row of partial sums at p is the
  product of a row of ones with the transposed block of exponentials, accumulated into zero: the sum over the block's
  1024 columns j of one times the exponential of the entry at (p, j). The final product at (p, q) is the exponential at
  (p, q) times one over the sum, over the four rows k of the statistics, of the entry at (k, 0, p): the statistics are
  summed over their first axis, the quotient is transposed to a column and the column is broadcast along the rows.
-/
import proofs.«900394_g7700000000000395_dist_softmax_colshard_i_m1024_n1024_v7x_i4_f32_1_alg».proof.Proof.Spec
import proofs.«900394_g7700000000000395_dist_softmax_colshard_i_m1024_n1024_v7x_i4_f32_1_alg».proof.Proof.LibKeepdims
import Idealize.ShloMosaic.Lib.ValueLayout
import Idealize.ShloMosaic.Lib.IdealHost

noncomputable section

namespace Cert.KernelIdeal.ValueKernel

open Cert.KernelIdeal Cert.KernelIdeal.Gen Idealize.ShloMosaic Idealize.ShloMosaic.ValueIdx

/-- The block of exponentials at an index: the exponential of the entry (the shape cast is to the same shape). -/
theorem pay1_apply (x : Vec Ideal S1024x1024 .f32) (i : S1024x1024.Idx) : k0_pay1 x i = Ideal.exp (x i) := by
  unfold k0_pay1
  show Ideal.exp (shapeCast S1024x1024 x _ i) = _
  rw [shapeCast_self]

/-- The right operand's index of the row-times-transposed-matrix product at output (v, p) and contracted coordinate j
    is (p, j). -/
theorem rhsIdx_eq (v : Fin 1) (p j : Fin 1024) :
    dot_S1x1024_S1024x1024_S1x1024_1_1_0_0_n_n.rhsIdx (ix2 v p)
        ((contrEquiv1 dot_S1x1024_S1024x1024_S1x1024_1_1_0_0_n_n 1024 rfl rfl).symm j) = ix2 p j := by
  have cj := contrEquiv1_symm_val dot_S1x1024_S1024x1024_S1x1024_1_1_0_0_n_n 1024 rfl rfl j
  funext ax; apply Fin.ext
  match ax with
  | ⟨0, _⟩ => simp [DotDims.rhsIdx, dot_S1x1024_S1024x1024_S1x1024_1_1_0_0_n_n]; rfl
  | ⟨1, _⟩ => simp [DotDims.rhsIdx, dot_S1x1024_S1024x1024_S1x1024_1_1_0_0_n_n]; exact cj

/-- The row of partial sums at p: the sum over the block's columns of one times the exponential of the entry. -/
theorem pay2_apply (x : Vec Ideal S1024x1024 .f32) (u v : Fin 1) (p : Fin 1024) :
    k0_pay2 x (ix3 u v p) = ∑ j : Fin 1024, Ideal.ofBits .f32 0x3F800000#32 * Ideal.exp (x (ix2 p j)) := by
  unfold k0_pay2
  show shapeCast S1x1x1024 (matmul dot_S1x1024_S1024x1024_S1x1024_1_1_0_0_n_n none
      (broadcast S1x1024 (Scalar.ofBits (F := Ideal) .f32 0x3F800000#32)) (k0_pay1 x) (constant (F := Ideal) S1x1024 .f32 0x00000000#32))
      _ (ix3 u v p) = _
  rw [shapeCast_ab_1ab_apply]
  refine (Ideal.matmul_constant_zero_apply _ none _ _ (ix2 v p)).trans ?_
  rw [← Equiv.sum_comp (contrEquiv1 dot_S1x1024_S1024x1024_S1x1024_1_1_0_0_n_n 1024 rfl rfl).symm]
  refine Finset.sum_congr rfl fun j _ => ?_
  rw [rhsIdx_eq, pay1_apply]
  rfl

/-- The source index over (v, p) of the statistics summed along their first axis, with row k inserted, is (k, v, p). -/
theorem lift_stats (h : S4x1x1024.Reduces [0] S1x1024) (v : Fin 1) (p : Fin 1024) (k : Fin 4) :
    h.lift (ix2 v p) k = ix3 k v p :=
  funext fun ax => Fin.ext (by match ax with | ⟨0, _⟩ => rfl | ⟨1, _⟩ => rfl | ⟨2, _⟩ => rfl)

/-- The final product at (p, q): the exponential there times one over the sum of the four statistics rows at p. -/
theorem pay3_apply (st : Vec Ideal S4x1x1024 .f32) (e : Vec Ideal S1024x1024 .f32) (p q : Fin 1024) :
    k0_pay3 st e (ix2 p q)
      = e (ix2 p q) * Ideal.div (Ideal.ofBits .f32 0x3F800000#32) (∑ k : Fin 4, st (ix3 k (0 : Fin 1) p)) := by
  unfold k0_pay3
  show shapeCast S1024x1024 e _ (ix2 p q)
      * broadcastTo S1024x1024 (transpose S1024x1 [1, 0]
          (divf (broadcast S1x1024 (Scalar.ofBits (F := Ideal) .f32 0x3F800000#32))
            (multiReduction (F := Ideal) .add [0] S1x1024 st 0x00000000#32 reduces_S4x1x1024_S1x1024 (.inl rfl) rfl)) _) _ (ix2 p q) = _
  rw [shapeCast_self, Cert.Lib.Keepdims.broadcastTo_a1_ab_apply, transpose_ix2_apply]
  show e (ix2 p q) * Ideal.div (Ideal.ofBits .f32 0x3F800000#32)
      (multiReduction (F := Ideal) .add [0] S1x1024 st 0x00000000#32 reduces_S4x1x1024_S1x1024 (.inl rfl) rfl (ix2 (0 : Fin 1) p)) = _
  refine congrArg (fun s => e (ix2 p q) * Ideal.div (Ideal.ofBits .f32 0x3F800000#32) s) ?_
  refine (Ideal.multiReduction_add_single st 0x00000000#32 reduces_S4x1x1024_S1x1024 (.inl rfl) rfl (ix2 (0 : Fin 1) p)).trans ?_
  show ∑ k : Fin 4, st (reduces_S4x1x1024_S1x1024.lift (ix2 (0 : Fin 1) p) k) = _
  exact Finset.sum_congr rfl fun k _ => congrArg st (lift_stats _ 0 p k)

/-- One device's result block at (p, q), from the four devices' input blocks: the exponential of its own entry times
    one over the sum, over the four devices taken from itself round the ring, of that device's row sum of exponentials. -/
theorem result_apply (X : Dev nD → Vec Ideal S1024x1024 .f32) (c : Dev nD) (p q : Fin 1024) :
    Spec.result X c (ix2 p q)
      = Ideal.exp (X c (ix2 p q)) * Ideal.div (Ideal.ofBits .f32 0x3F800000#32)
          (∑ k : Fin 4, ∑ j : Fin 1024, Ideal.ofBits .f32 0x3F800000#32 * Ideal.exp (X (Spec.sh c k) (ix2 p j))) := by
  unfold Spec.result
  rw [pay3_apply, pay1_apply]
  refine congrArg (fun s => Ideal.exp (X c (ix2 p q)) * Ideal.div (Ideal.ofBits .f32 0x3F800000#32) s) ?_
  refine Finset.sum_congr rfl fun k _ => ?_
  unfold Spec.gathered
  exact pay2_apply (X (Spec.sh c k)) 0 0 p

end Cert.KernelIdeal.ValueKernel

end
-- ==== Proof.ValueRef.lean ====
/-
  The reference's result read at an index, at the ideal values, and its row maximum at finite entries.

  At (p, J) the reference divides the exponential of the entry less the maximum of row p by the sum, from zero, over all
  4096 columns of row p of the same shifted exponentials. The row maximum is a fold of max, from the value of the
  minus-infinity word, over the row; over a row of finite reals it is a finite real.
-/
import proofs.«900394_g7700000000000395_dist_softmax_colshard_i_m1024_n1024_v7x_i4_f32_1_alg».proof.Proof.Gen.ReferenceIdeal.Read
import proofs.«900394_g7700000000000395_dist_softmax_colshard_i_m1024_n1024_v7x_i4_f32_1_alg».proof.Proof.ValueLaw
import Idealize.ShloMosaic.Lib.ValueIdx

noncomputable section

namespace Cert.KernelIdeal.ValueRef

open Cert.ReferenceIdeal Cert.ReferenceIdeal.Gen Cert.ReferenceIdeal.Read Idealize.ShloMosaic Idealize.ShloMosaic.ValueIdx

/-- The maximum of row p of the whole array, as the reference takes it. -/
def rowMax (XW : Vec Ideal S1024x4096 .f32) (p : Fin 1024) : EReal := val_main_v0 (F := Ideal) XW (ix1 p)

theorem idx_max (p : Fin 1024) (J : Fin 4096) : idx_main_v1 (idx_main_v2 (ix2 p J)) = ix1 p :=
  funext fun a => Fin.ext (by match a with | ⟨0, _⟩ => rfl)

theorem idx_sum (p : Fin 1024) (J : Fin 4096) : idx_main_v6 (idx_main_v7 (ix2 p J)) = ix1 p :=
  funext fun a => Fin.ext (by match a with | ⟨0, _⟩ => rfl)

theorem idx_col (p : Fin 1024) (J : Fin 4096) : idx_main_v5 (ix1 p) J = ix2 p J :=
  funext fun a => Fin.ext (by match a with | ⟨0, _⟩ => rfl | ⟨1, _⟩ => rfl)

/-- The shifted exponential at (p, J): the exponential of the entry less the row's maximum. -/
theorem v4_apply (XW : Vec Ideal S1024x4096 .f32) (p : Fin 1024) (J : Fin 4096) :
    val_main_v4 (F := Ideal) XW (ix2 p J) = Ideal.exp (XW (ix2 p J) - rowMax XW p) := by
  rw [val_main_v4_apply, val_main_v3_apply, val_main_v2_apply, val_main_v1_apply, idx_max]
  rfl

/-- The reference's result at (p, J): the shifted exponential over the sum, from the value of the zero word, of row p's
    shifted exponentials. -/
theorem v8_apply (XW : Vec Ideal S1024x4096 .f32) (p : Fin 1024) (J : Fin 4096) :
    val_main_v8 (F := Ideal) XW (ix2 p J)
      = Ideal.div (Ideal.exp (XW (ix2 p J) - rowMax XW p))
          (Ideal.ofBits .f32 0x00000000#32 + ∑ J' : Fin 4096, Ideal.exp (XW (ix2 p J') - rowMax XW p)) := by
  rw [val_main_v8_apply, val_main_v7_apply, val_main_v6_apply, idx_sum, val_main_v5_apply, v4_apply]
  refine congrArg (fun s => Ideal.div (Ideal.exp (XW (ix2 p J) - rowMax XW p)) (Ideal.ofBits .f32 0x00000000#32 + s)) ?_
  exact Finset.sum_congr rfl fun J' _ => by rw [idx_col, v4_apply]

/-- Over a row of finite reals the row's maximum is a finite real. -/
theorem rowMax_real (XW : Vec Ideal S1024x4096 .f32) (hfin : ∀ i, ∃ r : ℝ, XW i = ((r : ℝ) : EReal)) (p : Fin 1024) :
    ∃ m : ℝ, rowMax XW p = (m : EReal) := by
  have hred : S1024x4096.Reduces [1] S1024 := by decide
  have hbot : val_main_cst (F := Ideal) (Shape.Idx.first h_S_) = ⊥ := by
    show Ideal.ofBits .f32 0xFF800000#32 = ⊥
    simp [Ideal.ofBits, Ideal.ieee]
  obtain ⟨m, hm⟩ := ValueLaw.fold_max_real (FloatOps.maximumf (F := Ideal) (φ := .f32)) (fun _ _ => rfl) Finset.univ
    ⟨(⟨0, by decide⟩ : Fin 4096), Finset.mem_univ _⟩ (XW ∘ hred.lift (ix1 p)) (fun k _ => hfin _)
  refine ⟨m, ?_⟩
  unfold rowMax val_main_v0
  refine (Host.reduce_eq_fold_single (FloatOps.maximumf (F := Ideal) (φ := .f32)) XW (val_main_cst (F := Ideal))
    reducesTo_S1024x4096_S1024_d1 hred h_S_ (ix1 p)).trans ?_
  rw [hbot]
  exact hm

end Cert.KernelIdeal.ValueRef

end
-- ==== Proof.ValueBlock.lean ====
/-
  Where a block's entry lies in the whole array, for a 1024×4096 array cut along its columns into four blocks of 1024
  columns: column q of block c is column 1024·c + q of the whole, and every column of the whole is one such.
-/
import Idealize.ShloMosaic.Lib.Layout
import Idealize.ShloMosaic.Lib.ValueIdx

namespace Cert.KernelIdeal.ValueBlock

open Idealize.ShloMosaic Idealize.ShloMosaic.ValueIdx

/-- Column q of block c, as a column of the whole array. -/
def col (c : Fin 4) (q : Fin 1024) : Fin 4096 := ⟨c.val * 1024 + q.val, by omega⟩

theorem col_val (c : Fin 4) (q : Fin 1024) : (col c q).val = c.val * 1024 + q.val := rfl

/-- Block c at (p, q) is the whole array at (p, 1024·c + q). -/
theorem block_apply {α : Type} (c : Fin 4) (XW : (⟨2, ![1024, 4096]⟩ : Shape).Idx → α)
    (h : Layout.Tiles ⟨2, ![1024, 1024]⟩ ⟨2, ![1024, 4096]⟩ 1 4) (p q : Fin 1024) :
    Layout.block ⟨2, ![1024, 1024]⟩ ⟨2, ![1024, 4096]⟩ 1 4 c XW h (ix2 p q) = XW (ix2 p (col c q)) :=
  congrArg XW (funext fun a => Fin.ext (by match a with | ⟨0, _⟩ => rfl | ⟨1, _⟩ => rfl))

/-- Every column of the whole array is a column of one of the four blocks: column J is column J mod 1024 of block
    J / 1024. -/
theorem exists_col (J : Fin 4096) : ∃ (c : Fin 4) (q : Fin 1024), col c q = J :=
  ⟨⟨J.val / 1024, by omega⟩, ⟨J.val % 1024, by omega⟩, Fin.ext (by
    show J.val / 1024 * 1024 + J.val % 1024 = J.val
    omega)⟩

end Cert.KernelIdeal.ValueBlock
-- ==== Proof.ValueFinite.lean ====
/-
  From the finiteness predicate to finite reals, for one 1024×1024 block at the ideal values.

  The predicate takes the absolute value of every entry, compares it with plus infinity and takes the conjunction of
  all the comparisons. Where it is one, every comparison is one: every entry's absolute value is below plus infinity,
  so the entry is neither infinity: it is a finite real.
-/
import proofs.«900394_g7700000000000395_dist_softmax_colshard_i_m1024_n1024_v7x_i4_f32_1_alg».proof.Pre_finite_inputs_Kernel
import proofs.«900394_g7700000000000395_dist_softmax_colshard_i_m1024_n1024_v7x_i4_f32_1_alg».proof.Proof.Gen.Pre_finite_inputs_Kernel
import Idealize.ShloMosaic.Lib.ReduceAll
import Idealize.ShloMosaic.Lib.IdealHost

noncomputable section

namespace Cert.KernelIdeal.ValueFinite

open Idealize.ShloMosaic Idealize.ShloMosaic.ValueIdx

/-- The scalar shape has one index. -/
instance : Subsingleton Cert.Pre_finite_inputs_Kernel.S_.Idx := ⟨fun a b => funext fun d => d.elim0⟩

/-- An extended real whose absolute value compares below the value of the plus-infinity word is a finite real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- A block on which the finiteness predicate is all ones holds only finite reals. -/
theorem block_finite (x : Vec Ideal Cert.Pre_finite_inputs_Kernel.S1024x1024 .f32)
    (h : Cert.Pre_finite_inputs_Kernel.fn (F := Ideal) x = fun _ => 1#1) (i : Cert.Pre_finite_inputs_Kernel.S1024x1024.Idx) :
    ∃ r : ℝ, x i = (r : EReal) := by
  have h0 := congrFun h ix0
  dsimp only [Cert.Pre_finite_inputs_Kernel.fn] at h0
  have hi := Host.reduce_andi_all _ _ _ _ _ h0 i
  exact real_of_abs_lt_inf (x i) hi

end Cert.KernelIdeal.ValueFinite

end
-- ==== Proof.Bridge.lean ====
/-
  The pure value part of the equivalence: one device's result block, as a function of the four devices' input blocks,
  is that device's block of the reference's result on the whole array; and the finiteness precondition, which speaks of
  each device's block, says every entry of the whole array is a finite real.

  With every entry a finite real both sides are, at row p and column J of the whole, exp x(p, J) over the sum over all
  4096 columns J' of exp x(p, J'): the reference shifts every exponent by the row's maximum, a finite real, which
  cancels; the kernel sums the row as four blocks of 1024 columns taken round a ring from the device's own block.
-/
import proofs.«900394_g7700000000000395_dist_softmax_colshard_i_m1024_n1024_v7x_i4_f32_1_alg».proof.Defs
import proofs.«900394_g7700000000000395_dist_softmax_colshard_i_m1024_n1024_v7x_i4_f32_1_alg».proof.Proof.Spec
import proofs.«900394_g7700000000000395_dist_softmax_colshard_i_m1024_n1024_v7x_i4_f32_1_alg».proof.Proof.Gen.KernelIdeal
import proofs.«900394_g7700000000000395_dist_softmax_colshard_i_m1024_n1024_v7x_i4_f32_1_alg».proof.Proof.Gen.Pre_finite_inputs_Kernel
import proofs.«900394_g7700000000000395_dist_softmax_colshard_i_m1024_n1024_v7x_i4_f32_1_alg».proof.Proof.Gen.ReferenceIdeal.Read
import proofs.«900394_g7700000000000395_dist_softmax_colshard_i_m1024_n1024_v7x_i4_f32_1_alg».proof.Proof.ValueLaw
import proofs.«900394_g7700000000000395_dist_softmax_colshard_i_m1024_n1024_v7x_i4_f32_1_alg».proof.Proof.ValueKernel
import proofs.«900394_g7700000000000395_dist_softmax_colshard_i_m1024_n1024_v7x_i4_f32_1_alg».proof.Proof.ValueRef
import proofs.«900394_g7700000000000395_dist_softmax_colshard_i_m1024_n1024_v7x_i4_f32_1_alg».proof.Proof.ValueBlock
import proofs.«900394_g7700000000000395_dist_softmax_colshard_i_m1024_n1024_v7x_i4_f32_1_alg».proof.Proof.ValueFinite

noncomputable section
namespace Cert.KernelIdeal.Bridge
open Idealize.ShloMosaic Idealize.SL.Sem

/-- Block `c` (columns 1024c … 1024c+1023) of a whole 1024×4096 array. -/
abbrev blk (c : Dev Cert.KernelIdeal.nD) (XW : Vec Ideal ⟨2, ![1024, 4096]⟩ .f32) : Vec Ideal ⟨2, ![1024, 1024]⟩ .f32 :=
  Layout.block ⟨2, ![1024, 1024]⟩ ⟨2, ![1024, 4096]⟩ 1 4 c XW

open Idealize.ShloMosaic.ValueIdx in
theorem result_eq (XW : Vec Ideal ⟨2, ![1024, 4096]⟩ .f32) (hfin : ∀ i, ∃ r : ℝ, XW i = ((r : ℝ) : EReal))
    (c : Dev Cert.KernelIdeal.nD) :
    Cert.KernelIdeal.Spec.result (F := Ideal) (fun d => blk d XW) c
      = blk c (Cert.ReferenceIdeal.Read.val_main_v8 (F := Ideal) XW) := by
  funext i
  obtain ⟨p, q, rfl⟩ : ∃ (p q : Fin 1024), i = ix2 p q := ⟨i 0, i 1, eq_ix2 i⟩
  obtain ⟨m, hm⟩ := ValueRef.rowMax_real XW hfin p
  choose R hR using hfin
  -- the device's own entry, and every block's entries, as entries of the whole array
  have hown : blk c XW (ix2 p q) = ((R (ix2 p (ValueBlock.col c q)) : ℝ) : EReal) :=
    (ValueBlock.block_apply c XW _ p q).trans (hR _)
  have hsh : ∀ k : Fin 4, Spec.sh c k = c + k := fun k => Fin.ext (by rw [Fin.val_add]; rfl)
  -- the four partial sums, taken round the ring, are the sum over the whole row
  have hsum : ∑ k : Fin 4, ∑ j : Fin 1024, (1 : EReal) * Ideal.exp (blk (Spec.sh c k) XW (ix2 p j))
      = ∑ J : Fin 4096, (1 : EReal) * Ideal.exp ((R (ix2 p J) : ℝ) : EReal) := by
    simp only [hsh]
    refine ValueLaw.sum_ring_blocks (fun d j => (1 : EReal) * Ideal.exp (blk d XW (ix2 p j)))
      (fun J => (1 : EReal) * Ideal.exp ((R (ix2 p J) : ℝ) : EReal)) (fun d j J hJ => ?_) c
    have hcol : ValueBlock.col d j = J := Fin.ext hJ.symm
    show (1 : EReal) * Ideal.exp (blk d XW (ix2 p j)) = _
    rw [show blk d XW (ix2 p j) = XW (ix2 p (ValueBlock.col d j)) from ValueBlock.block_apply d XW _ p j, hcol, hR]
  rw [ValueKernel.result_apply]
  show _ = Layout.block ⟨2, ![1024, 1024]⟩ ⟨2, ![1024, 4096]⟩ 1 4 c (Cert.ReferenceIdeal.Read.val_main_v8 (F := Ideal) XW) _ (ix2 p q)
  rw [ValueBlock.block_apply, ValueRef.v8_apply, hm, Ideal.ofBits_one_f32, Ideal.ofBits_zero_f32]
  show Ideal.exp (blk c XW (ix2 p q)) * Ideal.div 1 (∑ k : Fin 4, ∑ j : Fin 1024, (1 : EReal) * Ideal.exp (blk (Spec.sh c k) XW (ix2 p j))) = _
  rw [hsum, hown]
  simp only [hR]
  exact ValueLaw.softmax_shift (fun J => R (ix2 p J)) m (ValueBlock.col c q)

open Idealize.ShloMosaic.ValueIdx in
theorem finite_of_pre (m : (ℓ : Loc Cert.KernelIdeal.nD Cert.KernelIdeal.τ Cert.KernelIdeal.sig) → Buf (Elt Ideal) ℓ)
    (hpre : Cert.Pre_KernelIdeal (hPre_finite_inputs_Kernel := Cert.Pre_finite_inputs_Kernel.Gen.facts) m)
    (XW : Vec Ideal ⟨2, ![1024, 4096]⟩ .f32)
    (hblk : ∀ c : Dev Cert.KernelIdeal.nD,
      m ((c.tc : Thread Cert.KernelIdeal.nD Cert.KernelIdeal.τ).loc Cert.KernelIdeal.main_arg0) = blk c XW) :
    ∀ i, ∃ r : ℝ, XW i = ((r : ℝ) : EReal) := by
  intro i
  obtain ⟨p, J, rfl⟩ : ∃ (p : Fin 1024) (J : Fin 4096), i = ix2 p J := ⟨i 0, i 1, eq_ix2 i⟩
  obtain ⟨c, q, rfl⟩ := ValueBlock.exists_col J
  have hc := hpre c
  rw [hblk c] at hc
  obtain ⟨r, hr⟩ := ValueFinite.block_finite (blk c XW) hc (ix2 p q)
  exact ⟨r, (ValueBlock.block_apply c XW _ p q).symm.trans hr⟩

end Cert.KernelIdeal.Bridge
end
-- ==== Proof.Assembly.lean ====
/-
  The certificate's five claims, each from the two body lemmas (one per printed program).

  The three frames: each program runs and its argument arrays end unchanged — for the kernel's two printings from the
  mesh's run with its strong post, the values dropped; for the reference from its generated run. The idealization rewrote
  nothing. The algebraic claim: with every device's argument buffer its block of the reference's whole array, and the
  finiteness precondition on every block, each device's result buffer ends at its block of the reference's result: the
  mesh's run gives the device's result as a function of the four blocks, which is that block of the reference's value
  over finite reals.
-/
import proofs.«900394_g7700000000000395_dist_softmax_colshard_i_m1024_n1024_v7x_i4_f32_1_alg».proof.Defs
import proofs.«900394_g7700000000000395_dist_softmax_colshard_i_m1024_n1024_v7x_i4_f32_1_alg».proof.Proof.Gen.Kernel
import proofs.«900394_g7700000000000395_dist_softmax_colshard_i_m1024_n1024_v7x_i4_f32_1_alg».proof.Proof.Gen.KernelIdeal
import proofs.«900394_g7700000000000395_dist_softmax_colshard_i_m1024_n1024_v7x_i4_f32_1_alg».proof.Proof.Gen.ReferenceIdeal
import proofs.«900394_g7700000000000395_dist_softmax_colshard_i_m1024_n1024_v7x_i4_f32_1_alg».proof.Proof.Gen.ReferenceIdeal.Run
import proofs.«900394_g7700000000000395_dist_softmax_colshard_i_m1024_n1024_v7x_i4_f32_1_alg».proof.Proof.Gen.ReferenceIdeal.Read
import proofs.«900394_g7700000000000395_dist_softmax_colshard_i_m1024_n1024_v7x_i4_f32_1_alg».proof.Proof.Gen.Pre_finite_inputs_Kernel
import proofs.«900394_g7700000000000395_dist_softmax_colshard_i_m1024_n1024_v7x_i4_f32_1_alg».proof.Proof.Gen.Pre_finite_inputs_ReferenceIdeal
import proofs.«900394_g7700000000000395_dist_softmax_colshard_i_m1024_n1024_v7x_i4_f32_1_alg».proof.Proof.KernelRun
import proofs.«900394_g7700000000000395_dist_softmax_colshard_i_m1024_n1024_v7x_i4_f32_1_alg».proof.Proof.KernelIdealRun
import proofs.«900394_g7700000000000395_dist_softmax_colshard_i_m1024_n1024_v7x_i4_f32_1_alg».proof.Proof.Bridge

noncomputable section

namespace Cert.Proof.Parts

open Idealize.ShloMosaic Idealize.SL.Sem

/-- The word-level kernel runs and its argument arrays end unchanged. -/
theorem frame_p (hk : ∀ m, Cert.Kernel.BodyDefs.SoundBody (F := Bits) m) : Cert.frame_Kernel :=
  fun m ρ _ => (θ_run (Cert.Kernel.defs (F := Bits)) _ _).mono (fun _ h c => (h c).2) (Cert.Kernel.Run.run (F := Bits) m ρ (hk m))

/-- The idealized kernel runs and its argument arrays end unchanged. -/
theorem frame_pi (hi : ∀ m, Cert.KernelIdeal.BodyDefs.SoundBody (F := Ideal) m) : Cert.frame_KernelIdeal :=
  fun m ρ _ => (θ_run (Cert.KernelIdeal.defs (F := Ideal)) _ _).mono (fun _ h c => (h c).2) (Cert.KernelIdeal.Run.run (F := Ideal) m ρ (hi m))

/-- The reference runs and its argument array ends unchanged. -/
theorem frame_ri : Cert.frame_ReferenceIdeal :=
  fun m ρ _ => (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- Each device's result buffer ends at its block of the reference's result. -/
theorem algebraic (hi : ∀ m, Cert.KernelIdeal.BodyDefs.SoundBody (F := Ideal) m) : Cert.algebraic_KernelIdeal_ReferenceIdeal := by
  intro m ρ m' ρ' hpre hagree
  refine ⟨Cert.ReferenceIdeal.Read.val_main_v8 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.Run.run (F := Ideal) m ρ (hi m))
    have hX : (fun d : Dev Cert.KernelIdeal.nD => m ((d.tc : Thread Cert.KernelIdeal.nD Cert.KernelIdeal.τ).loc Cert.KernelIdeal.main_arg0))
        = fun d => Cert.KernelIdeal.Bridge.blk d
            (m' (((0 : Dev Cert.ReferenceIdeal.nD).tc : Thread Cert.ReferenceIdeal.nD Cert.ReferenceIdeal.τ).loc Cert.ReferenceIdeal.main_arg0)) :=
      funext hagree
    rw [hX]
    exact Cert.KernelIdeal.Bridge.result_eq _ (Cert.KernelIdeal.Bridge.finite_of_pre m hpre _ hagree) c
  · exact (θ_run (Cert.ReferenceIdeal.defs (F := Ideal)) _ _).mono
      (fun _ h => ⟨(h 0).1.trans (Cert.ReferenceIdeal.Read.val_main_v8_eq _), (h 0).2⟩)
      (Cert.ReferenceIdeal.Value.run (F := Ideal) m' ρ')

/-- Everything the certificate claims, from the two body lemmas. -/
theorem claim_of (hk : ∀ m, Cert.Kernel.BodyDefs.SoundBody (F := Bits) m)
    (hi : ∀ m, Cert.KernelIdeal.BodyDefs.SoundBody (F := Ideal) m) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p hk, frame_pi hi, frame_ri, preserves, algebraic hi⟩

end Cert.Proof.Parts

end
-- ==== Proof.KernelRows.lean ====
/-
  Rows of the statistics buffer. Row `k` is the 1×1×1024 slice at offset (k, 0, 0); the copies name it through that slice
  with its leading axis squeezed away, a re-indexing that does not change which elements it covers. Read through the slice,
  row `k` of the final contents of device `c`'s buffer is the partial row sums of the device `k` places on; so what device
  `c` stores in its row 0 is its own row of the final contents, and what its copy writes into row `4 - r` of the device `r`
  places on is that device's row `4 - r` of ITS final contents: going `r` places on and `4 - r` more is once round the mesh.
-/
import proofs.«900394_g7700000000000395_dist_softmax_colshard_i_m1024_n1024_v7x_i4_f32_1_alg».proof.Proof.Gen.Kernel
import proofs.«900394_g7700000000000395_dist_softmax_colshard_i_m1024_n1024_v7x_i4_f32_1_alg».proof.Proof.Gen.Kernel.Skeleton
import proofs.«900394_g7700000000000395_dist_softmax_colshard_i_m1024_n1024_v7x_i4_f32_1_alg».proof.Proof.Gen.Kernel.Launch
import proofs.«900394_g7700000000000395_dist_softmax_colshard_i_m1024_n1024_v7x_i4_f32_1_alg».proof.Proof.Gen.Kernel.Points
import proofs.«900394_g7700000000000395_dist_softmax_colshard_i_m1024_n1024_v7x_i4_f32_1_alg».proof.Proof.Gen.Kernel.Frame
import proofs.«900394_g7700000000000395_dist_softmax_colshard_i_m1024_n1024_v7x_i4_f32_1_alg».proof.Proof.KernelSpec
import proofs.«900394_g7700000000000395_dist_softmax_colshard_i_m1024_n1024_v7x_i4_f32_1_alg».proof.Proof.KernelProto
import Idealize.ShloMosaic.Lib.Pipeline.Value
import Idealize.ShloMosaic.Lib.Pipeline.Launch
import Idealize.ShloMosaic.Lib.Pipeline.Kit
import Idealize.ShloMosaic.Lib.Tactic

noncomputable section

namespace Cert.Kernel.Rows

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Proto

variable (m : (ℓ : Loc nD τ sig) → Buf (Elt F) ℓ)

/-- Read through row `k`'s slice, the final contents are the partial sums of the device `k` places on. -/
theorem gath_row (c : Dev nD) (k : Fin 4) (y : S1x1x1024.Idx) :
    gath m c ((rowR k).emb y) = k0_pay2 (xstg m (sh c k)) y := by
  have h0 : (y 0).val = 0 := Nat.lt_one_iff.mp (y 0).isLt
  have h1 : (y 1).val = 0 := Nat.lt_one_iff.mp (y 1).isLt
  unfold gath Spec.gathered
  fin_cases k
  all_goals
    refine congr (congrArg _ (congrArg _ (congrArg _ (Fin.ext ?_)))) (funext fun a => Fin.ext ?_)
    · show _ + 1 * (y 0).val = _; rw [h0]; rfl
    · match a with
      | ⟨0, _⟩ => exact h0.symm
      | ⟨1, _⟩ => exact h1.symm
      | ⟨2, _⟩ => show 0 + 1 * (y 2).val = (y 2).val; omega

/-- What a copy out of row 0 of device `c` writes into row `4 - r` of the device `r` places on is that device's row of its
    own final contents. -/
theorem landed_eq (c : Dev nD) (r : Fin 4) (fd : Buf (Elt F) ((slotM (-r)).view.loc ((sh c r : Dev nD) : Thread nD τ))) :
    ∀ i ∈ (slotM (-r)).view.set,
      (slotM (-r)).view.write (Elt F) fd ((slotM 0).view.read (Elt F) (gath m c)) Finset.univ i = gath m (sh c r) i := by
  intro i hi
  obtain ⟨y, rfl⟩ := View.exists_emb_of_mem_set _ hi
  rw [View.write_emb_of_mem _ _ (Finset.mem_univ y), View.read_apply]
  simp only [cast_eq]
  show gath m c ((rowR 0).emb _) = gath m (sh c r) ((rowR (-r)).emb _)
  rw [gath_row, gath_row, sh_zero, sh_sh_neg]

/-! ## Which elements a row covers -/

theorem row_set (k : Fin 4) : (slotM k).view.set = (rowR k).set := by
  show ((sM.slice (rowR k) (fun _ => rfl)).squeeze S1x1024 squeezes_S1x1x1024_S1x1024).view.set = _
  rw [Memref.set_view_squeeze]
  exact View.set_slice_whole cc0_scratch0 (rowR k)

/-- An element is in row `k` exactly when its leading coordinate is `k`. -/
theorem mem_row (k : Fin 4) (i : S4x1x1024.Idx) : i ∈ (rowR k).set ↔ (i 0).val = k.val := by
  rw [Rect.mem_set_unit]
  constructor
  · intro h
    have h0 := h 0
    have e1 : (![k.val, 0, 0] : Fin 3 → Nat) 0 = k.val := rfl
    have e2 : S1x1x1024.size (0 : Fin 3) = 1 := rfl
    rw [e1, e2] at h0
    omega
  · intro h a
    match a with
    | ⟨0, _⟩ =>
      show k.val ≤ (i 0).val ∧ (i 0).val < k.val + 1
      omega
    | ⟨1, _⟩ =>
      have := (i 1).isLt
      exact ⟨Nat.zero_le _, by show (i 1).val < 0 + 1; have e : S4x1x1024.size (1 : Fin 3) = 1 := rfl; omega⟩
    | ⟨2, _⟩ =>
      have := (i 2).isLt
      exact ⟨Nat.zero_le _, by show (i 2).val < 0 + 1024; have e : S4x1x1024.size (2 : Fin 3) = 1024 := rfl; omega⟩

theorem rows_disjoint (j k : Fin 4) (h : j ≠ k) : Disjoint (rowR j).set (rowR k).set :=
  Finset.disjoint_left.mpr fun i hj hk => h (Fin.ext (((mem_row j i).mp hj).symm.trans ((mem_row k i).mp hk)))

theorem rows_cover : (Finset.univ : Finset (Fin 4)).biUnion (fun k => (rowR k).set) = (Finset.univ : Finset S4x1x1024.Idx) :=
  Finset.eq_univ_of_forall fun i => Finset.mem_biUnion.mpr ⟨⟨(i 0).val, (i 0).isLt⟩, Finset.mem_univ _, (mem_row _ i).mpr rfl⟩

end Cert.Kernel.Rows

end
-- ==== Proof.KernelBody.lean ====
/-
  One device's body, stepped from the protocol's ghost state: the three signals (each handing the peer the row it will
  write), the exponentials and their row sums stored, the barrier wait (the three peers' rows come with it), the three copies
  of row 0 (each under its own share of the row, one share kept), the three receive waits (rows 1 … 3 come back at their
  final contents), the four rows read as one buffer, the result stored, and the three send waits (the shares of row 0 come
  back); the six own cells are then closed.
-/
import proofs.«900394_g7700000000000395_dist_softmax_colshard_i_m1024_n1024_v7x_i4_f32_1_alg».proof.Proof.Gen.Kernel
import proofs.«900394_g7700000000000395_dist_softmax_colshard_i_m1024_n1024_v7x_i4_f32_1_alg».proof.Proof.Gen.Kernel.Skeleton
import proofs.«900394_g7700000000000395_dist_softmax_colshard_i_m1024_n1024_v7x_i4_f32_1_alg».proof.Proof.Gen.Kernel.Launch
import proofs.«900394_g7700000000000395_dist_softmax_colshard_i_m1024_n1024_v7x_i4_f32_1_alg».proof.Proof.Gen.Kernel.Points
import proofs.«900394_g7700000000000395_dist_softmax_colshard_i_m1024_n1024_v7x_i4_f32_1_alg».proof.Proof.Gen.Kernel.Frame
import proofs.«900394_g7700000000000395_dist_softmax_colshard_i_m1024_n1024_v7x_i4_f32_1_alg».proof.Proof.KernelSpec
import proofs.«900394_g7700000000000395_dist_softmax_colshard_i_m1024_n1024_v7x_i4_f32_1_alg».proof.Proof.KernelProto
import proofs.«900394_g7700000000000395_dist_softmax_colshard_i_m1024_n1024_v7x_i4_f32_1_alg».proof.Proof.KernelRows
import proofs.«900394_g7700000000000395_dist_softmax_colshard_i_m1024_n1024_v7x_i4_f32_1_alg».proof.Proof.KernelBodyDefs
import Idealize.ShloMosaic.Lib.Pipeline.Value
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Proto Cert.Kernel.Rows Cert.Kernel.BodyDefs
open Idealize.ShloMosaic.Tactic

local notation "𝕄" => MT nD τ sig Unit (Elt F) ℕ UU ℕ

variable (m : (ℓ : Loc nD τ sig) → Buf (Elt F) ℓ)

/-! ## The tables at the literal cells -/

theorem duties_send1 (c : Dev nD) : (sched (F := F) m).duties (sendCell c 1) 0 = {0} := duties_send m c 1 (by decide)
theorem duties_recv1 (c : Dev nD) : (sched (F := F) m).duties (recvCell c 1) 0 = {0} := duties_recv m c 1 (by decide)
theorem expect_send1 (c : Dev nD) : (sched (F := F) m).expect (sendCell c 1) 0 = N := expect_send m c 1 (by decide)
theorem expect_recv1 (c : Dev nD) : (sched (F := F) m).expect (recvCell c 1) 0 = N := expect_recv m c 1 (by decide)
theorem payload_send1 (c : Dev nD) (d : Fin 4) : (sched (F := F) m).payload (sendCell c 1) 0 d = sendPay m c 1 := payload_send m c 1 (by decide) d
theorem payload_recv1 (c : Dev nD) (d : Fin 4) : (sched (F := F) m).payload (recvCell c 1) 0 d = recvPay m c 1 := payload_recv m c 1 (by decide) d
theorem rest_send1 (c : Dev nD) : bigSep ((sched (F := F) m).duties (sendCell c 1) 0 \ ∅) (fun d => (sched (F := F) m).payload (sendCell c 1) 0 d) = sendPay m c 1 := rest_send m c 1 (by decide)
theorem rest_recv1 (c : Dev nD) : bigSep ((sched (F := F) m).duties (recvCell c 1) 0 \ ∅) (fun d => (sched (F := F) m).payload (recvCell c 1) 0 d) = recvPay m c 1 := rest_recv m c 1 (by decide)
theorem inv_send1 (K : Dev nD × Fin 7 → ℕ) (d : Dev nD) : records m K ⊢ cellInv ER (sched m) (K (d, 1)) (sendCell d 1) := inv_at m K (d, 1)
theorem inv_recv1 (K : Dev nD × Fin 7 → ℕ) (d : Dev nD) : records m K ⊢ cellInv ER (sched m) (K (d, 4)) (recvCell d 1) := inv_at m K (d, 4)
theorem reached_send1 (K : Dev nD × Fin 7 → ℕ) (d : Dev nD) : records m K ⊢ (reached ER (sendCell d 1) 0 : sProp 𝕄) := reached_at m K (d, 1)
theorem reached_recv1 (K : Dev nD × Fin 7 → ℕ) (d : Dev nD) : records m K ⊢ (reached ER (recvCell d 1) 0 : sProp 𝕄) := reached_at m K (d, 4)
theorem duties_send2 (c : Dev nD) : (sched (F := F) m).duties (sendCell c 2) 0 = {0} := duties_send m c 2 (by decide)
theorem duties_recv2 (c : Dev nD) : (sched (F := F) m).duties (recvCell c 2) 0 = {0} := duties_recv m c 2 (by decide)
theorem expect_send2 (c : Dev nD) : (sched (F := F) m).expect (sendCell c 2) 0 = N := expect_send m c 2 (by decide)
theorem expect_recv2 (c : Dev nD) : (sched (F := F) m).expect (recvCell c 2) 0 = N := expect_recv m c 2 (by decide)
theorem payload_send2 (c : Dev nD) (d : Fin 4) : (sched (F := F) m).payload (sendCell c 2) 0 d = sendPay m c 2 := payload_send m c 2 (by decide) d
theorem payload_recv2 (c : Dev nD) (d : Fin 4) : (sched (F := F) m).payload (recvCell c 2) 0 d = recvPay m c 2 := payload_recv m c 2 (by decide) d
theorem rest_send2 (c : Dev nD) : bigSep ((sched (F := F) m).duties (sendCell c 2) 0 \ ∅) (fun d => (sched (F := F) m).payload (sendCell c 2) 0 d) = sendPay m c 2 := rest_send m c 2 (by decide)
theorem rest_recv2 (c : Dev nD) : bigSep ((sched (F := F) m).duties (recvCell c 2) 0 \ ∅) (fun d => (sched (F := F) m).payload (recvCell c 2) 0 d) = recvPay m c 2 := rest_recv m c 2 (by decide)
theorem inv_send2 (K : Dev nD × Fin 7 → ℕ) (d : Dev nD) : records m K ⊢ cellInv ER (sched m) (K (d, 2)) (sendCell d 2) := inv_at m K (d, 2)
theorem inv_recv2 (K : Dev nD × Fin 7 → ℕ) (d : Dev nD) : records m K ⊢ cellInv ER (sched m) (K (d, 5)) (recvCell d 2) := inv_at m K (d, 5)
theorem reached_send2 (K : Dev nD × Fin 7 → ℕ) (d : Dev nD) : records m K ⊢ (reached ER (sendCell d 2) 0 : sProp 𝕄) := reached_at m K (d, 2)
theorem reached_recv2 (K : Dev nD × Fin 7 → ℕ) (d : Dev nD) : records m K ⊢ (reached ER (recvCell d 2) 0 : sProp 𝕄) := reached_at m K (d, 5)
theorem duties_send3 (c : Dev nD) : (sched (F := F) m).duties (sendCell c 3) 0 = {0} := duties_send m c 3 (by decide)
theorem duties_recv3 (c : Dev nD) : (sched (F := F) m).duties (recvCell c 3) 0 = {0} := duties_recv m c 3 (by decide)
theorem expect_send3 (c : Dev nD) : (sched (F := F) m).expect (sendCell c 3) 0 = N := expect_send m c 3 (by decide)
theorem expect_recv3 (c : Dev nD) : (sched (F := F) m).expect (recvCell c 3) 0 = N := expect_recv m c 3 (by decide)
theorem payload_send3 (c : Dev nD) (d : Fin 4) : (sched (F := F) m).payload (sendCell c 3) 0 d = sendPay m c 3 := payload_send m c 3 (by decide) d
theorem payload_recv3 (c : Dev nD) (d : Fin 4) : (sched (F := F) m).payload (recvCell c 3) 0 d = recvPay m c 3 := payload_recv m c 3 (by decide) d
theorem rest_send3 (c : Dev nD) : bigSep ((sched (F := F) m).duties (sendCell c 3) 0 \ ∅) (fun d => (sched (F := F) m).payload (sendCell c 3) 0 d) = sendPay m c 3 := rest_send m c 3 (by decide)
theorem rest_recv3 (c : Dev nD) : bigSep ((sched (F := F) m).duties (recvCell c 3) 0 \ ∅) (fun d => (sched (F := F) m).payload (recvCell c 3) 0 d) = recvPay m c 3 := rest_recv m c 3 (by decide)
theorem inv_send3 (K : Dev nD × Fin 7 → ℕ) (d : Dev nD) : records m K ⊢ cellInv ER (sched m) (K (d, 3)) (sendCell d 3) := inv_at m K (d, 3)
theorem inv_recv3 (K : Dev nD × Fin 7 → ℕ) (d : Dev nD) : records m K ⊢ cellInv ER (sched m) (K (d, 6)) (recvCell d 3) := inv_at m K (d, 6)
theorem reached_send3 (K : Dev nD × Fin 7 → ℕ) (d : Dev nD) : records m K ⊢ (reached ER (sendCell d 3) 0 : sProp 𝕄) := reached_at m K (d, 3)
theorem reached_recv3 (K : Dev nD × Fin 7 → ℕ) (d : Dev nD) : records m K ⊢ (reached ER (recvCell d 3) 0 : sProp 𝕄) := reached_at m K (d, 6)

theorem inv_bar (K : Dev nD × Fin 7 → ℕ) (d : Dev nD) : records m K ⊢ cellInv ER (sched m) (K (d, 0)) (barCell d) := inv_at m K (d, 0)
theorem reached_bar (K : Dev nD × Fin 7 → ℕ) (d : Dev nD) : records m K ⊢ (reached ER (barCell d) 0 : sProp 𝕄) := reached_at m K (d, 0)

theorem fetch_0 (t : Fin cfg0.N) : (cfg0.win (0 : Fin 2)).fetch t = true := by rw [fin_N t]; rfl

/-! ## The buffer as its rows -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The whole statistics buffer at share `q` and contents `f` is its four rows at that share and those contents. -/
theorem rows_eq (c : Dev nD) (q : PosShare TreeShare) (f : Buf (Elt F) ((c : Thread nD τ).loc cc0_scratch0)) :
    ((((c : Thread nD τ).loc cc0_scratch0) ↦{q} f) : sProp 𝕄) = iprop(rowPts c 0 q f ∗ rowPts c 1 q f ∗ rowPts c 2 q f ∗ rowPts c 3 q f) := by
  have h := pointsTo_biUnion (ℓ := (c : Thread nD τ).loc cc0_scratch0) (q := q) (f := f) (Val := Elt F) (Ix := Unit) (Name := ℕ) (U := UU) (Lvl := ℕ)
    (Finset.univ : Finset (Fin 4)) (fun k => (rowR k).set) (fun j _ k _ hjk => rows_disjoint j k hjk)
  rw [rows_cover, bigSep_fin4] at h
  rw [h]
  unfold rowPts
  rw [row_set, row_set, row_set, row_set]

/-- The barrier duty device `c` pays to the device `r` places on hands over row `r` of `c`'s own buffer. -/
theorem payload_peer1 (c : Dev nD) : (sched (F := F) m).payload (barCell (sh c 1)) 0 1
    = iprop(∃ f, (slotM 1).view.loc (c : Thread nD τ) ↦[(slotM 1).view.set]{fullShare} f) := by
  rw [payload_bar]; unfold barPay rowPts; rw [sh_sh_neg]
theorem payload_peer2 (c : Dev nD) : (sched (F := F) m).payload (barCell (sh c 2)) 0 2
    = iprop(∃ f, (slotM 2).view.loc (c : Thread nD τ) ↦[(slotM 2).view.set]{fullShare} f) := by
  rw [payload_bar]; unfold barPay rowPts; rw [sh_sh_neg]
theorem payload_peer3 (c : Dev nD) : (sched (F := F) m).payload (barCell (sh c 3)) 0 3
    = iprop(∃ f, (slotM 3).view.loc (c : Thread nD τ) ↦[(slotM 3).view.set]{fullShare} f) := by
  rw [payload_bar]; unfold barPay rowPts; rw [sh_sh_neg]

/-! ## Small facts about the whole-buffer accesses -/

theorem hz2 : (![0, 0] : Fin 2 → Nat) = fun _ => 0 := funext fun a => by fin_cases a <;> rfl
theorem hz3 : (![0, 0, 0] : Fin 3 → Nat) = fun _ => 0 := funext fun a => by fin_cases a <;> rfl

abbrev r2 : Rect S1024x1024 := Rect.unit (s := S1024x1024) ![0, 0] S1024x1024.size inb_S1024x1024_S1024x1024_0_0
abbrev r3 : Rect S4x1x1024 := Rect.unit (s := S4x1x1024) ![0, 0, 0] S4x1x1024.size inb_S4x1x1024_S4x1x1024_0_0_0

theorem read_x (f : (cc0_stg0_0 : Ref sig .tc).ty.Contents (Elt F)) : (xM : Memref sig .tc .vmem S1024x1024 .f32).view.readAt (Elt F) r2.toLoadRect f = f :=
  Memref.readAt_unit_zero (Elt F) cc0_stg0_0 hz2 _ f
theorem read_o (f : (cc0_stg1_0 : Ref sig .tc).ty.Contents (Elt F)) : (oM : Memref sig .tc .vmem S1024x1024 .f32).view.readAt (Elt F) r2.toLoadRect f = f :=
  Memref.readAt_unit_zero (Elt F) cc0_stg1_0 hz2 _ f
theorem write_o (f w : (cc0_stg1_0 : Ref sig .tc).ty.Contents (Elt F)) :
    ((oM : Memref sig .tc .vmem S1024x1024 .f32).access r2 : View sig .tc _ _ _).write (Elt F) f w Finset.univ = w :=
  Memref.write_access_unit_zero_univ (Elt F) cc0_stg1_0 hz2 _ f w
theorem read_s (f : (cc0_scratch0 : Ref sig .tc).ty.Contents (Elt F)) : (sM : Memref sig .tc .vmem S4x1x1024 .f32).view.readAt (Elt F) r3.toLoadRect f = f :=
  Memref.readAt_unit_zero (Elt F) cc0_scratch0 hz3 _ f

/-- What device `c` stores in its row 0 is its row 0 of the final contents. -/
theorem stored_eq (c : Dev nD) (f0 : (cc0_scratch0 : Ref sig .tc).ty.Contents (Elt F)) :
    ∀ i ∈ (rowR 0).set, ((sM : Memref sig .tc .vmem S4x1x1024 .f32).access (rowR 0) : View sig .tc _ _ _).write (Elt F) f0 (k0_pay2 (xstg m c)) Finset.univ i = gath m c i := by
  intro i hi
  have hi' : i ∈ ((sM : Memref sig .tc .vmem S4x1x1024 .f32).access (rowR 0) : View sig .tc _ _ _).set := by
    rw [show ((sM : Memref sig .tc .vmem S4x1x1024 .f32).access (rowR 0) : View sig .tc _ _ _).set = (rowR 0).set from View.set_slice_whole cc0_scratch0 (rowR 0)]; exact hi
  obtain ⟨y, rfl⟩ := View.exists_emb_of_mem_set _ hi'
  rw [View.write_emb_of_mem _ _ (Finset.mem_univ y)]
  simp only [cast_eq]
  show _ = gath m c ((rowR 0).emb y)
  rw [gath_row, sh_zero]

/-- A row's elements, named by its rectangle or through the view the copies use: the same points-to. -/
theorem row_of_set (c : Dev nD) (k : Fin 4) (q : PosShare TreeShare) (f : Buf (Elt F) ((slotM k).view.loc (c : Thread nD τ))) :
    (((slotM k).view.loc (c : Thread nD τ)) ↦[(rowR k).set]{q} f : sProp 𝕄) = rowPts c k q f := by
  unfold rowPts; rw [row_set]

/-! ## Shares of a row -/

theorem row_halves (c : Dev nD) (k : Fin 4) (q : PosShare TreeShare) (f : Buf (Elt F) ((slotM k).view.loc (c : Thread nD τ))) :
    (rowPts c k q f : sProp 𝕄) ⊣⊢ iprop(rowPts c k q.left f ∗ rowPts c k q.right f) :=
  pointsTo_share (PosShare.mem_left_op_right q)

/-- Row 0 whole is the share kept and the three copies' shares. -/
theorem row0_shares (c : Dev nD) (f : Buf (Elt F) ((slotM 0).view.loc (c : Thread nD τ))) :
    (rowPts c 0 fullShare f : sProp 𝕄) ⊣⊢ iprop(rowPts c 0 (qS 0) f ∗ rowPts c 0 (qS 1) f ∗ rowPts c 0 (qS 2) f ∗ rowPts c 0 (qS 3) f) := by
  constructor
  · iintro H
    ihave H1 := (row_halves c 0 fullShare f).1 $$ H
    icases H1 with ⟨Ha, Hb⟩
    ihave H2 := (row_halves c 0 fullShare.right f).1 $$ Hb
    icases H2 with ⟨Hb, Hc⟩
    ihave H3 := (row_halves c 0 fullShare.right.right f).1 $$ Hc
    icases H3 with ⟨Hc, Hd⟩
    isplitl [Ha]; · iexact Ha
    isplitl [Hb]; · iexact Hb
    isplitl [Hc]; · iexact Hc
    iexact Hd
  · iintro ⟨Ha, Hb, Hc, Hd⟩
    iapply (row_halves c 0 fullShare f).2
    isplitl [Ha]; · iexact Ha
    iapply (row_halves c 0 fullShare.right f).2
    isplitl [Hb]; · iexact Hb
    iapply (row_halves c 0 fullShare.right.right f).2
    isplitl [Hc]; · iexact Hc
    iexact Hd

theorem neg_ne_zero4 : ∀ r : Fin 4, r ≠ 0 → -r ≠ 0 := by decide

/-! ## One copy: row 0 of `c`, under the copy's share, into row `k = 4 - r` of the device `r` places on -/

theorem wp_send_row (c n : Dev nD) (r k : Fin 4) (hr : r ≠ 0) (hk : k = -r) (hn : n = sh c r) {κ₁ κ₂ : ℕ}
    {hsc : (slotM k : Memref sig (Dev.tc n : Thread nD τ).2.kind .vmem S1x1024 .f32).view.ref.isScScratch = false}
    {hsrc : (slotM 0 : Memref sig .tc .vmem S1x1024 .f32).view.WordExact} {hdst : (slotM k : Memref sig .tc .vmem S1x1024 .f32).view.WordExact}
    {hsem : DmaTarget.Typed .vmem (.dma (recvS k)) (.remote (Dev.tc n : Thread nD τ) (slotM k : Memref sig .tc .vmem S1x1024 .f32) (.dma (sendS r)) hsc)}
    {α : Type} {Q : α → sProp 𝕄} {kk : PUnit → Prog (TpuEff nD τ sig (Elt F) Λ₀ .tc) α}
    (fn : Buf (Elt F) ((slotM k).view.loc ((sh c r : Dev nD) : Thread nD τ))) (O₁ O : CellTallies nD τ sig Unit)
    (hO : O₁ = O + tallyAt (recvCell (sh c r) k) () N) (W : Waits sig Unit) :
    iprop(cellInv ER (sched m) κ₁ (sendCell c r) ∗ cellInv ER (sched m) κ₂ (recvCell (sh c r) k)
        ∗ rowPts c 0 (qS r) (gath m c) ∗ rowPts (sh c r) k fullShare fn
        ∗ owes (c : Thread nD τ) O₁ W
        ∗ dutyTok ER (sendCell c r) 0 0 ∗ reached ER (sendCell c r) 0
        ∗ dutyTok ER (recvCell (sh c r) k) 0 0 ∗ reached ER (recvCell (sh c r) k) 0)
      ⊢ iprop(((cred (tallyAt (sendCell c r) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM k) (.dma (sendS r)) hsc) (.dma (recvS k)) hsrc hdst hsem) kk) Q) := by
  subst hn; subst hk
  have hnr : (-r : Fin 4) ≠ 0 := neg_ne_zero4 r hr
  unfold rowPts
  exact Rounds.wp_send_pointsTo 𝒱₀ ER (sched m) (c : Thread nD τ) none (κ₁ := κ₁) (κ₂ := κ₂)
    (r₁ := 0) (r₂ := 0) (d₁ := 0) (d₂ := 0) (fd := fn)
    (by rw [duties_send m c r hr]; exact Finset.mem_singleton_self _) (by rw [duties_recv m (sh c r) (-r) hnr]; exact Finset.mem_singleton_self _)
    () () N rfl (amount_send m c r 0) (amount_recv m (sh c r) (-r) 0) O hO (W := W)
    (by rw [payload_send m c r hr]; exact BI.Entails.refl _)
    (by rw [payload_recv m (sh c r) (-r) hnr]; unfold recvPay rowPts; rw [pointsTo_congr (landed_eq m c r fn)])

/-- The kernel's own six semaphores at zero, one by one. -/
theorem ownSems0_flat (c : Dev nD) : (Pipeline.ownSems0 (Ix := Unit) (Name := ℕ) (U := UU) (Lvl := ℕ) (Val := Elt F) (τ := τ) osem c : sProp 𝕄)
    = iprop(semVal (sendCell c 1) 0 ∗ semVal (sendCell c 2) 0 ∗ semVal (sendCell c 3) 0
        ∗ semVal (recvCell c 1) 0 ∗ semVal (recvCell c 2) 0 ∗ semVal (recvCell c 3) 0) := by
  rw [Pipeline.ownSems0_eq_of_list c osem [0, 1, 2, 3, 4, 5] (by decide) (by decide)]; rfl

set_option maxHeartbeats 1600000 in
/-- The body, stepped from `bodyPre`, one rule per effect in program order, to `bodyPost`. -/
theorem sound_body : SoundBody m := fun K c Kt => by
  unfold bodyPre ghost scrAny payToks
  rw [positions_eq]
  iintro ⟨⟨⟨⟨#Hrec, ⟨HatB, HatS1, HatS2, HatS3, HatR1, HatR2, HatR3⟩, ⟨HtB1, HtB2, HtB3, HtR1, HtR2, HtR3, HtS1, HtS2, HtS3⟩⟩,
      HcB, HcR1, HcR2, HcR3, #Hlev, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  ihave #HIbar := (inv_bar m K c) $$ Hrec
  ihave #HIb1 := (inv_bar m K (sh c 1)) $$ Hrec
  ihave #HIb2 := (inv_bar m K (sh c 2)) $$ Hrec
  ihave #HIb3 := (inv_bar m K (sh c 3)) $$ Hrec
  ihave #HIs1 := (inv_send1 m K c) $$ Hrec
  ihave #HIs2 := (inv_send2 m K c) $$ Hrec
  ihave #HIs3 := (inv_send3 m K c) $$ Hrec
  ihave #HIr1 := (inv_recv1 m K c) $$ Hrec
  ihave #HIr2 := (inv_recv2 m K c) $$ Hrec
  ihave #HIr3 := (inv_recv3 m K c) $$ Hrec
  ihave #HIp1 := (inv_recv3 m K (sh c 1)) $$ Hrec
  ihave #HIp2 := (inv_recv2 m K (sh c 2)) $$ Hrec
  ihave #HIp3 := (inv_recv1 m K (sh c 3)) $$ Hrec
  ihave #HrB1 := (reached_bar m K (sh c 1)) $$ Hrec
  ihave #HrB2 := (reached_bar m K (sh c 2)) $$ Hrec
  ihave #HrB3 := (reached_bar m K (sh c 3)) $$ Hrec
  ihave #HrS1 := (reached_send1 m K c) $$ Hrec
  ihave #HrS2 := (reached_send2 m K c) $$ Hrec
  ihave #HrS3 := (reached_send3 m K c) $$ Hrec
  ihave #HrP1 := (reached_recv3 m K (sh c 1)) $$ Hrec
  ihave #HrP2 := (reached_recv2 m K (sh c 2)) $$ Hrec
  ihave #HrP3 := (reached_recv1 m K (sh c 3)) $$ Hrec
  ihave Hrows := (Entails.of_eq (rows_eq c fullShare f0)) $$ Hscr
  icases Hrows with ⟨HR0, HR1, HR2, HR3⟩
  ihave #Hmw := (mayWait_bar (F := F) c) $$ Hlev
  have hd1 : (⟨k0_dev1 (c : Thread nD τ).1, k0_dev1_lt _⟩ : Dev nD) = sh c 1 := dev1_eq c
  have hd2 : (⟨k0_dev2 (c : Thread nD τ).1, k0_dev2_lt _⟩ : Dev nD) = sh c 2 := dev2_eq c
  have hd3 : (⟨k0_dev3 (c : Thread nD τ).1, k0_dev3_lt _⟩ : Dev nD) = sh c 3 := dev3_eq c
  have hd4 : (⟨k0_dev4 (c : Thread nD τ).1, k0_dev4_lt _⟩ : Dev nD) = sh c 1 := dev4_eq c
  have hd5 : (⟨k0_dev5 (c : Thread nD τ).1, k0_dev5_lt _⟩ : Dev nD) = sh c 2 := dev5_eq c
  have hd6 : (⟨k0_dev6 (c : Thread nD τ).1, k0_dev6_lt _⟩ : Dev nD) = sh c 3 := dev6_eq c
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId, hd1, hd2, hd3, hd4, hd5, hd6, dev4_eq c, dev5_eq c, dev6_eq c]
  -- the three signals: each hands the peer the row of this device's buffer it will write
  iapply (Rounds.wp_signal 𝒱₀ ER (sched m) (c : Thread nD τ) none (dst := ((sh c 1 : Dev nD) : Thread nD τ)) (κ := K (sh c 1, 0))
      (d := 1) (by rw [duties_bar]; decide) ((amount_bar m (sh c 1) 1).trans (by decide)) () (Oe c) rfl) $$ [HO HtB1 HR1]
  · isplitr; · iexact HIb1
    isplitl [HO]; · iexact HO
    isplitl [HtB1]; · iexact HtB1
    isplitl [HR1]
    · rw [payload_peer1]; iexists f0; unfold rowPts; iexact HR1
    · iexact HrB1
  iintro HO
  unfold Oe
  iapply (Rounds.wp_signal 𝒱₀ ER (sched m) (c : Thread nD τ) none (dst := ((sh c 2 : Dev nD) : Thread nD τ)) (κ := K (sh c 2, 0))
      (d := 2) (by rw [duties_bar]; decide) ((amount_bar m (sh c 2) 2).trans (by decide)) () (Od c) rfl) $$ [HO HtB2 HR2]
  · isplitr; · iexact HIb2
    isplitl [HO]; · iexact HO
    isplitl [HtB2]; · iexact HtB2
    isplitl [HR2]
    · rw [payload_peer2]; iexists f0; unfold rowPts; iexact HR2
    · iexact HrB2
  iintro HO
  unfold Od
  iapply (Rounds.wp_signal 𝒱₀ ER (sched m) (c : Thread nD τ) none (dst := ((sh c 3 : Dev nD) : Thread nD τ)) (κ := K (sh c 3, 0))
      (d := 3) (by rw [duties_bar]; decide) ((amount_bar m (sh c 3) 3).trans (by decide)) () (Oc c) rfl) $$ [HO HtB3 HR3]
  · isplitr; · iexact HIb3
    isplitl [HO]; · iexact HO
    isplitl [HtB3]; · iexact HtB3
    isplitl [HR3]
    · rw [payload_peer3]; iexists f0; unfold rowPts; iexact HR3
    · iexact HrB3
  iintro HO
  -- the exponentials, stored; their row sums, stored in row 0
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Hout; iintro Hout
  iapply (wp_store 𝒱₀ (c : Thread nD τ) none Set.univ (m := oM) (r := r2) (Mk := Finset.univ) (Finset.subset_univ _)) $$ Hout; iintro Hout
  rw [write_o]
  unfold rowPts
  rw [row_set]
  iapply (wp_load 𝒱₀ (c : Thread nD τ) none Set.univ (m := sM) (S := (rowR 0).set)
    (by unfold View.setOn; rw [View.emb_whole]; intro i hi; obtain ⟨j, hj, rfl⟩ := Finset.mem_map.mp hi; exact hj)) $$ HR0; iintro HR0
  iapply (wp_store 𝒱₀ (c : Thread nD τ) none Set.univ (m := sM) (r := rowR 0) (Mk := Finset.univ) (S := (rowR 0).set)
    (by show ((sM : Memref sig .tc .vmem S4x1x1024 .f32).access (rowR 0) : View sig .tc _ _ _).set ⊆ _
        rw [show ((sM : Memref sig .tc .vmem S4x1x1024 .f32).access (rowR 0) : View sig .tc _ _ _).set = (rowR 0).set from View.set_slice_whole cc0_scratch0 (rowR 0)])) $$ HR0; iintro HR0
  ihave HR0 := (Entails.of_eq (pointsTo_congr (stored_eq m c f0))) $$ HR0
  -- the barrier wait, owing the three receive credits: the three peers' rows come with it
  iapply (Rounds.wp_wait_rest_token 𝒱₀ ER (sched m) (c : Thread nD τ) none (κ := K (c, 0))
      (wpE_semWait_eq 𝒱₀ (c : Thread nD τ) none Set.univ) (Set.mem_univ _) () (O := Oc c) (R := 0) (m := 0) (T := ∅)
      (by rw [expect_bar]; decide)) $$ [HcB HO HatB]
  · isplitr; · iexact HIbar
    isplitl [HcB]; · iexact HcB
    isplitl [HO]; · iexact HO
    isplitr; · iexact Hmw
    iexact HatB
  iintro ⟨HO, HatB, -, Hpay⟩
  ihave Hp := (Entails.of_eq (rest_bar m c)) $$ Hpay
  unfold barPay
  icases Hp with ⟨⟨%f1p, HP1⟩, ⟨%f2p, HP2⟩, ⟨%f3p, HP3⟩⟩
  -- row 0 at its final contents, in four shares
  ihave HR0 := (Entails.of_eq (row_of_set c 0 fullShare (gath m c))) $$ HR0
  ihave Hsh := (row0_shares c (gath m c)).1 $$ HR0
  icases Hsh with ⟨HQ0, HQ1, HQ2, HQ3⟩
  unfold Oc
  -- the copy to the device 1 place(s) on, into its row 3
  iapply (wp_send_row m c _ 1 3 (by decide) (by decide) (dev4_eq c) (κ₁ := K (c, 1)) (κ₂ := K (sh c 1, 6)) f3p _ (Ob c) rfl _) $$ [HQ1 HP3 HO HtS1 HtR1]
  · isplitr; · iexact HIs1
    isplitr; · iexact HIp1
    isplitl [HQ1]; · iexact HQ1
    isplitl [HP3]; · iexact HP3
    isplitl [HO]; · iexact HO
    isplitl [HtS1]; · iexact HtS1
    isplitr; · iexact HrS1
    isplitl [HtR1]; · iexact HtR1
    iexact HrP1
  iintro ⟨HcS1, HO⟩
  unfold Ob
  -- the copy to the device 2 place(s) on, into its row 2
  iapply (wp_send_row m c _ 2 2 (by decide) (by decide) (dev5_eq c) (κ₁ := K (c, 2)) (κ₂ := K (sh c 2, 5)) f2p _ (Oa c) rfl _) $$ [HQ2 HP2 HO HtS2 HtR2]
  · isplitr; · iexact HIs2
    isplitr; · iexact HIp2
    isplitl [HQ2]; · iexact HQ2
    isplitl [HP2]; · iexact HP2
    isplitl [HO]; · iexact HO
    isplitl [HtS2]; · iexact HtS2
    isplitr; · iexact HrS2
    isplitl [HtR2]; · iexact HtR2
    iexact HrP2
  iintro ⟨HcS2, HO⟩
  unfold Oa
  -- the copy to the device 3 place(s) on, into its row 1
  iapply (wp_send_row m c _ 3 1 (by decide) (by decide) (dev6_eq c) (κ₁ := K (c, 3)) (κ₂ := K (sh c 3, 4)) f1p _ 0 (by rw [zero_add]) _) $$ [HQ3 HP1 HO HtS3 HtR3]
  · isplitr; · iexact HIs3
    isplitr; · iexact HIp3
    isplitl [HQ3]; · iexact HQ3
    isplitl [HP1]; · iexact HP1
    isplitl [HO]; · iexact HO
    isplitl [HtS3]; · iexact HtS3
    isplitr; · iexact HrS3
    isplitl [HtR3]; · iexact HtR3
    iexact HrP3
  iintro ⟨HcS3, HO⟩
  -- the wait on receive cell 3: row 3 comes back at its final contents
  iapply (Rounds.wp_wait_rest_token 𝒱₀ ER (sched m) (c : Thread nD τ) none (κ := K (c, 6)) (sm := SemLoc.dma (recvS 3))
      (wpE_waitDma2_eq 𝒱₀ (c : Thread nD τ) none Set.univ) (Set.mem_univ _) () (O := 0) (R := 0) (m := 0) (T := ∅)
      (by rw [Nat.zero_add, expect_recv3])) $$ [HcR3 HO HatR3]
  · isplitr; · iexact HIr3
    isplitl [HcR3]; · iexact HcR3
    isplitl [HO]; · iexact HO
    isplitr; · rw [MayWait_zero]; iempintro
    iexact HatR3
  iintro ⟨HO, HatR3, -, Hpay⟩
  ihave HV3 := (Entails.of_eq (rest_recv3 m c)) $$ Hpay
  -- the wait on receive cell 2: row 2 comes back at its final contents
  iapply (Rounds.wp_wait_rest_token 𝒱₀ ER (sched m) (c : Thread nD τ) none (κ := K (c, 5)) (sm := SemLoc.dma (recvS 2))
      (wpE_waitDma2_eq 𝒱₀ (c : Thread nD τ) none Set.univ) (Set.mem_univ _) () (O := 0) (R := 0) (m := 0) (T := ∅)
      (by rw [Nat.zero_add, expect_recv2])) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave HV2 := (Entails.of_eq (rest_recv2 m c)) $$ Hpay
  -- the wait on receive cell 1: row 1 comes back at its final contents
  iapply (Rounds.wp_wait_rest_token 𝒱₀ ER (sched m) (c : Thread nD τ) none (κ := K (c, 4)) (sm := SemLoc.dma (recvS 1))
      (wpE_waitDma2_eq 𝒱₀ (c : Thread nD τ) none Set.univ) (Set.mem_univ _) () (O := 0) (R := 0) (m := 0) (T := ∅)
      (by rw [Nat.zero_add, expect_recv1])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave HV1 := (Entails.of_eq (rest_recv1 m c)) $$ Hpay
  -- the four rows at the kept share, as one buffer; read whole
  unfold recvPay
  ihave H1 := (row_halves c 1 fullShare (gath m c)).1 $$ HV1
  icases H1 with ⟨HV1l, HV1r⟩
  ihave H2 := (row_halves c 2 fullShare (gath m c)).1 $$ HV2
  icases H2 with ⟨HV2l, HV2r⟩
  ihave H3 := (row_halves c 3 fullShare (gath m c)).1 $$ HV3
  icases H3 with ⟨HV3l, HV3r⟩
  ihave Hall := (Entails.of_eq (rows_eq c (qS 0) (gath m c)).symm) $$ [HQ0 HV1l HV2l HV3l]
  · isplitl [HQ0]; · iexact HQ0
    isplitl [HV1l]; · iexact HV1l
    isplitl [HV2l]; · iexact HV2l
    iexact HV3l
  iapply (wp_load 𝒱₀ (c : Thread nD τ) none Set.univ (m := sM) (Finset.subset_univ _)) $$ Hall; iintro Hall
  rw [read_s]
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM) (r := r2) (Mk := Finset.univ) (Finset.subset_univ _)) $$ Hout; iintro Hout
  rw [write_o]
  -- the wait on send cell 1: the copy's share of row 0 comes back
  iapply (Rounds.wp_wait_rest_token 𝒱₀ ER (sched m) (c : Thread nD τ) none (κ := K (c, 1)) (sm := SemLoc.dma (sendS 1))
      (wpE_waitDma2_eq 𝒱₀ (c : Thread nD τ) none Set.univ) (Set.mem_univ _) () (O := 0) (R := 0) (m := 0) (T := ∅)
      (by rw [Nat.zero_add, expect_send1])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave HQ1 := (Entails.of_eq (rest_send1 m c)) $$ Hpay
  -- the wait on send cell 2: the copy's share of row 0 comes back
  iapply (Rounds.wp_wait_rest_token 𝒱₀ ER (sched m) (c : Thread nD τ) none (κ := K (c, 2)) (sm := SemLoc.dma (sendS 2))
      (wpE_waitDma2_eq 𝒱₀ (c : Thread nD τ) none Set.univ) (Set.mem_univ _) () (O := 0) (R := 0) (m := 0) (T := ∅)
      (by rw [Nat.zero_add, expect_send2])) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave HQ2 := (Entails.of_eq (rest_send2 m c)) $$ Hpay
  -- the wait on send cell 3: the copy's share of row 0 comes back
  iapply (Rounds.wp_wait_rest_token 𝒱₀ ER (sched m) (c : Thread nD τ) none (κ := K (c, 3)) (sm := SemLoc.dma (sendS 3))
      (wpE_waitDma2_eq 𝒱₀ (c : Thread nD τ) none Set.univ) (Set.mem_univ _) () (O := 0) (R := 0) (m := 0) (T := ∅)
      (by rw [Nat.zero_add, expect_send3])) $$ [HcS3 HO HatS3]
  · isplitr; · iexact HIs3
    isplitl [HcS3]; · iexact HcS3
    isplitl [HO]; · iexact HO
    isplitr; · rw [MayWait_zero]; iempintro
    iexact HatS3
  iintro ⟨HO, HatS3, -, Hpay⟩
  ihave HQ3 := (Entails.of_eq (rest_send3 m c)) $$ Hpay
  -- the six own cells close: their counters at zero are the core's again
  imod (Rounds.cell_close ER (sched m) (Set.mem_univ (K (c, 1))) (fun h => h) (R := 0 + 1) (duties_later m (sendCell c 1))) $$ [HatS1] with HzS1
  · isplitr; · iexact HIs1
    iexact HatS1
  imod (Rounds.cell_close ER (sched m) (Set.mem_univ (K (c, 2))) (fun h => h) (R := 0 + 1) (duties_later m (sendCell c 2))) $$ [HatS2] with HzS2
  · isplitr; · iexact HIs2
    iexact HatS2
  imod (Rounds.cell_close ER (sched m) (Set.mem_univ (K (c, 3))) (fun h => h) (R := 0 + 1) (duties_later m (sendCell c 3))) $$ [HatS3] with HzS3
  · isplitr; · iexact HIs3
    iexact HatS3
  imod (Rounds.cell_close ER (sched m) (Set.mem_univ (K (c, 4))) (fun h => h) (R := 0 + 1) (duties_later m (recvCell c 1))) $$ [HatR1] with HzR1
  · isplitr; · iexact HIr1
    iexact HatR1
  imod (Rounds.cell_close ER (sched m) (Set.mem_univ (K (c, 5))) (fun h => h) (R := 0 + 1) (duties_later m (recvCell c 2))) $$ [HatR2] with HzR2
  · isplitr; · iexact HIr2
    iexact HatR2
  imod (Rounds.cell_close ER (sched m) (Set.mem_univ (K (c, 6))) (fun h => h) (R := 0 + 1) (duties_later m (recvCell c 3))) $$ [HatR3] with HzR3
  · isplitr; · iexact HIr3
    iexact HatR3
  -- the shares of the rows, and the rows, put back together
  ihave Hrows := (Entails.of_eq (rows_eq c (qS 0) (gath m c))) $$ Hall
  icases Hrows with ⟨HQ0, HV1l, HV2l, HV3l⟩
  unfold sendPay
  ihave HR0 := (row0_shares c (gath m c)).2 $$ [HQ0 HQ1 HQ2 HQ3]
  · isplitl [HQ0]; · iexact HQ0
    isplitl [HQ1]; · iexact HQ1
    isplitl [HQ2]; · iexact HQ2
    iexact HQ3
  ihave HR1 := (row_halves c 1 fullShare (gath m c)).2 $$ [HV1l HV1r]
  · isplitl [HV1l]; · iexact HV1l
    iexact HV1r
  ihave HR2 := (row_halves c 2 fullShare (gath m c)).2 $$ [HV2l HV2r]
  · isplitl [HV2l]; · iexact HV2l
    iexact HV2r
  ihave HR3 := (row_halves c 3 fullShare (gath m c)).2 $$ [HV3l HV3r]
  · isplitl [HV3l]; · iexact HV3l
    iexact HV3r
  ihave Hscr := (Entails.of_eq (rows_eq c fullShare (gath m c)).symm) $$ [HR0 HR1 HR2 HR3]
  · isplitl [HR0]; · iexact HR0
    isplitl [HR1]; · iexact HR1
    isplitl [HR2]; · iexact HR2
    iexact HR3
  rw [wp_ret]; imodintro
  iapply Hk
  unfold bodyPost Φ₁ scrAny Dat.owesAt Pipeline.owesWithin
  rw [show (dats m 0 c).owed t₀.succ = 0 from rfl, ownSems0_flat]
  isplitl [Hscr HzS1 HzS2 HzS3 HzR1 HzR2 HzR3]
  · isplitl [Hscr]; · iexists (gath m c); iexact Hscr
    isplitl [HzS1]; · iexact HzS1
    isplitl [HzS2]; · iexact HzS2
    isplitl [HzS3]; · iexact HzS3
    isplitl [HzR1]; · iexact HzR1
    isplitl [HzR2]; · iexact HzR2
    iexact HzR3
  isplitl [HO]
  · iexists (insert (SemLoc.dma (sendS 3), ()) (insert (SemLoc.dma (sendS 2), ()) (insert (SemLoc.dma (sendS 1), ())
      (insert (SemLoc.dma (recvS 1), ()) (insert (SemLoc.dma (recvS 2), ()) (insert (SemLoc.dma (recvS 3), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

end Cert.Kernel.Body

end
-- ==== Proof.KernelIdealRows.lean ====
/-
  Rows of the statistics buffer. Row `k` is the 1×1×1024 slice at offset (k, 0, 0); the copies name it through that slice
  with its leading axis squeezed away, a re-indexing that does not change which elements it covers. Read through the slice,
  row `k` of the final contents of device `c`'s buffer is the partial row sums of the device `k` places on; so what device
  `c` stores in its row 0 is its own row of the final contents, and what its copy writes into row `4 - r` of the device `r`
  places on is that device's row `4 - r` of ITS final contents: going `r` places on and `4 - r` more is once round the mesh.
-/
import proofs.«900394_g7700000000000395_dist_softmax_colshard_i_m1024_n1024_v7x_i4_f32_1_alg».proof.Proof.Gen.KernelIdeal
import proofs.«900394_g7700000000000395_dist_softmax_colshard_i_m1024_n1024_v7x_i4_f32_1_alg».proof.Proof.Gen.KernelIdeal.Skeleton
import proofs.«900394_g7700000000000395_dist_softmax_colshard_i_m1024_n1024_v7x_i4_f32_1_alg».proof.Proof.Gen.KernelIdeal.Launch
import proofs.«900394_g7700000000000395_dist_softmax_colshard_i_m1024_n1024_v7x_i4_f32_1_alg».proof.Proof.Gen.KernelIdeal.Points
import proofs.«900394_g7700000000000395_dist_softmax_colshard_i_m1024_n1024_v7x_i4_f32_1_alg».proof.Proof.Gen.KernelIdeal.Frame
import proofs.«900394_g7700000000000395_dist_softmax_colshard_i_m1024_n1024_v7x_i4_f32_1_alg».proof.Proof.KernelIdealSpec
import proofs.«900394_g7700000000000395_dist_softmax_colshard_i_m1024_n1024_v7x_i4_f32_1_alg».proof.Proof.KernelIdealProto
import Idealize.ShloMosaic.Lib.Pipeline.Value
import Idealize.ShloMosaic.Lib.Pipeline.Launch
import Idealize.ShloMosaic.Lib.Pipeline.Kit
import Idealize.ShloMosaic.Lib.Tactic

noncomputable section

namespace Cert.KernelIdeal.Rows

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Proto

variable (m : (ℓ : Loc nD τ sig) → Buf (Elt F) ℓ)

/-- Read through row `k`'s slice, the final contents are the partial sums of the device `k` places on. -/
theorem gath_row (c : Dev nD) (k : Fin 4) (y : S1x1x1024.Idx) :
    gath m c ((rowR k).emb y) = k0_pay2 (xstg m (sh c k)) y := by
  have h0 : (y 0).val = 0 := Nat.lt_one_iff.mp (y 0).isLt
  have h1 : (y 1).val = 0 := Nat.lt_one_iff.mp (y 1).isLt
  unfold gath Spec.gathered
  fin_cases k
  all_goals
    refine congr (congrArg _ (congrArg _ (congrArg _ (Fin.ext ?_)))) (funext fun a => Fin.ext ?_)
    · show _ + 1 * (y 0).val = _; rw [h0]; rfl
    · match a with
      | ⟨0, _⟩ => exact h0.symm
      | ⟨1, _⟩ => exact h1.symm
      | ⟨2, _⟩ => show 0 + 1 * (y 2).val = (y 2).val; omega

/-- What a copy out of row 0 of device `c` writes into row `4 - r` of the device `r` places on is that device's row of its
    own final contents. -/
theorem landed_eq (c : Dev nD) (r : Fin 4) (fd : Buf (Elt F) ((slotM (-r)).view.loc ((sh c r : Dev nD) : Thread nD τ))) :
    ∀ i ∈ (slotM (-r)).view.set,
      (slotM (-r)).view.write (Elt F) fd ((slotM 0).view.read (Elt F) (gath m c)) Finset.univ i = gath m (sh c r) i := by
  intro i hi
  obtain ⟨y, rfl⟩ := View.exists_emb_of_mem_set _ hi
  rw [View.write_emb_of_mem _ _ (Finset.mem_univ y), View.read_apply]
  simp only [cast_eq]
  show gath m c ((rowR 0).emb _) = gath m (sh c r) ((rowR (-r)).emb _)
  rw [gath_row, gath_row, sh_zero, sh_sh_neg]

/-! ## Which elements a row covers -/

theorem row_set (k : Fin 4) : (slotM k).view.set = (rowR k).set := by
  show ((sM.slice (rowR k) (fun _ => rfl)).squeeze S1x1024 squeezes_S1x1x1024_S1x1024).view.set = _
  rw [Memref.set_view_squeeze]
  exact View.set_slice_whole cc0_scratch0 (rowR k)

/-- An element is in row `k` exactly when its leading coordinate is `k`. -/
theorem mem_row (k : Fin 4) (i : S4x1x1024.Idx) : i ∈ (rowR k).set ↔ (i 0).val = k.val := by
  rw [Rect.mem_set_unit]
  constructor
  · intro h
    have h0 := h 0
    have e1 : (![k.val, 0, 0] : Fin 3 → Nat) 0 = k.val := rfl
    have e2 : S1x1x1024.size (0 : Fin 3) = 1 := rfl
    rw [e1, e2] at h0
    omega
  · intro h a
    match a with
    | ⟨0, _⟩ =>
      show k.val ≤ (i 0).val ∧ (i 0).val < k.val + 1
      omega
    | ⟨1, _⟩ =>
      have := (i 1).isLt
      exact ⟨Nat.zero_le _, by show (i 1).val < 0 + 1; have e : S4x1x1024.size (1 : Fin 3) = 1 := rfl; omega⟩
    | ⟨2, _⟩ =>
      have := (i 2).isLt
      exact ⟨Nat.zero_le _, by show (i 2).val < 0 + 1024; have e : S4x1x1024.size (2 : Fin 3) = 1024 := rfl; omega⟩

theorem rows_disjoint (j k : Fin 4) (h : j ≠ k) : Disjoint (rowR j).set (rowR k).set :=
  Finset.disjoint_left.mpr fun i hj hk => h (Fin.ext (((mem_row j i).mp hj).symm.trans ((mem_row k i).mp hk)))

theorem rows_cover : (Finset.univ : Finset (Fin 4)).biUnion (fun k => (rowR k).set) = (Finset.univ : Finset S4x1x1024.Idx) :=
  Finset.eq_univ_of_forall fun i => Finset.mem_biUnion.mpr ⟨⟨(i 0).val, (i 0).isLt⟩, Finset.mem_univ _, (mem_row _ i).mpr rfl⟩

end Cert.KernelIdeal.Rows

end
-- ==== Proof.KernelIdealBody.lean ====
/-
  One device's body, stepped from the protocol's ghost state: the three signals (each handing the peer the row it will
  write), the exponentials and their row sums stored, the barrier wait (the three peers' rows come with it), the three copies
  of row 0 (each under its own share of the row, one share kept), the three receive waits (rows 1 … 3 come back at their
  final contents), the four rows read as one buffer, the result stored, and the three send waits (the shares of row 0 come
  back); the six own cells are then closed.
-/
import proofs.«900394_g7700000000000395_dist_softmax_colshard_i_m1024_n1024_v7x_i4_f32_1_alg».proof.Proof.Gen.KernelIdeal
import proofs.«900394_g7700000000000395_dist_softmax_colshard_i_m1024_n1024_v7x_i4_f32_1_alg».proof.Proof.Gen.KernelIdeal.Skeleton
import proofs.«900394_g7700000000000395_dist_softmax_colshard_i_m1024_n1024_v7x_i4_f32_1_alg».proof.Proof.Gen.KernelIdeal.Launch
import proofs.«900394_g7700000000000395_dist_softmax_colshard_i_m1024_n1024_v7x_i4_f32_1_alg».proof.Proof.Gen.KernelIdeal.Points
import proofs.«900394_g7700000000000395_dist_softmax_colshard_i_m1024_n1024_v7x_i4_f32_1_alg».proof.Proof.Gen.KernelIdeal.Frame
import proofs.«900394_g7700000000000395_dist_softmax_colshard_i_m1024_n1024_v7x_i4_f32_1_alg».proof.Proof.KernelIdealSpec
import proofs.«900394_g7700000000000395_dist_softmax_colshard_i_m1024_n1024_v7x_i4_f32_1_alg».proof.Proof.KernelIdealProto
import proofs.«900394_g7700000000000395_dist_softmax_colshard_i_m1024_n1024_v7x_i4_f32_1_alg».proof.Proof.KernelIdealRows
import proofs.«900394_g7700000000000395_dist_softmax_colshard_i_m1024_n1024_v7x_i4_f32_1_alg».proof.Proof.KernelIdealBodyDefs
import Idealize.ShloMosaic.Lib.Pipeline.Value
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Spec
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Proto Cert.KernelIdeal.Rows Cert.KernelIdeal.BodyDefs
open Idealize.ShloMosaic.Tactic

local notation "𝕄" => MT nD τ sig Unit (Elt F) ℕ UU ℕ

variable (m : (ℓ : Loc nD τ sig) → Buf (Elt F) ℓ)

/-! ## The tables at the literal cells -/

theorem duties_send1 (c : Dev nD) : (sched (F := F) m).duties (sendCell c 1) 0 = {0} := duties_send m c 1 (by decide)
theorem duties_recv1 (c : Dev nD) : (sched (F := F) m).duties (recvCell c 1) 0 = {0} := duties_recv m c 1 (by decide)
theorem expect_send1 (c : Dev nD) : (sched (F := F) m).expect (sendCell c 1) 0 = N := expect_send m c 1 (by decide)
theorem expect_recv1 (c : Dev nD) : (sched (F := F) m).expect (recvCell c 1) 0 = N := expect_recv m c 1 (by decide)
theorem payload_send1 (c : Dev nD) (d : Fin 4) : (sched (F := F) m).payload (sendCell c 1) 0 d = sendPay m c 1 := payload_send m c 1 (by decide) d
theorem payload_recv1 (c : Dev nD) (d : Fin 4) : (sched (F := F) m).payload (recvCell c 1) 0 d = recvPay m c 1 := payload_recv m c 1 (by decide) d
theorem rest_send1 (c : Dev nD) : bigSep ((sched (F := F) m).duties (sendCell c 1) 0 \ ∅) (fun d => (sched (F := F) m).payload (sendCell c 1) 0 d) = sendPay m c 1 := rest_send m c 1 (by decide)
theorem rest_recv1 (c : Dev nD) : bigSep ((sched (F := F) m).duties (recvCell c 1) 0 \ ∅) (fun d => (sched (F := F) m).payload (recvCell c 1) 0 d) = recvPay m c 1 := rest_recv m c 1 (by decide)
theorem inv_send1 (K : Dev nD × Fin 7 → ℕ) (d : Dev nD) : records m K ⊢ cellInv ER (sched m) (K (d, 1)) (sendCell d 1) := inv_at m K (d, 1)
theorem inv_recv1 (K : Dev nD × Fin 7 → ℕ) (d : Dev nD) : records m K ⊢ cellInv ER (sched m) (K (d, 4)) (recvCell d 1) := inv_at m K (d, 4)
theorem reached_send1 (K : Dev nD × Fin 7 → ℕ) (d : Dev nD) : records m K ⊢ (reached ER (sendCell d 1) 0 : sProp 𝕄) := reached_at m K (d, 1)
theorem reached_recv1 (K : Dev nD × Fin 7 → ℕ) (d : Dev nD) : records m K ⊢ (reached ER (recvCell d 1) 0 : sProp 𝕄) := reached_at m K (d, 4)
theorem duties_send2 (c : Dev nD) : (sched (F := F) m).duties (sendCell c 2) 0 = {0} := duties_send m c 2 (by decide)
theorem duties_recv2 (c : Dev nD) : (sched (F := F) m).duties (recvCell c 2) 0 = {0} := duties_recv m c 2 (by decide)
theorem expect_send2 (c : Dev nD) : (sched (F := F) m).expect (sendCell c 2) 0 = N := expect_send m c 2 (by decide)
theorem expect_recv2 (c : Dev nD) : (sched (F := F) m).expect (recvCell c 2) 0 = N := expect_recv m c 2 (by decide)
theorem payload_send2 (c : Dev nD) (d : Fin 4) : (sched (F := F) m).payload (sendCell c 2) 0 d = sendPay m c 2 := payload_send m c 2 (by decide) d
theorem payload_recv2 (c : Dev nD) (d : Fin 4) : (sched (F := F) m).payload (recvCell c 2) 0 d = recvPay m c 2 := payload_recv m c 2 (by decide) d
theorem rest_send2 (c : Dev nD) : bigSep ((sched (F := F) m).duties (sendCell c 2) 0 \ ∅) (fun d => (sched (F := F) m).payload (sendCell c 2) 0 d) = sendPay m c 2 := rest_send m c 2 (by decide)
theorem rest_recv2 (c : Dev nD) : bigSep ((sched (F := F) m).duties (recvCell c 2) 0 \ ∅) (fun d => (sched (F := F) m).payload (recvCell c 2) 0 d) = recvPay m c 2 := rest_recv m c 2 (by decide)
theorem inv_send2 (K : Dev nD × Fin 7 → ℕ) (d : Dev nD) : records m K ⊢ cellInv ER (sched m) (K (d, 2)) (sendCell d 2) := inv_at m K (d, 2)
theorem inv_recv2 (K : Dev nD × Fin 7 → ℕ) (d : Dev nD) : records m K ⊢ cellInv ER (sched m) (K (d, 5)) (recvCell d 2) := inv_at m K (d, 5)
theorem reached_send2 (K : Dev nD × Fin 7 → ℕ) (d : Dev nD) : records m K ⊢ (reached ER (sendCell d 2) 0 : sProp 𝕄) := reached_at m K (d, 2)
theorem reached_recv2 (K : Dev nD × Fin 7 → ℕ) (d : Dev nD) : records m K ⊢ (reached ER (recvCell d 2) 0 : sProp 𝕄) := reached_at m K (d, 5)
theorem duties_send3 (c : Dev nD) : (sched (F := F) m).duties (sendCell c 3) 0 = {0} := duties_send m c 3 (by decide)
theorem duties_recv3 (c : Dev nD) : (sched (F := F) m).duties (recvCell c 3) 0 = {0} := duties_recv m c 3 (by decide)
theorem expect_send3 (c : Dev nD) : (sched (F := F) m).expect (sendCell c 3) 0 = N := expect_send m c 3 (by decide)
theorem expect_recv3 (c : Dev nD) : (sched (F := F) m).expect (recvCell c 3) 0 = N := expect_recv m c 3 (by decide)
theorem payload_send3 (c : Dev nD) (d : Fin 4) : (sched (F := F) m).payload (sendCell c 3) 0 d = sendPay m c 3 := payload_send m c 3 (by decide) d
theorem payload_recv3 (c : Dev nD) (d : Fin 4) : (sched (F := F) m).payload (recvCell c 3) 0 d = recvPay m c 3 := payload_recv m c 3 (by decide) d
theorem rest_send3 (c : Dev nD) : bigSep ((sched (F := F) m).duties (sendCell c 3) 0 \ ∅) (fun d => (sched (F := F) m).payload (sendCell c 3) 0 d) = sendPay m c 3 := rest_send m c 3 (by decide)
theorem rest_recv3 (c : Dev nD) : bigSep ((sched (F := F) m).duties (recvCell c 3) 0 \ ∅) (fun d => (sched (F := F) m).payload (recvCell c 3) 0 d) = recvPay m c 3 := rest_recv m c 3 (by decide)
theorem inv_send3 (K : Dev nD × Fin 7 → ℕ) (d : Dev nD) : records m K ⊢ cellInv ER (sched m) (K (d, 3)) (sendCell d 3) := inv_at m K (d, 3)
theorem inv_recv3 (K : Dev nD × Fin 7 → ℕ) (d : Dev nD) : records m K ⊢ cellInv ER (sched m) (K (d, 6)) (recvCell d 3) := inv_at m K (d, 6)
theorem reached_send3 (K : Dev nD × Fin 7 → ℕ) (d : Dev nD) : records m K ⊢ (reached ER (sendCell d 3) 0 : sProp 𝕄) := reached_at m K (d, 3)
theorem reached_recv3 (K : Dev nD × Fin 7 → ℕ) (d : Dev nD) : records m K ⊢ (reached ER (recvCell d 3) 0 : sProp 𝕄) := reached_at m K (d, 6)

theorem inv_bar (K : Dev nD × Fin 7 → ℕ) (d : Dev nD) : records m K ⊢ cellInv ER (sched m) (K (d, 0)) (barCell d) := inv_at m K (d, 0)
theorem reached_bar (K : Dev nD × Fin 7 → ℕ) (d : Dev nD) : records m K ⊢ (reached ER (barCell d) 0 : sProp 𝕄) := reached_at m K (d, 0)

theorem fetch_0 (t : Fin cfg0.N) : (cfg0.win (0 : Fin 2)).fetch t = true := by rw [fin_N t]; rfl

/-! ## The buffer as its rows -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The whole statistics buffer at share `q` and contents `f` is its four rows at that share and those contents. -/
theorem rows_eq (c : Dev nD) (q : PosShare TreeShare) (f : Buf (Elt F) ((c : Thread nD τ).loc cc0_scratch0)) :
    ((((c : Thread nD τ).loc cc0_scratch0) ↦{q} f) : sProp 𝕄) = iprop(rowPts c 0 q f ∗ rowPts c 1 q f ∗ rowPts c 2 q f ∗ rowPts c 3 q f) := by
  have h := pointsTo_biUnion (ℓ := (c : Thread nD τ).loc cc0_scratch0) (q := q) (f := f) (Val := Elt F) (Ix := Unit) (Name := ℕ) (U := UU) (Lvl := ℕ)
    (Finset.univ : Finset (Fin 4)) (fun k => (rowR k).set) (fun j _ k _ hjk => rows_disjoint j k hjk)
  rw [rows_cover, bigSep_fin4] at h
  rw [h]
  unfold rowPts
  rw [row_set, row_set, row_set, row_set]

/-- The barrier duty device `c` pays to the device `r` places on hands over row `r` of `c`'s own buffer. -/
theorem payload_peer1 (c : Dev nD) : (sched (F := F) m).payload (barCell (sh c 1)) 0 1
    = iprop(∃ f, (slotM 1).view.loc (c : Thread nD τ) ↦[(slotM 1).view.set]{fullShare} f) := by
  rw [payload_bar]; unfold barPay rowPts; rw [sh_sh_neg]
theorem payload_peer2 (c : Dev nD) : (sched (F := F) m).payload (barCell (sh c 2)) 0 2
    = iprop(∃ f, (slotM 2).view.loc (c : Thread nD τ) ↦[(slotM 2).view.set]{fullShare} f) := by
  rw [payload_bar]; unfold barPay rowPts; rw [sh_sh_neg]
theorem payload_peer3 (c : Dev nD) : (sched (F := F) m).payload (barCell (sh c 3)) 0 3
    = iprop(∃ f, (slotM 3).view.loc (c : Thread nD τ) ↦[(slotM 3).view.set]{fullShare} f) := by
  rw [payload_bar]; unfold barPay rowPts; rw [sh_sh_neg]

/-! ## Small facts about the whole-buffer accesses -/

theorem hz2 : (![0, 0] : Fin 2 → Nat) = fun _ => 0 := funext fun a => by fin_cases a <;> rfl
theorem hz3 : (![0, 0, 0] : Fin 3 → Nat) = fun _ => 0 := funext fun a => by fin_cases a <;> rfl

abbrev r2 : Rect S1024x1024 := Rect.unit (s := S1024x1024) ![0, 0] S1024x1024.size inb_S1024x1024_S1024x1024_0_0
abbrev r3 : Rect S4x1x1024 := Rect.unit (s := S4x1x1024) ![0, 0, 0] S4x1x1024.size inb_S4x1x1024_S4x1x1024_0_0_0

theorem read_x (f : (cc0_stg0_0 : Ref sig .tc).ty.Contents (Elt F)) : (xM : Memref sig .tc .vmem S1024x1024 .f32).view.readAt (Elt F) r2.toLoadRect f = f :=
  Memref.readAt_unit_zero (Elt F) cc0_stg0_0 hz2 _ f
theorem read_o (f : (cc0_stg1_0 : Ref sig .tc).ty.Contents (Elt F)) : (oM : Memref sig .tc .vmem S1024x1024 .f32).view.readAt (Elt F) r2.toLoadRect f = f :=
  Memref.readAt_unit_zero (Elt F) cc0_stg1_0 hz2 _ f
theorem write_o (f w : (cc0_stg1_0 : Ref sig .tc).ty.Contents (Elt F)) :
    ((oM : Memref sig .tc .vmem S1024x1024 .f32).access r2 : View sig .tc _ _ _).write (Elt F) f w Finset.univ = w :=
  Memref.write_access_unit_zero_univ (Elt F) cc0_stg1_0 hz2 _ f w
theorem read_s (f : (cc0_scratch0 : Ref sig .tc).ty.Contents (Elt F)) : (sM : Memref sig .tc .vmem S4x1x1024 .f32).view.readAt (Elt F) r3.toLoadRect f = f :=
  Memref.readAt_unit_zero (Elt F) cc0_scratch0 hz3 _ f

/-- What device `c` stores in its row 0 is its row 0 of the final contents. -/
theorem stored_eq (c : Dev nD) (f0 : (cc0_scratch0 : Ref sig .tc).ty.Contents (Elt F)) :
    ∀ i ∈ (rowR 0).set, ((sM : Memref sig .tc .vmem S4x1x1024 .f32).access (rowR 0) : View sig .tc _ _ _).write (Elt F) f0 (k0_pay2 (xstg m c)) Finset.univ i = gath m c i := by
  intro i hi
  have hi' : i ∈ ((sM : Memref sig .tc .vmem S4x1x1024 .f32).access (rowR 0) : View sig .tc _ _ _).set := by
    rw [show ((sM : Memref sig .tc .vmem S4x1x1024 .f32).access (rowR 0) : View sig .tc _ _ _).set = (rowR 0).set from View.set_slice_whole cc0_scratch0 (rowR 0)]; exact hi
  obtain ⟨y, rfl⟩ := View.exists_emb_of_mem_set _ hi'
  rw [View.write_emb_of_mem _ _ (Finset.mem_univ y)]
  simp only [cast_eq]
  show _ = gath m c ((rowR 0).emb y)
  rw [gath_row, sh_zero]

/-- A row's elements, named by its rectangle or through the view the copies use: the same points-to. -/
theorem row_of_set (c : Dev nD) (k : Fin 4) (q : PosShare TreeShare) (f : Buf (Elt F) ((slotM k).view.loc (c : Thread nD τ))) :
    (((slotM k).view.loc (c : Thread nD τ)) ↦[(rowR k).set]{q} f : sProp 𝕄) = rowPts c k q f := by
  unfold rowPts; rw [row_set]

/-! ## Shares of a row -/

theorem row_halves (c : Dev nD) (k : Fin 4) (q : PosShare TreeShare) (f : Buf (Elt F) ((slotM k).view.loc (c : Thread nD τ))) :
    (rowPts c k q f : sProp 𝕄) ⊣⊢ iprop(rowPts c k q.left f ∗ rowPts c k q.right f) :=
  pointsTo_share (PosShare.mem_left_op_right q)

/-- Row 0 whole is the share kept and the three copies' shares. -/
theorem row0_shares (c : Dev nD) (f : Buf (Elt F) ((slotM 0).view.loc (c : Thread nD τ))) :
    (rowPts c 0 fullShare f : sProp 𝕄) ⊣⊢ iprop(rowPts c 0 (qS 0) f ∗ rowPts c 0 (qS 1) f ∗ rowPts c 0 (qS 2) f ∗ rowPts c 0 (qS 3) f) := by
  constructor
  · iintro H
    ihave H1 := (row_halves c 0 fullShare f).1 $$ H
    icases H1 with ⟨Ha, Hb⟩
    ihave H2 := (row_halves c 0 fullShare.right f).1 $$ Hb
    icases H2 with ⟨Hb, Hc⟩
    ihave H3 := (row_halves c 0 fullShare.right.right f).1 $$ Hc
    icases H3 with ⟨Hc, Hd⟩
    isplitl [Ha]; · iexact Ha
    isplitl [Hb]; · iexact Hb
    isplitl [Hc]; · iexact Hc
    iexact Hd
  · iintro ⟨Ha, Hb, Hc, Hd⟩
    iapply (row_halves c 0 fullShare f).2
    isplitl [Ha]; · iexact Ha
    iapply (row_halves c 0 fullShare.right f).2
    isplitl [Hb]; · iexact Hb
    iapply (row_halves c 0 fullShare.right.right f).2
    isplitl [Hc]; · iexact Hc
    iexact Hd

theorem neg_ne_zero4 : ∀ r : Fin 4, r ≠ 0 → -r ≠ 0 := by decide

/-! ## One copy: row 0 of `c`, under the copy's share, into row `k = 4 - r` of the device `r` places on -/

theorem wp_send_row (c n : Dev nD) (r k : Fin 4) (hr : r ≠ 0) (hk : k = -r) (hn : n = sh c r) {κ₁ κ₂ : ℕ}
    {hsc : (slotM k : Memref sig (Dev.tc n : Thread nD τ).2.kind .vmem S1x1024 .f32).view.ref.isScScratch = false}
    {hsrc : (slotM 0 : Memref sig .tc .vmem S1x1024 .f32).view.WordExact} {hdst : (slotM k : Memref sig .tc .vmem S1x1024 .f32).view.WordExact}
    {hsem : DmaTarget.Typed .vmem (.dma (recvS k)) (.remote (Dev.tc n : Thread nD τ) (slotM k : Memref sig .tc .vmem S1x1024 .f32) (.dma (sendS r)) hsc)}
    {α : Type} {Q : α → sProp 𝕄} {kk : PUnit → Prog (TpuEff nD τ sig (Elt F) Λ₀ .tc) α}
    (fn : Buf (Elt F) ((slotM k).view.loc ((sh c r : Dev nD) : Thread nD τ))) (O₁ O : CellTallies nD τ sig Unit)
    (hO : O₁ = O + tallyAt (recvCell (sh c r) k) () N) (W : Waits sig Unit) :
    iprop(cellInv ER (sched m) κ₁ (sendCell c r) ∗ cellInv ER (sched m) κ₂ (recvCell (sh c r) k)
        ∗ rowPts c 0 (qS r) (gath m c) ∗ rowPts (sh c r) k fullShare fn
        ∗ owes (c : Thread nD τ) O₁ W
        ∗ dutyTok ER (sendCell c r) 0 0 ∗ reached ER (sendCell c r) 0
        ∗ dutyTok ER (recvCell (sh c r) k) 0 0 ∗ reached ER (recvCell (sh c r) k) 0)
      ⊢ iprop(((cred (tallyAt (sendCell c r) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM k) (.dma (sendS r)) hsc) (.dma (recvS k)) hsrc hdst hsem) kk) Q) := by
  subst hn; subst hk
  have hnr : (-r : Fin 4) ≠ 0 := neg_ne_zero4 r hr
  unfold rowPts
  exact Rounds.wp_send_pointsTo 𝒱₀ ER (sched m) (c : Thread nD τ) none (κ₁ := κ₁) (κ₂ := κ₂)
    (r₁ := 0) (r₂ := 0) (d₁ := 0) (d₂ := 0) (fd := fn)
    (by rw [duties_send m c r hr]; exact Finset.mem_singleton_self _) (by rw [duties_recv m (sh c r) (-r) hnr]; exact Finset.mem_singleton_self _)
    () () N rfl (amount_send m c r 0) (amount_recv m (sh c r) (-r) 0) O hO (W := W)
    (by rw [payload_send m c r hr]; exact BI.Entails.refl _)
    (by rw [payload_recv m (sh c r) (-r) hnr]; unfold recvPay rowPts; rw [pointsTo_congr (landed_eq m c r fn)])

/-- The kernel's own six semaphores at zero, one by one. -/
theorem ownSems0_flat (c : Dev nD) : (Pipeline.ownSems0 (Ix := Unit) (Name := ℕ) (U := UU) (Lvl := ℕ) (Val := Elt F) (τ := τ) osem c : sProp 𝕄)
    = iprop(semVal (sendCell c 1) 0 ∗ semVal (sendCell c 2) 0 ∗ semVal (sendCell c 3) 0
        ∗ semVal (recvCell c 1) 0 ∗ semVal (recvCell c 2) 0 ∗ semVal (recvCell c 3) 0) := by
  rw [Pipeline.ownSems0_eq_of_list c osem [0, 1, 2, 3, 4, 5] (by decide) (by decide)]; rfl

set_option maxHeartbeats 1600000 in
/-- The body, stepped from `bodyPre`, one rule per effect in program order, to `bodyPost`. -/
theorem sound_body : SoundBody m := fun K c Kt => by
  unfold bodyPre ghost scrAny payToks
  rw [positions_eq]
  iintro ⟨⟨⟨⟨#Hrec, ⟨HatB, HatS1, HatS2, HatS3, HatR1, HatR2, HatR3⟩, ⟨HtB1, HtB2, HtB3, HtR1, HtR2, HtR3, HtS1, HtS2, HtS3⟩⟩,
      HcB, HcR1, HcR2, HcR3, #Hlev, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  ihave #HIbar := (inv_bar m K c) $$ Hrec
  ihave #HIb1 := (inv_bar m K (sh c 1)) $$ Hrec
  ihave #HIb2 := (inv_bar m K (sh c 2)) $$ Hrec
  ihave #HIb3 := (inv_bar m K (sh c 3)) $$ Hrec
  ihave #HIs1 := (inv_send1 m K c) $$ Hrec
  ihave #HIs2 := (inv_send2 m K c) $$ Hrec
  ihave #HIs3 := (inv_send3 m K c) $$ Hrec
  ihave #HIr1 := (inv_recv1 m K c) $$ Hrec
  ihave #HIr2 := (inv_recv2 m K c) $$ Hrec
  ihave #HIr3 := (inv_recv3 m K c) $$ Hrec
  ihave #HIp1 := (inv_recv3 m K (sh c 1)) $$ Hrec
  ihave #HIp2 := (inv_recv2 m K (sh c 2)) $$ Hrec
  ihave #HIp3 := (inv_recv1 m K (sh c 3)) $$ Hrec
  ihave #HrB1 := (reached_bar m K (sh c 1)) $$ Hrec
  ihave #HrB2 := (reached_bar m K (sh c 2)) $$ Hrec
  ihave #HrB3 := (reached_bar m K (sh c 3)) $$ Hrec
  ihave #HrS1 := (reached_send1 m K c) $$ Hrec
  ihave #HrS2 := (reached_send2 m K c) $$ Hrec
  ihave #HrS3 := (reached_send3 m K c) $$ Hrec
  ihave #HrP1 := (reached_recv3 m K (sh c 1)) $$ Hrec
  ihave #HrP2 := (reached_recv2 m K (sh c 2)) $$ Hrec
  ihave #HrP3 := (reached_recv1 m K (sh c 3)) $$ Hrec
  ihave Hrows := (Entails.of_eq (rows_eq c fullShare f0)) $$ Hscr
  icases Hrows with ⟨HR0, HR1, HR2, HR3⟩
  ihave #Hmw := (mayWait_bar (F := F) c) $$ Hlev
  have hd1 : (⟨k0_dev1 (c : Thread nD τ).1, k0_dev1_lt _⟩ : Dev nD) = sh c 1 := dev1_eq c
  have hd2 : (⟨k0_dev2 (c : Thread nD τ).1, k0_dev2_lt _⟩ : Dev nD) = sh c 2 := dev2_eq c
  have hd3 : (⟨k0_dev3 (c : Thread nD τ).1, k0_dev3_lt _⟩ : Dev nD) = sh c 3 := dev3_eq c
  have hd4 : (⟨k0_dev4 (c : Thread nD τ).1, k0_dev4_lt _⟩ : Dev nD) = sh c 1 := dev4_eq c
  have hd5 : (⟨k0_dev5 (c : Thread nD τ).1, k0_dev5_lt _⟩ : Dev nD) = sh c 2 := dev5_eq c
  have hd6 : (⟨k0_dev6 (c : Thread nD τ).1, k0_dev6_lt _⟩ : Dev nD) = sh c 3 := dev6_eq c
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId, hd1, hd2, hd3, hd4, hd5, hd6, dev4_eq c, dev5_eq c, dev6_eq c]
  -- the three signals: each hands the peer the row of this device's buffer it will write
  iapply (Rounds.wp_signal 𝒱₀ ER (sched m) (c : Thread nD τ) none (dst := ((sh c 1 : Dev nD) : Thread nD τ)) (κ := K (sh c 1, 0))
      (d := 1) (by rw [duties_bar]; decide) ((amount_bar m (sh c 1) 1).trans (by decide)) () (Oe c) rfl) $$ [HO HtB1 HR1]
  · isplitr; · iexact HIb1
    isplitl [HO]; · iexact HO
    isplitl [HtB1]; · iexact HtB1
    isplitl [HR1]
    · rw [payload_peer1]; iexists f0; unfold rowPts; iexact HR1
    · iexact HrB1
  iintro HO
  unfold Oe
  iapply (Rounds.wp_signal 𝒱₀ ER (sched m) (c : Thread nD τ) none (dst := ((sh c 2 : Dev nD) : Thread nD τ)) (κ := K (sh c 2, 0))
      (d := 2) (by rw [duties_bar]; decide) ((amount_bar m (sh c 2) 2).trans (by decide)) () (Od c) rfl) $$ [HO HtB2 HR2]
  · isplitr; · iexact HIb2
    isplitl [HO]; · iexact HO
    isplitl [HtB2]; · iexact HtB2
    isplitl [HR2]
    · rw [payload_peer2]; iexists f0; unfold rowPts; iexact HR2
    · iexact HrB2
  iintro HO
  unfold Od
  iapply (Rounds.wp_signal 𝒱₀ ER (sched m) (c : Thread nD τ) none (dst := ((sh c 3 : Dev nD) : Thread nD τ)) (κ := K (sh c 3, 0))
      (d := 3) (by rw [duties_bar]; decide) ((amount_bar m (sh c 3) 3).trans (by decide)) () (Oc c) rfl) $$ [HO HtB3 HR3]
  · isplitr; · iexact HIb3
    isplitl [HO]; · iexact HO
    isplitl [HtB3]; · iexact HtB3
    isplitl [HR3]
    · rw [payload_peer3]; iexists f0; unfold rowPts; iexact HR3
    · iexact HrB3
  iintro HO
  -- the exponentials, stored; their row sums, stored in row 0
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Hout; iintro Hout
  iapply (wp_store 𝒱₀ (c : Thread nD τ) none Set.univ (m := oM) (r := r2) (Mk := Finset.univ) (Finset.subset_univ _)) $$ Hout; iintro Hout
  rw [write_o]
  unfold rowPts
  rw [row_set]
  iapply (wp_load 𝒱₀ (c : Thread nD τ) none Set.univ (m := sM) (S := (rowR 0).set)
    (by unfold View.setOn; rw [View.emb_whole]; intro i hi; obtain ⟨j, hj, rfl⟩ := Finset.mem_map.mp hi; exact hj)) $$ HR0; iintro HR0
  iapply (wp_store 𝒱₀ (c : Thread nD τ) none Set.univ (m := sM) (r := rowR 0) (Mk := Finset.univ) (S := (rowR 0).set)
    (by show ((sM : Memref sig .tc .vmem S4x1x1024 .f32).access (rowR 0) : View sig .tc _ _ _).set ⊆ _
        rw [show ((sM : Memref sig .tc .vmem S4x1x1024 .f32).access (rowR 0) : View sig .tc _ _ _).set = (rowR 0).set from View.set_slice_whole cc0_scratch0 (rowR 0)])) $$ HR0; iintro HR0
  ihave HR0 := (Entails.of_eq (pointsTo_congr (stored_eq m c f0))) $$ HR0
  -- the barrier wait, owing the three receive credits: the three peers' rows come with it
  iapply (Rounds.wp_wait_rest_token 𝒱₀ ER (sched m) (c : Thread nD τ) none (κ := K (c, 0))
      (wpE_semWait_eq 𝒱₀ (c : Thread nD τ) none Set.univ) (Set.mem_univ _) () (O := Oc c) (R := 0) (m := 0) (T := ∅)
      (by rw [expect_bar]; decide)) $$ [HcB HO HatB]
  · isplitr; · iexact HIbar
    isplitl [HcB]; · iexact HcB
    isplitl [HO]; · iexact HO
    isplitr; · iexact Hmw
    iexact HatB
  iintro ⟨HO, HatB, -, Hpay⟩
  ihave Hp := (Entails.of_eq (rest_bar m c)) $$ Hpay
  unfold barPay
  icases Hp with ⟨⟨%f1p, HP1⟩, ⟨%f2p, HP2⟩, ⟨%f3p, HP3⟩⟩
  -- row 0 at its final contents, in four shares
  ihave HR0 := (Entails.of_eq (row_of_set c 0 fullShare (gath m c))) $$ HR0
  ihave Hsh := (row0_shares c (gath m c)).1 $$ HR0
  icases Hsh with ⟨HQ0, HQ1, HQ2, HQ3⟩
  unfold Oc
  -- the copy to the device 1 place(s) on, into its row 3
  iapply (wp_send_row m c _ 1 3 (by decide) (by decide) (dev4_eq c) (κ₁ := K (c, 1)) (κ₂ := K (sh c 1, 6)) f3p _ (Ob c) rfl _) $$ [HQ1 HP3 HO HtS1 HtR1]
  · isplitr; · iexact HIs1
    isplitr; · iexact HIp1
    isplitl [HQ1]; · iexact HQ1
    isplitl [HP3]; · iexact HP3
    isplitl [HO]; · iexact HO
    isplitl [HtS1]; · iexact HtS1
    isplitr; · iexact HrS1
    isplitl [HtR1]; · iexact HtR1
    iexact HrP1
  iintro ⟨HcS1, HO⟩
  unfold Ob
  -- the copy to the device 2 place(s) on, into its row 2
  iapply (wp_send_row m c _ 2 2 (by decide) (by decide) (dev5_eq c) (κ₁ := K (c, 2)) (κ₂ := K (sh c 2, 5)) f2p _ (Oa c) rfl _) $$ [HQ2 HP2 HO HtS2 HtR2]
  · isplitr; · iexact HIs2
    isplitr; · iexact HIp2
    isplitl [HQ2]; · iexact HQ2
    isplitl [HP2]; · iexact HP2
    isplitl [HO]; · iexact HO
    isplitl [HtS2]; · iexact HtS2
    isplitr; · iexact HrS2
    isplitl [HtR2]; · iexact HtR2
    iexact HrP2
  iintro ⟨HcS2, HO⟩
  unfold Oa
  -- the copy to the device 3 place(s) on, into its row 1
  iapply (wp_send_row m c _ 3 1 (by decide) (by decide) (dev6_eq c) (κ₁ := K (c, 3)) (κ₂ := K (sh c 3, 4)) f1p _ 0 (by rw [zero_add]) _) $$ [HQ3 HP1 HO HtS3 HtR3]
  · isplitr; · iexact HIs3
    isplitr; · iexact HIp3
    isplitl [HQ3]; · iexact HQ3
    isplitl [HP1]; · iexact HP1
    isplitl [HO]; · iexact HO
    isplitl [HtS3]; · iexact HtS3
    isplitr; · iexact HrS3
    isplitl [HtR3]; · iexact HtR3
    iexact HrP3
  iintro ⟨HcS3, HO⟩
  -- the wait on receive cell 3: row 3 comes back at its final contents
  iapply (Rounds.wp_wait_rest_token 𝒱₀ ER (sched m) (c : Thread nD τ) none (κ := K (c, 6)) (sm := SemLoc.dma (recvS 3))
      (wpE_waitDma2_eq 𝒱₀ (c : Thread nD τ) none Set.univ) (Set.mem_univ _) () (O := 0) (R := 0) (m := 0) (T := ∅)
      (by rw [Nat.zero_add, expect_recv3])) $$ [HcR3 HO HatR3]
  · isplitr; · iexact HIr3
    isplitl [HcR3]; · iexact HcR3
    isplitl [HO]; · iexact HO
    isplitr; · rw [MayWait_zero]; iempintro
    iexact HatR3
  iintro ⟨HO, HatR3, -, Hpay⟩
  ihave HV3 := (Entails.of_eq (rest_recv3 m c)) $$ Hpay
  -- the wait on receive cell 2: row 2 comes back at its final contents
  iapply (Rounds.wp_wait_rest_token 𝒱₀ ER (sched m) (c : Thread nD τ) none (κ := K (c, 5)) (sm := SemLoc.dma (recvS 2))
      (wpE_waitDma2_eq 𝒱₀ (c : Thread nD τ) none Set.univ) (Set.mem_univ _) () (O := 0) (R := 0) (m := 0) (T := ∅)
      (by rw [Nat.zero_add, expect_recv2])) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave HV2 := (Entails.of_eq (rest_recv2 m c)) $$ Hpay
  -- the wait on receive cell 1: row 1 comes back at its final contents
  iapply (Rounds.wp_wait_rest_token 𝒱₀ ER (sched m) (c : Thread nD τ) none (κ := K (c, 4)) (sm := SemLoc.dma (recvS 1))
      (wpE_waitDma2_eq 𝒱₀ (c : Thread nD τ) none Set.univ) (Set.mem_univ _) () (O := 0) (R := 0) (m := 0) (T := ∅)
      (by rw [Nat.zero_add, expect_recv1])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave HV1 := (Entails.of_eq (rest_recv1 m c)) $$ Hpay
  -- the four rows at the kept share, as one buffer; read whole
  unfold recvPay
  ihave H1 := (row_halves c 1 fullShare (gath m c)).1 $$ HV1
  icases H1 with ⟨HV1l, HV1r⟩
  ihave H2 := (row_halves c 2 fullShare (gath m c)).1 $$ HV2
  icases H2 with ⟨HV2l, HV2r⟩
  ihave H3 := (row_halves c 3 fullShare (gath m c)).1 $$ HV3
  icases H3 with ⟨HV3l, HV3r⟩
  ihave Hall := (Entails.of_eq (rows_eq c (qS 0) (gath m c)).symm) $$ [HQ0 HV1l HV2l HV3l]
  · isplitl [HQ0]; · iexact HQ0
    isplitl [HV1l]; · iexact HV1l
    isplitl [HV2l]; · iexact HV2l
    iexact HV3l
  iapply (wp_load 𝒱₀ (c : Thread nD τ) none Set.univ (m := sM) (Finset.subset_univ _)) $$ Hall; iintro Hall
  rw [read_s]
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM) (r := r2) (Mk := Finset.univ) (Finset.subset_univ _)) $$ Hout; iintro Hout
  rw [write_o]
  -- the wait on send cell 1: the copy's share of row 0 comes back
  iapply (Rounds.wp_wait_rest_token 𝒱₀ ER (sched m) (c : Thread nD τ) none (κ := K (c, 1)) (sm := SemLoc.dma (sendS 1))
      (wpE_waitDma2_eq 𝒱₀ (c : Thread nD τ) none Set.univ) (Set.mem_univ _) () (O := 0) (R := 0) (m := 0) (T := ∅)
      (by rw [Nat.zero_add, expect_send1])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave HQ1 := (Entails.of_eq (rest_send1 m c)) $$ Hpay
  -- the wait on send cell 2: the copy's share of row 0 comes back
  iapply (Rounds.wp_wait_rest_token 𝒱₀ ER (sched m) (c : Thread nD τ) none (κ := K (c, 2)) (sm := SemLoc.dma (sendS 2))
      (wpE_waitDma2_eq 𝒱₀ (c : Thread nD τ) none Set.univ) (Set.mem_univ _) () (O := 0) (R := 0) (m := 0) (T := ∅)
      (by rw [Nat.zero_add, expect_send2])) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave HQ2 := (Entails.of_eq (rest_send2 m c)) $$ Hpay
  -- the wait on send cell 3: the copy's share of row 0 comes back
  iapply (Rounds.wp_wait_rest_token 𝒱₀ ER (sched m) (c : Thread nD τ) none (κ := K (c, 3)) (sm := SemLoc.dma (sendS 3))
      (wpE_waitDma2_eq 𝒱₀ (c : Thread nD τ) none Set.univ) (Set.mem_univ _) () (O := 0) (R := 0) (m := 0) (T := ∅)
      (by rw [Nat.zero_add, expect_send3])) $$ [HcS3 HO HatS3]
  · isplitr; · iexact HIs3
    isplitl [HcS3]; · iexact HcS3
    isplitl [HO]; · iexact HO
    isplitr; · rw [MayWait_zero]; iempintro
    iexact HatS3
  iintro ⟨HO, HatS3, -, Hpay⟩
  ihave HQ3 := (Entails.of_eq (rest_send3 m c)) $$ Hpay
  -- the six own cells close: their counters at zero are the core's again
  imod (Rounds.cell_close ER (sched m) (Set.mem_univ (K (c, 1))) (fun h => h) (R := 0 + 1) (duties_later m (sendCell c 1))) $$ [HatS1] with HzS1
  · isplitr; · iexact HIs1
    iexact HatS1
  imod (Rounds.cell_close ER (sched m) (Set.mem_univ (K (c, 2))) (fun h => h) (R := 0 + 1) (duties_later m (sendCell c 2))) $$ [HatS2] with HzS2
  · isplitr; · iexact HIs2
    iexact HatS2
  imod (Rounds.cell_close ER (sched m) (Set.mem_univ (K (c, 3))) (fun h => h) (R := 0 + 1) (duties_later m (sendCell c 3))) $$ [HatS3] with HzS3
  · isplitr; · iexact HIs3
    iexact HatS3
  imod (Rounds.cell_close ER (sched m) (Set.mem_univ (K (c, 4))) (fun h => h) (R := 0 + 1) (duties_later m (recvCell c 1))) $$ [HatR1] with HzR1
  · isplitr; · iexact HIr1
    iexact HatR1
  imod (Rounds.cell_close ER (sched m) (Set.mem_univ (K (c, 5))) (fun h => h) (R := 0 + 1) (duties_later m (recvCell c 2))) $$ [HatR2] with HzR2
  · isplitr; · iexact HIr2
    iexact HatR2
  imod (Rounds.cell_close ER (sched m) (Set.mem_univ (K (c, 6))) (fun h => h) (R := 0 + 1) (duties_later m (recvCell c 3))) $$ [HatR3] with HzR3
  · isplitr; · iexact HIr3
    iexact HatR3
  -- the shares of the rows, and the rows, put back together
  ihave Hrows := (Entails.of_eq (rows_eq c (qS 0) (gath m c))) $$ Hall
  icases Hrows with ⟨HQ0, HV1l, HV2l, HV3l⟩
  unfold sendPay
  ihave HR0 := (row0_shares c (gath m c)).2 $$ [HQ0 HQ1 HQ2 HQ3]
  · isplitl [HQ0]; · iexact HQ0
    isplitl [HQ1]; · iexact HQ1
    isplitl [HQ2]; · iexact HQ2
    iexact HQ3
  ihave HR1 := (row_halves c 1 fullShare (gath m c)).2 $$ [HV1l HV1r]
  · isplitl [HV1l]; · iexact HV1l
    iexact HV1r
  ihave HR2 := (row_halves c 2 fullShare (gath m c)).2 $$ [HV2l HV2r]
  · isplitl [HV2l]; · iexact HV2l
    iexact HV2r
  ihave HR3 := (row_halves c 3 fullShare (gath m c)).2 $$ [HV3l HV3r]
  · isplitl [HV3l]; · iexact HV3l
    iexact HV3r
  ihave Hscr := (Entails.of_eq (rows_eq c fullShare (gath m c)).symm) $$ [HR0 HR1 HR2 HR3]
  · isplitl [HR0]; · iexact HR0
    isplitl [HR1]; · iexact HR1
    isplitl [HR2]; · iexact HR2
    iexact HR3
  rw [wp_ret]; imodintro
  iapply Hk
  unfold bodyPost Φ₁ scrAny Dat.owesAt Pipeline.owesWithin
  rw [show (dats m 0 c).owed t₀.succ = 0 from rfl, ownSems0_flat]
  isplitl [Hscr HzS1 HzS2 HzS3 HzR1 HzR2 HzR3]
  · isplitl [Hscr]; · iexists (gath m c); iexact Hscr
    isplitl [HzS1]; · iexact HzS1
    isplitl [HzS2]; · iexact HzS2
    isplitl [HzS3]; · iexact HzS3
    isplitl [HzR1]; · iexact HzR1
    isplitl [HzR2]; · iexact HzR2
    iexact HzR3
  isplitl [HO]
  · iexists (insert (SemLoc.dma (sendS 3), ()) (insert (SemLoc.dma (sendS 2), ()) (insert (SemLoc.dma (sendS 1), ())
      (insert (SemLoc.dma (recvS 1), ()) (insert (SemLoc.dma (recvS 2), ()) (insert (SemLoc.dma (recvS 3), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Body

end
-- ==== Proof.lean ====
/-
  The certificate of the four-device column-sharded softmax: each device exponentiates its 1024×1024 block, sums the rows of
  the exponentials, exchanges the 1×1024 rows of partial sums with the three other devices (an entry handshake on the
  barrier semaphore, then three remote copies out of row 0 of a 4×1×1024 buffer, each into the row of the peer's buffer the
  handshake handed over), and scales its exponentials by the reciprocal of the sum of the four partial sums.

  Every module is written once, generic in the float instance, for the idealized kernel, and re-read at the word-level
  kernel: the protocol (one round per semaphore, a level order in which receive cells sit above barrier cells), one
  device's body stepped from the protocol's ghost state, the launch, and the run of all four devices with each result block
  named as a pure function of the four input blocks. The three frames are that run, and the reference's, with the values
  dropped; no ideal-pass rewrite was applied, so the idealization is the program's own text; and at the exact-real
  instance, with every input a finite real, the kernel's block is the reference's: the reference shifts every exponent by
  the row maximum, a finite real, which cancels, and the row sum over 4096 columns is the four blocks' sums taken round the
  mesh from the device's own.
-/
import proofs.«900394_g7700000000000395_dist_softmax_colshard_i_m1024_n1024_v7x_i4_f32_1_alg».proof.Defs
import proofs.«900394_g7700000000000395_dist_softmax_colshard_i_m1024_n1024_v7x_i4_f32_1_alg».proof.Proof.Assembly
import proofs.«900394_g7700000000000395_dist_softmax_colshard_i_m1024_n1024_v7x_i4_f32_1_alg».proof.Proof.KernelBody
import proofs.«900394_g7700000000000395_dist_softmax_colshard_i_m1024_n1024_v7x_i4_f32_1_alg».proof.Proof.KernelIdealBody

noncomputable section

namespace Cert.Proof

open Idealize.ShloMosaic

theorem claim : Cert.Claim :=
  Cert.Proof.Parts.claim_of (fun m => Cert.Kernel.Body.sound_body (F := Bits) m) (fun m => Cert.KernelIdeal.Body.sound_body (F := Ideal) m)

end Cert.Proof

end
